-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1200000 : Shape := ⟨2, ![2, 1200000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part9 {F : FTy → Type} [FloatOps F] (main_arg33 : FVec F S32x10 .f32) (main_arg34 : FVec F S10 .f32) (main_v153 : IVec S_ 1) : IVec S_ 1 :=
  let main_v154 : FVec F S32x10 .f32 := Host.absf main_arg33
  let main_cst_60 : FVec F S_ .f32 := constant S_ .f32 0x7F800000#32
  let main_v155 : FVec F S32x10 .f32 := broadcastInDim S32x10 ![] bcast_S_S32x10 main_cst_60
  let main_v156 : IVec S32x10 1 := cmpf .olt main_v154 main_v155
  let main_c_61 : IVec S_ 1 := constantI S_ 1 1#1
  let main_v157 : IVec S_ 1 := (fun x v => Host.reduce IntOp.andi x v reducesTo_S32x10_S_d0_1 h_S_) main_v156 main_c_61
  let main_v158 : IVec S_ 1 := andi main_v153 main_v157
  let main_v159 : FVec F S10 .f32 := Host.absf main_arg34
  let main_cst_62 : FVec F S_ .f32 := constant S_ .f32 0x7F800000#32
  let main_v160 : FVec F S10 .f32 := broadcastInDim S10 ![] bcast_S_S10 main_cst_62
  let main_v161 : IVec S10 1 := cmpf .olt main_v159 main_v160
  let main_c_63 : IVec S_ 1 := constantI S_ 1 1#1
  let main_v162 : IVec S_ 1 := (fun x v => Host.reduce IntOp.andi x v reducesTo_S10_S_d0 h_S_) main_v161 main_c_63
  let main_v163 : IVec S_ 1 := andi main_v158 main_v162
  main_v163

def fn_part8 {F : FTy → Type} [FloatOps F] (main_arg30 : FVec F S64 .f32) (main_arg31 : FVec F S64x32 .f32) (main_arg32 : FVec F S32 .f32) (main_arg33 : FVec F S32x10 .f32) (main_arg34 : FVec F S10 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg30
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64x32 .f32 := Host.absf main_arg31
  let main_cst_56 : FVec F S_ .f32 := constant S_ .f32 0x7F800000#32
  let main_v145 : FVec F S64x32 .f32 := broadcastInDim S64x32 ![] bcast_S_S64x32 main_cst_56
  let main_v146 : IVec S64x32 1 := cmpf .olt main_v144 main_v145
  let main_c_57 : IVec S_ 1 := constantI S_ 1 1#1
  let main_v147 : IVec S_ 1 := (fun x v => Host.reduce IntOp.andi x v reducesTo_S64x32_S_d0_1 h_S_) main_v146 main_c_57
  let main_v148 : IVec S_ 1 := andi main_v143 main_v147
  let main_v149 : FVec F S32 .f32 := Host.absf main_arg32
  let main_cst_58 : FVec F S_ .f32 := constant S_ .f32 0x7F800000#32
  let main_v150 : FVec F S32 .f32 := broadcastInDim S32 ![] bcast_S_S32 main_cst_58
  let main_v151 : IVec S32 1 := cmpf .olt main_v149 main_v150
  let main_c_59 : IVec S_ 1 := constantI S_ 1 1#1
  let main_v152 : IVec S_ 1 := (fun x v => Host.reduce IntOp.andi x v reducesTo_S32_S_d0 h_S_) main_v151 main_c_59
  let main_v153 : IVec S_ 1 := andi main_v148 main_v152
  fn_part9 (F := F) main_arg33 main_arg34 main_v153

def fn_part7 {F : FTy → Type} [FloatOps F] (main_arg27 : FVec F S64 .f32) (main_arg28 : FVec F S64 .f32) (main_arg29 : FVec F S64 .f32) (main_arg30 : FVec F S64 .f32) (main_arg31 : FVec F S64x32 .f32) (main_arg32 : FVec F S32 .f32) (main_arg33 : FVec F S32x10 .f32) (main_arg34 : FVec F S10 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg29
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg30 main_arg31 main_arg32 main_arg33 main_arg34 main_v133 main_v136

def fn_part6 {F : FTy → Type} [FloatOps F] (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : FVec F S64 .f32) (main_arg31 : FVec F S64x32 .f32) (main_arg32 : FVec F S32 .f32) (main_arg33 : FVec F S32x10 .f32) (main_arg34 : FVec F S10 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x64 .f32 := Host.absf main_arg23
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg25
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg26
  fn_part7 (F := F) main_arg27 main_arg28 main_arg29 main_arg30 main_arg31 main_arg32 main_arg33 main_arg34 main_v118 main_v119

def fn_part5 {F : FTy → Type} [FloatOps F] (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : FVec F S64 .f32) (main_arg31 : FVec F S64x32 .f32) (main_arg32 : FVec F S32 .f32) (main_arg33 : FVec F S32x10 .f32) (main_arg34 : FVec F S10 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_arg34 main_v98 main_v101 main_c_39

def fn_part4 {F : FTy → Type} [FloatOps F] (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : FVec F S64 .f32) (main_arg31 : FVec F S64x32 .f32) (main_arg32 : FVec F S32 .f32) (main_arg33 : FVec F S32x10 .f32) (main_arg34 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_arg34 main_v83 main_v84 main_cst_32

def fn_part3 {F : FTy → Type} [FloatOps F] (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : FVec F S64 .f32) (main_arg31 : FVec F S64x32 .f32) (main_arg32 : FVec F S32 .f32) (main_arg33 : FVec F S32x10 .f32) (main_arg34 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg9 : FVec F S3x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : FVec F S64 .f32) (main_arg31 : FVec F S64x32 .f32) (main_arg32 : FVec F S32 .f32) (main_arg33 : FVec F S32x10 .f32) (main_arg34 : FVec F S10 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg6 : FVec F S64 .f32) (main_arg7 : FVec F S3x64 .f32) (main_arg8 : FVec F S64 .f32) (main_arg9 : FVec F S3x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : FVec F S64 .f32) (main_arg31 : FVec F S64x32 .f32) (main_arg32 : FVec F S32 .f32) (main_arg33 : FVec F S32x10 .f32) (main_arg34 : FVec F S10 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : FVec F S100000x3 .f32) (main_arg1 : IVec S2x1200000 32) (main_arg2 : IVec S100000 32) (main_arg3 : FVec F S3x64 .f32) (main_arg4 : FVec F S64 .f32) (main_arg5 : FVec F S3x64 .f32) (main_arg6 : FVec F S64 .f32) (main_arg7 : FVec F S3x64 .f32) (main_arg8 : FVec F S64 .f32) (main_arg9 : FVec F S3x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : FVec F S64 .f32) (main_arg31 : FVec F S64x32 .f32) (main_arg32 : FVec F S32 .f32) (main_arg33 : FVec F S32x10 .f32) (main_arg34 : FVec F S10 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S100000x3 : Shape := ⟨2, ![100000, 3]⟩
abbrev S2x1200000 : Shape := ⟨2, ![2, 1200000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x3 : Shape := ⟨2, ![1200000, 3]⟩
abbrev S100000x64 : Shape := ⟨2, ![100000, 64]⟩
abbrev S5000x3 : Shape := ⟨2, ![5000, 3]⟩
abbrev S5000x64 : Shape := ⟨2, ![5000, 64]⟩
abbrev S1x64 : Shape := ⟨2, ![1, 64]⟩
abbrev S1200000x64 : Shape := ⟨2, ![1200000, 64]⟩
abbrev S1334x64 : Shape := ⟨2, ![1334, 64]⟩
abbrev S100000x1 : Shape := ⟨2, ![100000, 1]⟩
abbrev S1334 : Shape := ⟨1, ![1334]⟩
abbrev S1334x1 : Shape := ⟨2, ![1334, 1]⟩
abbrev S1334x10 : Shape := ⟨2, ![1334, 10]⟩
abbrev S1334x32 : Shape := ⟨2, ![1334, 32]⟩
abbrev S1x32 : Shape := ⟨2, ![1, 32]⟩
abbrev S1x10 : Shape := ⟨2, ![1, 10]⟩

abbrev nBuf : Space → Nat
  | .hbm => 98
  | .vmem => 52
  | .smem => 0
  | _ => 0

abbrev bufTy : (tb : Table) → Fin (tcTables nBuf tb) → BufTy
  | .hbm, ⟨0, _⟩ => ⟨S100000x3, .f32⟩
  | .hbm, ⟨1, _⟩ => ⟨S2x1200000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S3x64, .f32⟩
  | .hbm, ⟨6, _⟩ => ⟨S64, .f32⟩
  | .hbm, ⟨7, _⟩ => ⟨S3x64, .f32⟩
  | .hbm, ⟨8, _⟩ => ⟨S64, .f32⟩
  | .hbm, ⟨9, _⟩ => ⟨S3x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S64x64, .f32⟩
  | .hbm, ⟨24, _⟩ => ⟨S64, .f32⟩
  | .hbm, ⟨25, _⟩ => ⟨S64x64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64x32, .f32⟩
  | .hbm, ⟨32, _⟩ => ⟨S32, .f32⟩
  | .hbm, ⟨33, _⟩ => ⟨S32x10, .f32⟩
  | .hbm, ⟨34, _⟩ => ⟨S10, .f32⟩
  | .hbm, ⟨35, _⟩ => ⟨S1x1200000, .i32⟩
  | .hbm, ⟨36, _⟩ => ⟨S1200000, .i32⟩
  | .hbm, ⟨37, _⟩ => ⟨S1x1200000, .i32⟩
  | .hbm, ⟨38, _⟩ => ⟨S1200000, .i32⟩
  | .hbm, ⟨39, _⟩ => ⟨S_, .i32⟩
  | .hbm, ⟨40, _⟩ => ⟨S1200000, .i32⟩
  | .hbm, ⟨41, _⟩ => ⟨S1200000, .i1⟩
  | .hbm, ⟨42, _⟩ => ⟨S_, .i32⟩
  | .hbm, ⟨43, _⟩ => ⟨S1200000, .i32⟩
  | .hbm, ⟨44, _⟩ => ⟨S1200000, .i32⟩
  | .hbm, ⟨45, _⟩ => ⟨S1200000, .i32⟩
  | .hbm, ⟨46, _⟩ => ⟨S1200000x1, .i32⟩
  | .hbm, ⟨47, _⟩ => ⟨S1200000x3, .f32⟩
  | .hbm, ⟨48, _⟩ => ⟨S_, .f32⟩
  | .hbm, ⟨49, _⟩ => ⟨S100000x3, .f32⟩
  | .hbm, ⟨50, _⟩ => ⟨S1200000x1, .i32⟩
  | .hbm, ⟨51, _⟩ => ⟨S100000x3, .f32⟩
  | .hbm, ⟨52, _⟩ => ⟨S100000x64, .f32⟩
  | .hbm, ⟨53, _⟩ => ⟨S_, .i32⟩
  | .hbm, ⟨54, _⟩ => ⟨S1200000, .i32⟩
  | .hbm, ⟨55, _⟩ => ⟨S1200000, .i1⟩
  | .hbm, ⟨56, _⟩ => ⟨S_, .i32⟩
  | .hbm, ⟨57, _⟩ => ⟨S1200000, .i32⟩
  | .hbm, ⟨58, _⟩ => ⟨S1200000, .i32⟩
  | .hbm, ⟨59, _⟩ => ⟨S1200000, .i32⟩
  | .hbm, ⟨60, _⟩ => ⟨S1200000x1, .i32⟩
  | .hbm, ⟨61, _⟩ => ⟨S1200000x64, .f32⟩
  | .hbm, ⟨62, _⟩ => ⟨S_, .f32⟩
  | .hbm, ⟨63, _⟩ => ⟨S100000x64, .f32⟩
  | .hbm, ⟨64, _⟩ => ⟨S1200000x1, .i32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1200000, .i32⟩
  | .hbm, ⟨69, _⟩ => ⟨S1200000, .i1⟩
  | .hbm, ⟨70, _⟩ => ⟨S_, .i32⟩
  | .hbm, ⟨71, _⟩ => ⟨S1200000, .i32⟩
  | .hbm, ⟨72, _⟩ => ⟨S1200000, .i32⟩
  | .hbm, ⟨73, _⟩ => ⟨S1200000, .i32⟩
  | .hbm, ⟨74, _⟩ => ⟨S1200000x1, .i32⟩
  | .hbm, ⟨75, _⟩ => ⟨S1200000x64, .f32⟩
  | .hbm, ⟨76, _⟩ => ⟨S_, .f32⟩
  | .hbm, ⟨77, _⟩ => ⟨S100000x64, .f32⟩
  | .hbm, ⟨78, _⟩ => ⟨S1200000x1, .i32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S1334x64, .f32⟩
  | .hbm, ⟨83, _⟩ => ⟨S100000x1, .i32⟩
  | .hbm, ⟨84, _⟩ => ⟨S1334x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S1334, .f32⟩
  | .hbm, ⟨89, _⟩ => ⟨S100000x1, .i32⟩
  | .hbm, ⟨90, _⟩ => ⟨S1334, .f32⟩
  | .hbm, ⟨91, _⟩ => ⟨S_, .f32⟩
  | .hbm, ⟨92, _⟩ => ⟨S1334, .f32⟩
  | .hbm, ⟨93, _⟩ => ⟨S1334, .f32⟩
  | .hbm, ⟨94, _⟩ => ⟨S1334x1, .f32⟩
  | .hbm, ⟨95, _⟩ => ⟨S1334x64, .f32⟩
  | .hbm, ⟨96, _⟩ => ⟨S1334x64, .f32⟩
  | .hbm, ⟨97, _⟩ => ⟨S1334x10, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S3x64, .f32⟩
  | .local _ .vmem, ⟨5, _⟩ => ⟨S64, .f32⟩
  | .local _ .vmem, ⟨6, _⟩ => ⟨S3x64, .f32⟩
  | .local _ .vmem, ⟨7, _⟩ => ⟨S64, .f32⟩
  | .local _ .vmem, ⟨8, _⟩ => ⟨S3x64, .f32⟩
  | .local _ .vmem, ⟨9, _⟩ => ⟨S64, .f32⟩
  | .local _ .vmem, ⟨10, _⟩ => ⟨S3x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64x64, .f32⟩
  | .local _ .vmem, ⟨23, _⟩ => ⟨S64, .f32⟩
  | .local _ .vmem, ⟨24, _⟩ => ⟨S64x64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64, .f32⟩
  | .local _ .vmem, ⟨34, _⟩ => ⟨S64x64, .f32⟩
  | .local _ .vmem, ⟨35, _⟩ => ⟨S64, .f32⟩
  | .local _ .vmem, ⟨36, _⟩ => ⟨S64x64, .f32⟩
  | .local _ .vmem, ⟨37, _⟩ => ⟨S64, .f32⟩
  | .local _ .vmem, ⟨38, _⟩ => ⟨S64x64, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | .local _ .vmem, ⟨42, _⟩ => ⟨S1334x64, .f32⟩
  | .local _ .vmem, ⟨43, _⟩ => ⟨S64, .f32⟩
  | .local _ .vmem, ⟨44, _⟩ => ⟨S64, .f32⟩
  | .local _ .vmem, ⟨45, _⟩ => ⟨S64, .f32⟩
  | .local _ .vmem, ⟨46, _⟩ => ⟨S64, .f32⟩
  | .local _ .vmem, ⟨47, _⟩ => ⟨S64x32, .f32⟩
  | .local _ .vmem, ⟨48, _⟩ => ⟨S32, .f32⟩
  | .local _ .vmem, ⟨49, _⟩ => ⟨S32x10, .f32⟩
  | .local _ .vmem, ⟨50, _⟩ => ⟨S10, .f32⟩
  | .local _ .vmem, ⟨51, _⟩ => ⟨S1334x10, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_c : Ref sig .tc := ⟨.hbm, 39, rfl⟩
abbrev main_v4 : Ref sig .tc := ⟨.hbm, 40, rfl⟩
abbrev main_v5 : Ref sig .tc := ⟨.hbm, 41, rfl⟩
abbrev main_c_0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_c_1 : Ref sig .tc := ⟨.hbm, 53, rfl⟩
abbrev main_v15 : Ref sig .tc := ⟨.hbm, 54, rfl⟩
abbrev main_v16 : Ref sig .tc := ⟨.hbm, 55, rfl⟩
abbrev main_c_2 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_3 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_4 : Ref sig .tc := ⟨.hbm, 67, rfl⟩
abbrev main_v26 : Ref sig .tc := ⟨.hbm, 68, rfl⟩
abbrev main_v27 : Ref sig .tc := ⟨.hbm, 69, rfl⟩
abbrev main_c_5 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_6 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_7 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_8 : Ref sig .tc := ⟨.hbm, 85, rfl⟩
abbrev main_v40 : Ref sig .tc := ⟨.hbm, 86, rfl⟩
abbrev main_cst_9 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_10 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem9_0 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1334x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S10 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1334x10 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x3 : S_.BroadcastsInDim S100000x3 (![] : Fin 0 → Fin S100000x3.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  shapeCasts_S5000x3_S5000x3 : S5000x3.ShapeCasts S5000x3
  inb_S3x64_S3x64_0_0 : ∀ a, (![0, 0] : Fin 2 → Nat) a + S3x64.size a ≤ S3x64.size a
  h_S3x64 : 0 < S3x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S1334x64 : S_.BroadcastsInDim S1334x64 (![] : Fin 0 → Fin S1334x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1334 : S_.BroadcastsInDim S1334 (![] : Fin 0 → Fin S1334.rank)
  bcast_S1334_S1334x1_0 : S1334.BroadcastsInDim S1334x1 (![0] : Fin 1 → Fin S1334x1.rank)
  bcast_S1334x1_S1334x64_0_1 : S1334x1.BroadcastsInDim S1334x64 (![0, 1] : Fin 2 → Fin S1334x64.rank)
  inb_S1334x64_S1334x64_0_0 : ∀ a, (![0, 0] : Fin 2 → Nat) a + S1334x64.size a ≤ S1334x64.size a
  h_S1334x64 : 0 < S1334x64.numel
  shapeCasts_S1334x64_S1334x64 : S1334x64.ShapeCasts S1334x64
  broadcasts_S1x64_S1334x64 : S1x64.Broadcasts S1334x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S1334x32 : S1x32.Broadcasts S1334x32
  inb_S32x10_S32x10_0_0 : ∀ a, (![0, 0] : Fin 2 → Nat) a + S32x10.size a ≤ S32x10.size a
  h_S32x10 : 0 < S32x10.numel
  inb_S10_S10_0 : ∀ a, (![0] : Fin 1 → Nat) a + S10.size a ≤ S10.size a
  h_S10 : 0 < S10.numel
  shapeCasts_S10_S1x10 : S10.ShapeCasts S1x10
  broadcasts_S1x10_S1334x10 : S1x10.Broadcasts S1334x10
  reduces_S1334x10_S1334 : S1334x10.Reduces [1] S1334
  shapeCasts_S1334_S1334x1 : S1334.ShapeCasts S1334x1
  broadcasts_S1334x1_S1334x10 : S1334x1.Broadcasts S1334x10
  inb_S1334x10_S1334x10_0_0 : ∀ a, (![0, 0] : Fin 2 → Nat) a + S1334x10.size a ≤ S1334x10.size a
  h_S1334x10 : 0 < S1334x10.numel
  gather_S100000x3_S1200000x1_S1200000x3_1_0_n_n_0_1_13_wf : GatherDims.WF S100000x3 S1200000x1 S1200000x3 [1] [0] [] [0] [] 1 ![1, 3]
  scatter_S100000x3_S1200000x1_S1200000x3_1_0_0_1_wf : ScatterDims.WF S100000x3 S1200000x1 S1200000x3 [1] [0] [0] 1
  dot_S5000x3_S3x64_S5000x64_1_0_0_1_n_n_wf : DotDims.WF S5000x3 S3x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S1334x64_S100000x1_S100000x64_1_0_0_1_wf : ScatterDims.WF S1334x64 S100000x1 S100000x64 [1] [0] [0] 1
  scatter_S1334_S100000x1_S100000_n_0_0_1_wf : ScatterDims.WF S1334 S100000x1 S100000 [] [0] [0] 1
  dot_S1334x64_S64x32_S1334x32_1_0_0_1_n_n_wf : DotDims.WF S1334x64 S64x32 S1334x32 [1] [0] [0] [1] [] []
  dot_S1334x32_S32x10_S1334x10_1_0_0_1_n_n_wf : DotDims.WF S1334x32 S32x10 S1334x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .f32 = 32 ∨ (Rect.block (s := S3x64) S3x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64.size a ≤ S3x64.size a
  hwx0_8 : ∀ i : grid0.Coords, EltTy.bits .f32 = 32 ∨ (Rect.block (s := S3x64) S3x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S100000x64.size a
  hwx2_10 : ∀ i : grid2.Coords, EltTy.bits .f32 = 32 ∨ (Rect.block (s := S100000x64) S5000x64.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1334x64.size a ≤ S1334x64.size a
  hwx3_0 : ∀ i : grid3.Coords, EltTy.bits .f32 = 32 ∨ (Rect.block (s := S1334x64) S1334x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x32.size a ≤ S64x32.size a
  hwx3_5 : ∀ i : grid3.Coords, EltTy.bits .f32 = 32 ∨ (Rect.block (s := S64x32) S64x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32.size a ≤ S32.size a
  hwx3_6 : ∀ i : grid3.Coords, EltTy.bits .f32 = 32 ∨ (Rect.block (s := S32) S32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32x10.size a ≤ S32x10.size a
  hwx3_7 : ∀ i : grid3.Coords, EltTy.bits .f32 = 32 ∨ (Rect.block (s := S32x10) S32x10.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S10.size a ≤ S10.size a
  hwx3_8 : ∀ i : grid3.Coords, EltTy.bits .f32 = 32 ∨ (Rect.block (s := S10) S10.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1334x10.size a ≤ S1334x10.size a
  hwx3_9 : ∀ i : grid3.Coords, EltTy.bits .f32 = 32 ∨ (Rect.block (s := S1334x10) S1334x10.size (cc3_transform_9 i) (hinb3_9 i)).WholeWords (EltTy.packing .f32)

variable [Facts₀]

def gather_S100000x3_S1200000x1_S1200000x3_1_0_n_n_0_1_13 : GatherDims S100000x3 S1200000x1 S1200000x3 where
  offsetDims := [1]
  collapsedSliceDims := [0]
  operandBatchingDims := []
  startIndicesBatchingDims := []
  startIndexMap := [0]
  indexVectorDim := 1
  sliceSizes := ![1, 3]
  wf := gather_S100000x3_S1200000x1_S1200000x3_1_0_n_n_0_1_13_wf
def scatter_S100000x3_S1200000x1_S1200000x3_1_0_0_1 : ScatterDims S100000x3 S1200000x1 S1200000x3 where
  updateWindowDims := [1]
  insertedWindowDims := [0]
  scatterDimsToOperandDims := [0]
  indexVectorDim := 1
  wf := scatter_S100000x3_S1200000x1_S1200000x3_1_0_0_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1334x64_S100000x1_S100000x64_1_0_0_1 : ScatterDims S1334x64 S100000x1 S100000x64 where
  updateWindowDims := [1]
  insertedWindowDims := [0]
  scatterDimsToOperandDims := [0]
  indexVectorDim := 1
  wf := scatter_S1334x64_S100000x1_S100000x64_1_0_0_1_wf
def scatter_S1334_S100000x1_S100000_n_0_0_1 : ScatterDims S1334 S100000x1 S100000 where
  updateWindowDims := []
  insertedWindowDims := [0]
  scatterDimsToOperandDims := [0]
  indexVectorDim := 1
  wf := scatter_S1334_S100000x1_S100000_n_0_0_1_wf
def dot_S1334x64_S64x32_S1334x32_1_0_0_1_n_n : DotDims S1334x64 S64x32 S1334x32 where
  lhsContracting := [1]
  rhsContracting := [0]
  lhsNonContracting := [0]
  rhsNonContracting := [1]
  lhsBatch := []
  rhsBatch := []
  wf := dot_S1334x64_S64x32_S1334x32_1_0_0_1_n_n_wf
def dot_S1334x32_S32x10_S1334x10_1_0_0_1_n_n : DotDims S1334x32 S32x10 S1334x10 where
  lhsContracting := [1]
  rhsContracting := [0]
  lhsNonContracting := [0]
  rhsNonContracting := [1]
  lhsBatch := []
  rhsBatch := []
  wf := dot_S1334x32_S32x10_S1334x10_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg21) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg22) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg23) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg24) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg25) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg26) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v36) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v48) S1334x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg27) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg28) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg29) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg30) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg31) S64x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg32) S32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg33) S32x10.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg34) S10.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v49) S1334x10.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1200000 : Shape := ⟨2, ![2, 1200000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x3 : Shape := ⟨2, ![1200000, 3]⟩
abbrev S100000x64 : Shape := ⟨2, ![100000, 64]⟩
abbrev S1x64 : Shape := ⟨2, ![1, 64]⟩
abbrev S1200000x64 : Shape := ⟨2, ![1200000, 64]⟩
abbrev S1334x64 : Shape := ⟨2, ![1334, 64]⟩
abbrev S100000x1 : Shape := ⟨2, ![100000, 1]⟩
abbrev S1334 : Shape := ⟨1, ![1334]⟩
abbrev S1334x1 : Shape := ⟨2, ![1334, 1]⟩
abbrev S1334x32 : Shape := ⟨2, ![1334, 32]⟩
abbrev S1x32 : Shape := ⟨2, ![1, 32]⟩
abbrev S1334x10 : Shape := ⟨2, ![1334, 10]⟩
abbrev S1x10 : Shape := ⟨2, ![1, 10]⟩

abbrev nBuf : Space → Nat
  | .hbm => 202
  | .vmem => 0
  | .smem => 0
  | _ => 0

abbrev hbmTy0_0 (i : Nat) : BufTy := match i % 128 with
  | 0 => ⟨S100000x3, .f32⟩
  | 1 => ⟨S2x1200000, .i32⟩
  | 2 => ⟨S100000, .i32⟩
  | 3 => ⟨S3x64, .f32⟩
  | 4 => ⟨S64, .f32⟩
  | 5 => ⟨S3x64, .f32⟩
  | 6 => ⟨S64, .f32⟩
  | 7 => ⟨S3x64, .f32⟩
  | 8 => ⟨S64, .f32⟩
  | 9 => ⟨S3x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S64x64, .f32⟩
  | 26 => ⟨S64, .f32⟩
  | 27 => ⟨S64, .f32⟩
  | 28 => ⟨S64, .f32⟩
  | 29 => ⟨S64, .f32⟩
  | 30 => ⟨S64, .f32⟩
  | 31 => ⟨S64x32, .f32⟩
  | 32 => ⟨S32, .f32⟩
  | 33 => ⟨S32x10, .f32⟩
  | 34 => ⟨S10, .f32⟩
  | 35 => ⟨S1x1200000, .i32⟩
  | 36 => ⟨S1200000, .i32⟩
  | 37 => ⟨S1x1200000, .i32⟩
  | 38 => ⟨S1200000, .i32⟩
  | 39 => ⟨S_, .i32⟩
  | 40 => ⟨S1200000, .i32⟩
  | 41 => ⟨S1200000, .i1⟩
  | 42 => ⟨S_, .i32⟩
  | 43 => ⟨S1200000, .i32⟩
  | 44 => ⟨S1200000, .i32⟩
  | 45 => ⟨S1200000, .i32⟩
  | 46 => ⟨S1200000x1, .i32⟩
  | 47 => ⟨S1200000x3, .f32⟩
  | 48 => ⟨S_, .f32⟩
  | 49 => ⟨S100000x3, .f32⟩
  | 50 => ⟨S1200000x1, .i32⟩
  | 51 => ⟨S100000x3, .f32⟩
  | 52 => ⟨S100000x64, .f32⟩
  | 53 => ⟨S1x64, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .i32⟩
  | 75 => ⟨S1200000, .i32⟩
  | 76 => ⟨S1200000, .i1⟩
  | 77 => ⟨S_, .i32⟩
  | 78 => ⟨S1200000, .i32⟩
  | 79 => ⟨S1200000, .i32⟩
  | 80 => ⟨S1200000, .i32⟩
  | 81 => ⟨S1200000x1, .i32⟩
  | 82 => ⟨S1200000x64, .f32⟩
  | 83 => ⟨S_, .f32⟩
  | 84 => ⟨S100000x64, .f32⟩
  | 85 => ⟨S1200000x1, .i32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .i32⟩
  | 110 => ⟨S1200000, .i32⟩
  | 111 => ⟨S1200000, .i1⟩
  | 112 => ⟨S_, .i32⟩
  | 113 => ⟨S1200000, .i32⟩
  | 114 => ⟨S1200000, .i32⟩
  | 115 => ⟨S1200000, .i32⟩
  | 116 => ⟨S1200000x1, .i32⟩
  | 117 => ⟨S1200000x64, .f32⟩
  | 118 => ⟨S_, .f32⟩
  | 119 => ⟨S100000x64, .f32⟩
  | 120 => ⟨S1200000x1, .i32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S100000x64, .f32⟩
  | 127 => ⟨S1x64, .f32⟩
  | _ => ⟨S100000x3, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S_, .f32⟩
  | 17 => ⟨S1334x64, .f32⟩
  | 18 => ⟨S100000x1, .i32⟩
  | 19 => ⟨S1334x64, .f32⟩
  | 20 => ⟨S_, .f32⟩
  | 21 => ⟨S100000, .f32⟩
  | 22 => ⟨S_, .f32⟩
  | 23 => ⟨S1334, .f32⟩
  | 24 => ⟨S100000x1, .i32⟩
  | 25 => ⟨S1334, .f32⟩
  | 26 => ⟨S_, .f32⟩
  | 27 => ⟨S1334, .f32⟩
  | 28 => ⟨S1334, .f32⟩
  | 29 => ⟨S1334x1, .f32⟩
  | 30 => ⟨S1334x64, .f32⟩
  | 31 => ⟨S1334x64, .f32⟩
  | 32 => ⟨S1x64, .f32⟩
  | 33 => ⟨S1334x64, .f32⟩
  | 34 => ⟨S1334x64, .f32⟩
  | 35 => ⟨S_, .f32⟩
  | 36 => ⟨S64, .f32⟩
  | 37 => ⟨S64, .f32⟩
  | 38 => ⟨S64, .f32⟩
  | 39 => ⟨S1x64, .f32⟩
  | 40 => ⟨S1334x64, .f32⟩
  | 41 => ⟨S1334x64, .f32⟩
  | 42 => ⟨S1x64, .f32⟩
  | 43 => ⟨S1334x64, .f32⟩
  | 44 => ⟨S1334x64, .f32⟩
  | 45 => ⟨S1x64, .f32⟩
  | 46 => ⟨S1334x64, .f32⟩
  | 47 => ⟨S1334x64, .f32⟩
  | 48 => ⟨S1334x32, .f32⟩
  | 49 => ⟨S1x32, .f32⟩
  | 50 => ⟨S1334x32, .f32⟩
  | 51 => ⟨S1334x32, .f32⟩
  | 52 => ⟨S_, .f32⟩
  | 53 => ⟨S1334x32, .f32⟩
  | 54 => ⟨S1334x32, .f32⟩
  | 55 => ⟨S1334x10, .f32⟩
  | 56 => ⟨S1x10, .f32⟩
  | 57 => ⟨S1334x10, .f32⟩
  | 58 => ⟨S1334x10, .f32⟩
  | 59 => ⟨S_, .f32⟩
  | 60 => ⟨S1334, .f32⟩
  | 61 => ⟨S_, .f32⟩
  | 62 => ⟨S1334, .f32⟩
  | 63 => ⟨S1334, .f32⟩
  | 64 => ⟨S1334x1, .f32⟩
  | 65 => ⟨S1334x10, .f32⟩
  | 66 => ⟨S1334x10, .f32⟩
  | 67 => ⟨S1334x10, .f32⟩
  | 68 => ⟨S_, .f32⟩
  | 69 => ⟨S1334, .f32⟩
  | 70 => ⟨S1334x1, .f32⟩
  | 71 => ⟨S1334x1, .f32⟩
  | 72 => ⟨S1334x10, .f32⟩
  | 73 => ⟨S1334x10, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_c : Ref sig .tc := ⟨.hbm, 39, rfl⟩
abbrev main_v4 : Ref sig .tc := ⟨.hbm, 40, rfl⟩
abbrev main_v5 : Ref sig .tc := ⟨.hbm, 41, rfl⟩
abbrev main_c_0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_call0_cst : Ref sig .tc := ⟨.hbm, 71, rfl⟩
abbrev main_call0_v0 : Ref sig .tc := ⟨.hbm, 72, rfl⟩
abbrev main_v33 : Ref sig .tc := ⟨.hbm, 73, rfl⟩
abbrev main_c_1 : Ref sig .tc := ⟨.hbm, 74, rfl⟩
abbrev main_v34 : Ref sig .tc := ⟨.hbm, 75, rfl⟩
abbrev main_v35 : Ref sig .tc := ⟨.hbm, 76, rfl⟩
abbrev main_c_2 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_3 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_call1_cst : Ref sig .tc := ⟨.hbm, 106, rfl⟩
abbrev main_call1_v0 : Ref sig .tc := ⟨.hbm, 107, rfl⟩
abbrev main_v63 : Ref sig .tc := ⟨.hbm, 108, rfl⟩
abbrev main_c_4 : Ref sig .tc := ⟨.hbm, 109, rfl⟩
abbrev main_v64 : Ref sig .tc := ⟨.hbm, 110, rfl⟩
abbrev main_v65 : Ref sig .tc := ⟨.hbm, 111, rfl⟩
abbrev main_c_5 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_6 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_call2_cst : Ref sig .tc := ⟨.hbm, 141, rfl⟩
abbrev main_call2_v0 : Ref sig .tc := ⟨.hbm, 142, rfl⟩
abbrev main_v93 : Ref sig .tc := ⟨.hbm, 143, rfl⟩
abbrev main_cst_7 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_8 : Ref sig .tc := ⟨.hbm, 148, rfl⟩
abbrev main_v97 : Ref sig .tc := ⟨.hbm, 149, rfl⟩
abbrev main_cst_9 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_10 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_11 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_call3_cst : Ref sig .tc := ⟨.hbm, 180, rfl⟩
abbrev main_call3_v0 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_call4_cst : Ref sig .tc := ⟨.hbm, 187, rfl⟩
abbrev main_call4_v0 : Ref sig .tc := ⟨.hbm, 188, rfl⟩
abbrev main_call4_cst_0 : Ref sig .tc := ⟨.hbm, 189, rfl⟩
abbrev main_call4_v1 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_cst_1 : Ref sig .tc := ⟨.hbm, 196, rfl⟩
abbrev main_call4_v7 : Ref sig .tc := ⟨.hbm, 197, rfl⟩
abbrev main_call4_v8 : Ref sig .tc := ⟨.hbm, 198, rfl⟩
abbrev main_call4_v9 : Ref sig .tc := ⟨.hbm, 199, rfl⟩
abbrev main_call4_v10 : Ref sig .tc := ⟨.hbm, 200, rfl⟩
abbrev main_v130 : Ref sig .tc := ⟨.hbm, 201, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x3 : S_.BroadcastsInDim S100000x3 (![] : Fin 0 → Fin S100000x3.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1334x64 : S_.BroadcastsInDim S1334x64 (![] : Fin 0 → Fin S1334x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1334 : S_.BroadcastsInDim S1334 (![] : Fin 0 → Fin S1334.rank)
  bcast_S1334_S1334x1_0 : S1334.BroadcastsInDim S1334x1 (![0] : Fin 1 → Fin S1334x1.rank)
  bcast_S1334x1_S1334x64_0_1 : S1334x1.BroadcastsInDim S1334x64 (![0, 1] : Fin 2 → Fin S1334x64.rank)
  bcast_S1x64_S1334x64_0_1 : S1x64.BroadcastsInDim S1334x64 (![0, 1] : Fin 2 → Fin S1334x64.rank)
  bcast_S_S64 : S_.BroadcastsInDim S64 (![] : Fin 0 → Fin S64.rank)
  bcast_S32_S1x32_1 : S32.BroadcastsInDim S1x32 (![1] : Fin 1 → Fin S1x32.rank)
  bcast_S1x32_S1334x32_0_1 : S1x32.BroadcastsInDim S1334x32 (![0, 1] : Fin 2 → Fin S1334x32.rank)
  bcast_S_S1334x32 : S_.BroadcastsInDim S1334x32 (![] : Fin 0 → Fin S1334x32.rank)
  bcast_S10_S1x10_1 : S10.BroadcastsInDim S1x10 (![1] : Fin 1 → Fin S1x10.rank)
  bcast_S1x10_S1334x10_0_1 : S1x10.BroadcastsInDim S1334x10 (![0, 1] : Fin 2 → Fin S1334x10.rank)
  reducesTo_S1334x10_S1334_d1 : S1334x10.ReducesTo [1] S1334
  h_S_ : 0 < S_.numel
  bcast_S1334x1_S1334x10_0_1 : S1334x1.BroadcastsInDim S1334x10 (![0, 1] : Fin 2 → Fin S1334x10.rank)
  gather_S100000x3_S1200000x1_S1200000x3_1_0_n_n_0_1_13_wf : GatherDims.WF S100000x3 S1200000x1 S1200000x3 [1] [0] [] [0] [] 1 ![1, 3]
  scatter_S100000x3_S1200000x1_S1200000x3_1_0_0_1_wf : ScatterDims.WF S100000x3 S1200000x1 S1200000x3 [1] [0] [0] 1
  dot_S100000x3_S3x64_S100000x64_1_0_0_1_n_n_wf : DotDims.WF S100000x3 S3x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S1334x64_S100000x1_S100000x64_1_0_0_1_wf : ScatterDims.WF S1334x64 S100000x1 S100000x64 [1] [0] [0] 1
  scatter_S1334_S100000x1_S100000_n_0_0_1_wf : ScatterDims.WF S1334 S100000x1 S100000 [] [0] [0] 1
  dot_S1334x64_S64x32_S1334x32_1_0_0_1_n_n_wf : DotDims.WF S1334x64 S64x32 S1334x32 [1] [0] [0] [1] [] []
  dot_S1334x32_S32x10_S1334x10_1_0_0_1_n_n_wf : DotDims.WF S1334x32 S32x10 S1334x10 [1] [0] [0] [1] [] []

variable [Facts₀]

def gather_S100000x3_S1200000x1_S1200000x3_1_0_n_n_0_1_13 : GatherDims S100000x3 S1200000x1 S1200000x3 where
  offsetDims := [1]
  collapsedSliceDims := [0]
  operandBatchingDims := []
  startIndicesBatchingDims := []
  startIndexMap := [0]
  indexVectorDim := 1
  sliceSizes := ![1, 3]
  wf := gather_S100000x3_S1200000x1_S1200000x3_1_0_n_n_0_1_13_wf
def scatter_S100000x3_S1200000x1_S1200000x3_1_0_0_1 : ScatterDims S100000x3 S1200000x1 S1200000x3 where
  updateWindowDims := [1]
  insertedWindowDims := [0]
  scatterDimsToOperandDims := [0]
  indexVectorDim := 1
  wf := scatter_S100000x3_S1200000x1_S1200000x3_1_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1334x64_S100000x1_S100000x64_1_0_0_1 : ScatterDims S1334x64 S100000x1 S100000x64 where
  updateWindowDims := [1]
  insertedWindowDims := [0]
  scatterDimsToOperandDims := [0]
  indexVectorDim := 1
  wf := scatter_S1334x64_S100000x1_S100000x64_1_0_0_1_wf
def scatter_S1334_S100000x1_S100000_n_0_0_1 : ScatterDims S1334 S100000x1 S100000 where
  updateWindowDims := []
  insertedWindowDims := [0]
  scatterDimsToOperandDims := [0]
  indexVectorDim := 1
  wf := scatter_S1334_S100000x1_S100000_n_0_0_1_wf
def dot_S1334x64_S64x32_S1334x32_1_0_0_1_n_n : DotDims S1334x64 S64x32 S1334x32 where
  lhsContracting := [1]
  rhsContracting := [0]
  lhsNonContracting := [0]
  rhsNonContracting := [1]
  lhsBatch := []
  rhsBatch := []
  wf := dot_S1334x64_S64x32_S1334x32_1_0_0_1_n_n_wf
def dot_S1334x32_S32x10_S1334x10_1_0_0_1_n_n : DotDims S1334x32 S32x10 S1334x10 where
  lhsContracting := [1]
  rhsContracting := [0]
  lhsNonContracting := [0]
  rhsNonContracting := [1]
  lhsBatch := []
  rhsBatch := []
  wf := dot_S1334x32_S32x10_S1334x10_1_0_0_1_n_n_wf

class Facts : Prop extends Facts₀ where

variable [Facts]
-- ==== Proof.KernelRun.lean ====
/-
  The idealized kernel's run, with its result named.

  @main is four kernel regions among four stretches of host operations. Its buffers' contents at the eight boundaries
  are a fold over the launch memory: a stretch applies its operations in order, a region leaves in each of its arrays
  what its grid points wrote back and every other buffer as it found it. Every weakly fair execution from a memory with
  zero counters terminates without a fault, and the final state holds, in every buffer that outlives a region, the
  fold's last contents `W8`. Read at the result buffer that is the value of the whole network; read at an argument it
  is the launch contents, because nothing writes an argument.

  The run is the library's launch of a list of segments: the launch deals each core its unscoped buffers at the launch
  contents, which is the first thread state; the segments chain by reflexivity, each leaving what the next expects;
  the last thread state, every unscoped buffer at `W8`, is read off against the final memory one points-to at a time.
-/
import proofs.«136228_j64991445123425_1_alg».proof.Proof.PatchedFrameKernelIdeal

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read off the last thread state on core `c`: every unscoped buffer at the fold's final contents. -/
abbrev Reads (c : Dev nD) (s : MemSt nD τ sig (Elt F)) : Prop :=
  ∀ b ∈ Pipeline.ucRefs τ sig, s.mem (((c : Thread nD τ)).1, b) = W8 m ρ c b

-- the launch theorem's implicit arguments are found by unifying its conclusion with the statement, which takes
-- unfolding plain definitions inside a metavariable's type
set_option backward.isDefEq.respectTransparency.types false in
/-- Every execution ends with the result buffer at the fold's final contents and every argument as launched. -/
theorem run : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own, and no core is handed a ghost resource
      have own_eq : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have no_ghost : (BI.emp : sProp 𝕄) ⊢ bigSep Finset.univ (fun _ : Dev nD => (BI.emp : sProp 𝕄)) := by
        rw [BI.bigSep_emp_const]
      iintro Hown
      imodintro
      isplitl [Hown]
      · iapply own_eq
        iexact Hown
      · iapply no_ghost
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      -- the first thread state on every core: the unscoped buffers at the launch contents, the generator register at
      -- its launch state, the core owing nothing
      refine Pipeline.initEach L lv fun c => ?_
      rw [Pipeline.unscopedBufs_held c (W0 m ρ c)]
      iintro ⟨⟨Hbufs, -, Howes, -, Hreg, -⟩, -⟩
      imodintro
      isplitl [Hbufs]
      · iexact Hbufs
      isplitl [Hreg]
      · iexists _
        iexact Hreg
      · iexists ∅
        iexact Howes)
    (QY := Reads m ρ)
    (hfin := fun c s' => by
      -- the last thread state against a final state: each unscoped buffer's points-to pins the memory there
      iintro ⟨⟨Hheld, -⟩, HSI⟩
      unfold StableHlo.held
      imodintro
      iapply (pointsTo_read_all (Pipeline.ucRefs τ sig) (fun b => (((c : Thread nD τ)).1, b)) (W8 m ρ c) s')
      isplitl [Hheld]
      · iexact Hheld
      · iexact HSI)
    (hQ := fun s hall c =>
      have hW : ∀ (b : Ref sig .tc) (hb : ¬ (Proc.devRef .tc b : DevRef τ sig).isScoped),
          s.mem (((c : Thread nD τ)).1, Proc.devRef .tc b) = W8 m ρ c (Proc.devRef .tc b) :=
        fun b hb => hall c _ (mem_uc b hb)
      ⟨hW main_v49 (by decide),
      (hW main_arg0 (by decide)).trans (W8_main_arg0 m ρ c),
      (hW main_arg1 (by decide)).trans (W8_main_arg1 m ρ c),
      (hW main_arg2 (by decide)).trans (W8_main_arg2 m ρ c),
      (hW main_arg3 (by decide)).trans (W8_main_arg3 m ρ c),
      (hW main_arg4 (by decide)).trans (W8_main_arg4 m ρ c),
      (hW main_arg5 (by decide)).trans (W8_main_arg5 m ρ c),
      (hW main_arg6 (by decide)).trans (W8_main_arg6 m ρ c),
      (hW main_arg7 (by decide)).trans (W8_main_arg7 m ρ c),
      (hW main_arg8 (by decide)).trans (W8_main_arg8 m ρ c),
      (hW main_arg9 (by decide)).trans (W8_main_arg9 m ρ c),
      (hW main_arg10 (by decide)).trans (W8_main_arg10 m ρ c),
      (hW main_arg11 (by decide)).trans (W8_main_arg11 m ρ c),
      (hW main_arg12 (by decide)).trans (W8_main_arg12 m ρ c),
      (hW main_arg13 (by decide)).trans (W8_main_arg13 m ρ c),
      (hW main_arg14 (by decide)).trans (W8_main_arg14 m ρ c),
      (hW main_arg15 (by decide)).trans (W8_main_arg15 m ρ c),
      (hW main_arg16 (by decide)).trans (W8_main_arg16 m ρ c),
      (hW main_arg17 (by decide)).trans (W8_main_arg17 m ρ c),
      (hW main_arg18 (by decide)).trans (W8_main_arg18 m ρ c),
      (hW main_arg19 (by decide)).trans (W8_main_arg19 m ρ c),
      (hW main_arg20 (by decide)).trans (W8_main_arg20 m ρ c),
      (hW main_arg21 (by decide)).trans (W8_main_arg21 m ρ c),
      (hW main_arg22 (by decide)).trans (W8_main_arg22 m ρ c),
      (hW main_arg23 (by decide)).trans (W8_main_arg23 m ρ c),
      (hW main_arg24 (by decide)).trans (W8_main_arg24 m ρ c),
      (hW main_arg25 (by decide)).trans (W8_main_arg25 m ρ c),
      (hW main_arg26 (by decide)).trans (W8_main_arg26 m ρ c),
      (hW main_arg27 (by decide)).trans (W8_main_arg27 m ρ c),
      (hW main_arg28 (by decide)).trans (W8_main_arg28 m ρ c),
      (hW main_arg29 (by decide)).trans (W8_main_arg29 m ρ c),
      (hW main_arg30 (by decide)).trans (W8_main_arg30 m ρ c),
      (hW main_arg31 (by decide)).trans (W8_main_arg31 m ρ c),
      (hW main_arg32 (by decide)).trans (W8_main_arg32 m ρ c),
      (hW main_arg33 (by decide)).trans (W8_main_arg33 m ρ c),
      (hW main_arg34 (by decide)).trans (W8_main_arg34 m ρ c)⟩)

end Cert.KernelIdeal.Named

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«136228_j64991445123425_1_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibGatedLayer.lean ====
/-
  One gated graph-convolution layer, entry by entry.

  Row p of the layer's output is computed from row p of the node features x and row p of the aggregated neighbour
  features a (both of width K): with weight matrices Wc, Wa, W1, W2 of shape [K, B] and bias vectors bc, ba, b1, b2,

      out (p, q) = max ( (x_p · Wa_q + ba_q) + (a_p · Wc_q + bc_q) + (x_p · W1_q + b1_q) * (x_p · W2_q + b2_q) , 0 )

  where u · v is the sum over k < K of u k * v k and Wa_q is column q of Wa. Sums, products and the maximum are those
  of the extended reals, and the additions are grouped as written: nothing here is rearranged, so no entry has to be
  finite. The zero is carried as the value of the all-zero f32 word.

  A tile of A rows computed inside a kernel body — four matrix products into zero accumulators, each plus its bias
  vector recast as a [1, B] row and repeated along the rows — reads at (p, q) exactly this entry.
-/
import proofs.«136228_j64991445123425_1_alg».proof.Proof.LibAffineLayer

noncomputable section

namespace Cert.Gated

open Idealize.ShloMosaic Idealize.ShloMosaic.ValueIdx

variable {A K B : ℕ}

/-- One entry of the layer from a feature row, an aggregated row, four weight columns and four bias entries. -/
def entry (xr ar wc wa w1 w2 : Fin K → EReal) (bc ba b1 b2 : EReal) : EReal :=
  max ((((∑ k : Fin K, xr k * wa k) + ba) + ((∑ k : Fin K, ar k * wc k) + bc))
        + ((∑ k : Fin K, xr k * w1 k) + b1) * ((∑ k : Fin K, xr k * w2 k) + b2))
    (Ideal.ofBits .f32 0x00000000#32)

/-- The layer as one function of whole arrays: entry (r, q) of the output from row r of the features and of the
    aggregated neighbours, column q of the weights and entry q of the biases. -/
def layer {N : ℕ} (X Ag : (⟨2, ![N, K]⟩ : Shape).Idx → EReal) (Wc Wa W1 W2 : (⟨2, ![K, B]⟩ : Shape).Idx → EReal)
    (bc ba b1 b2 : (⟨1, ![B]⟩ : Shape).Idx → EReal) : (⟨2, ![N, B]⟩ : Shape).Idx → EReal := fun i =>
  entry (fun k => X (ix2 (i 0) k)) (fun k => Ag (ix2 (i 0) k)) (fun k => Wc (ix2 k (i 1))) (fun k => Wa (ix2 k (i 1)))
    (fun k => W1 (ix2 k (i 1))) (fun k => W2 (ix2 k (i 1))) (bc (ix1 (i 1))) (ba (ix1 (i 1))) (b1 (ix1 (i 1))) (b2 (ix1 (i 1)))

theorem layer_apply {N : ℕ} (X Ag : (⟨2, ![N, K]⟩ : Shape).Idx → EReal) (Wc Wa W1 W2 : (⟨2, ![K, B]⟩ : Shape).Idx → EReal)
    (bc ba b1 b2 : (⟨1, ![B]⟩ : Shape).Idx → EReal) (r : Fin N) (q : Fin B) :
    layer X Ag Wc Wa W1 W2 bc ba b1 b2 (ix2 r q)
      = entry (fun k => X (ix2 r k)) (fun k => Ag (ix2 r k)) (fun k => Wc (ix2 k q)) (fun k => Wa (ix2 k q))
          (fun k => W1 (ix2 k q)) (fun k => W2 (ix2 k q)) (bc (ix1 q)) (ba (ix1 q)) (b1 (ix1 q)) (b2 (ix1 q)) := rfl

/-- A tile of the layer computed by four matrix products and broadcast bias rows, read at row p and column q. -/
theorem tile_apply {φ₁ φ₂ : FTy} (wf : DotDims.WF ⟨2, ![A, K]⟩ ⟨2, ![K, B]⟩ ⟨2, ![A, B]⟩ [1] [0] [0] [1] [] [])
    (x a : FVec Ideal ⟨2, ![A, K]⟩ φ₁) (Wc Wa W1 W2 : FVec Ideal ⟨2, ![K, B]⟩ φ₂) (bc ba b1 b2 : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    maximumf
        (addf
          (addf
            (addf (matmul (Cert.Lib.plain2 wf) none x Wa (constant ⟨2, ![A, B]⟩ .f32 0x00000000#32))
              (broadcastTo ⟨2, ![A, B]⟩ (shapeCast ⟨2, ![1, B]⟩ ba hc) hb))
            (addf (matmul (Cert.Lib.plain2 wf) none a Wc (constant ⟨2, ![A, B]⟩ .f32 0x00000000#32))
              (broadcastTo ⟨2, ![A, B]⟩ (shapeCast ⟨2, ![1, B]⟩ bc hc) hb)))
          (mulf
            (addf (matmul (Cert.Lib.plain2 wf) none x W1 (constant ⟨2, ![A, B]⟩ .f32 0x00000000#32))
              (broadcastTo ⟨2, ![A, B]⟩ (shapeCast ⟨2, ![1, B]⟩ b1 hc) hb))
            (addf (matmul (Cert.Lib.plain2 wf) none x W2 (constant ⟨2, ![A, B]⟩ .f32 0x00000000#32))
              (broadcastTo ⟨2, ![A, B]⟩ (shapeCast ⟨2, ![1, B]⟩ b2 hc) hb))))
        (broadcast ⟨2, ![A, B]⟩ (Ideal.ofBits .f32 0x00000000#32)) (ix2 p q)
      = entry (fun k => x (ix2 p k)) (fun k => a (ix2 p k)) (fun k => Wc (ix2 k q)) (fun k => Wa (ix2 k q))
          (fun k => W1 (ix2 k q)) (fun k => W2 (ix2 k q)) (bc (ix1 q)) (ba (ix1 q)) (b1 (ix1 q)) (b2 (ix1 q)) := by
  have ea := Cert.Lib.affine_apply wf x Wa ba hc hb p q
  have ec := Cert.Lib.affine_apply wf a Wc bc hc hb p q
  have e1 := Cert.Lib.affine_apply wf x W1 b1 hc hb p q
  have e2 := Cert.Lib.affine_apply wf x W2 b2 hc hb p q
  show max ((addf _ _ (ix2 p q) + addf _ _ (ix2 p q)) + addf _ _ (ix2 p q) * addf _ _ (ix2 p q)) _ = _
  rw [ea, ec, e1, e2]
  rfl

end Cert.Gated

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibHeadLayer.lean ====
/-
  The classifier head, entry by entry.

  From row p of the pooled features P (width K₁), per-feature vectors μ, σ², γ, β, weights W₁ : [K₁, K₂], W₂ : [K₂, B]
  and biases b₁, b₂:

      z k     = ((P (p, k) − μ k) * rsqrt (σ² k + ε)) * γ k + β k          the normalised feature
      h j     = max (Σ k, z k * W₁ (k, j) + b₁ j, 0)                         the hidden unit
      l q     = Σ j, h j * W₂ (j, q) + b₂ q                                  the logit
      M       = max (−∞, max over q of l q)                                  the row's maximum
      out q   = (l q − M) − log (Σ q', exp (l q' − M))                       the log-softmax of the row

  on the extended reals, grouped as written; ε, 0 and −∞ are carried as the values of their f32 words. The maximum of the
  row is a fold of `max` from −∞. Nothing is rearranged, so nothing has to be finite.

  The second half reads a kernel tile that computes these steps — bias and statistics vectors recast as [1, n] rows and
  repeated along the rows, matrix products into zero accumulators, a row maximum and a row sum kept as a column and
  repeated along the row — at row p and column q.
-/
import proofs.«136228_j64991445123425_1_alg».proof.Proof.LibAffineLayer
import proofs.«136228_j64991445123425_1_alg».proof.Proof.LibKeepdims

noncomputable section

open scoped BigOperators

namespace Cert.Head

open Idealize.ShloMosaic Idealize.ShloMosaic.ValueIdx

variable {A K₁ K₂ B : ℕ}

/-- The normalised feature. -/
def norm (x mu var ga be : EReal) : EReal :=
  ((x - mu) * Ideal.rsqrt (var + Ideal.ofBits .f32 0x3727C5AC#32)) * ga + be

/-- A dense unit followed by the maximum with zero. -/
def hidden {K : ℕ} (zr w : Fin K → EReal) (b : EReal) : EReal :=
  max ((∑ k : Fin K, zr k * w k) + b) (Ideal.ofBits .f32 0x00000000#32)

/-- A dense unit. -/
def logit {K : ℕ} (hr w : Fin K → EReal) (b : EReal) : EReal := (∑ k : Fin K, hr k * w k) + b

/-- The maximum of a row, started at −∞ and compared with −∞ once more. -/
def rowMax (lr : Fin B → EReal) : EReal :=
  max (Ideal.ofBits .f32 0xFF800000#32) ((Finset.univ : Finset (Fin B)).fold max (Ideal.ofBits .f32 0xFF800000#32) lr)

/-- The log-softmax of a row at column q. -/
def lsm (lr : Fin B → EReal) (q : Fin B) : EReal :=
  (lr q - rowMax lr) - Ideal.log (∑ q' : Fin B, Ideal.exp (lr q' - rowMax lr))

/-- Row p's logits: the normalised pooled row through the hidden layer and the output layer. -/
def logitsRow (P : (⟨2, ![A, K₁]⟩ : Shape).Idx → EReal) (mu var ga be : (⟨1, ![K₁]⟩ : Shape).Idx → EReal)
    (W1 : (⟨2, ![K₁, K₂]⟩ : Shape).Idx → EReal) (b1 : (⟨1, ![K₂]⟩ : Shape).Idx → EReal)
    (W2 : (⟨2, ![K₂, B]⟩ : Shape).Idx → EReal) (b2 : (⟨1, ![B]⟩ : Shape).Idx → EReal) (p : Fin A) (q : Fin B) : EReal :=
  logit
    (fun j : Fin K₂ => hidden
      (fun k : Fin K₁ => norm (P (ix2 p k)) (mu (ix1 k)) (var (ix1 k)) (ga (ix1 k)) (be (ix1 k)))
      (fun k => W1 (ix2 k j)) (b1 (ix1 j)))
    (fun j => W2 (ix2 j q)) (b2 (ix1 q))

/-- The head as one function of whole arrays. -/
def out (P : (⟨2, ![A, K₁]⟩ : Shape).Idx → EReal) (mu var ga be : (⟨1, ![K₁]⟩ : Shape).Idx → EReal)
    (W1 : (⟨2, ![K₁, K₂]⟩ : Shape).Idx → EReal) (b1 : (⟨1, ![K₂]⟩ : Shape).Idx → EReal)
    (W2 : (⟨2, ![K₂, B]⟩ : Shape).Idx → EReal) (b2 : (⟨1, ![B]⟩ : Shape).Idx → EReal) : (⟨2, ![A, B]⟩ : Shape).Idx → EReal :=
  fun i => lsm (logitsRow P mu var ga be W1 b1 W2 b2 (i 0)) (i 1)

theorem out_apply (P : (⟨2, ![A, K₁]⟩ : Shape).Idx → EReal) (mu var ga be : (⟨1, ![K₁]⟩ : Shape).Idx → EReal)
    (W1 : (⟨2, ![K₁, K₂]⟩ : Shape).Idx → EReal) (b1 : (⟨1, ![K₂]⟩ : Shape).Idx → EReal)
    (W2 : (⟨2, ![K₂, B]⟩ : Shape).Idx → EReal) (b2 : (⟨1, ![B]⟩ : Shape).Idx → EReal) (p : Fin A) (q : Fin B) :
    out P mu var ga be W1 b1 W2 b2 (ix2 p q) = lsm (logitsRow P mu var ga be W1 b1 W2 b2 p) q := rfl

/-! ## A kernel tile read at (p, q) -/

/-- The normalisation step: the tile minus the mean row, times the row of reciprocal square roots, times the scale
    row, plus the shift row. -/
theorem norm_tile_apply (P : FVec Ideal ⟨2, ![A, K₁]⟩ .f32) (mu var ga be : FVec Ideal ⟨1, ![K₁]⟩ .f32)
    (hc : (⟨1, ![K₁]⟩ : Shape).ShapeCasts ⟨2, ![1, K₁]⟩) (hb : (⟨2, ![1, K₁]⟩ : Shape).Broadcasts ⟨2, ![A, K₁]⟩)
    (p : Fin A) (k : Fin K₁) :
    addf
        (mulf
          (mulf (subf P (broadcastTo ⟨2, ![A, K₁]⟩ (shapeCast ⟨2, ![1, K₁]⟩ mu hc) hb))
            (broadcastTo ⟨2, ![A, K₁]⟩
              (shapeCast ⟨2, ![1, K₁]⟩ (rsqrt (addf var (broadcast ⟨1, ![K₁]⟩ (Ideal.ofBits .f32 0x3727C5AC#32)))) hc) hb))
          (broadcastTo ⟨2, ![A, K₁]⟩ (shapeCast ⟨2, ![1, K₁]⟩ ga hc) hb))
        (broadcastTo ⟨2, ![A, K₁]⟩ (shapeCast ⟨2, ![1, K₁]⟩ be hc) hb) (ix2 p k)
      = norm (P (ix2 p k)) (mu (ix1 k)) (var (ix1 k)) (ga (ix1 k)) (be (ix1 k)) := by
  show ((P (ix2 p k) - broadcastTo ⟨2, ![A, K₁]⟩ (shapeCast ⟨2, ![1, K₁]⟩ mu hc) hb (ix2 p k))
        * broadcastTo ⟨2, ![A, K₁]⟩
            (shapeCast ⟨2, ![1, K₁]⟩ (rsqrt (addf var (broadcast ⟨1, ![K₁]⟩ (Ideal.ofBits .f32 0x3727C5AC#32)))) hc) hb (ix2 p k))
        * broadcastTo ⟨2, ![A, K₁]⟩ (shapeCast ⟨2, ![1, K₁]⟩ ga hc) hb (ix2 p k)
      + broadcastTo ⟨2, ![A, K₁]⟩ (shapeCast ⟨2, ![1, K₁]⟩ be hc) hb (ix2 p k) = _
  rw [Cert.Lib.rowBroadcast_apply mu hc hb p k, Cert.Lib.rowBroadcast_apply ga hc hb p k,
    Cert.Lib.rowBroadcast_apply be hc hb p k, Cert.Lib.rowBroadcast_apply _ hc hb p k]
  rfl

/-- A dense layer of the tile followed by the maximum with zero. -/
theorem hidden_tile_apply {φ₁ φ₂ : FTy} {K : ℕ} (wf : DotDims.WF ⟨2, ![A, K]⟩ ⟨2, ![K, B]⟩ ⟨2, ![A, B]⟩ [1] [0] [0] [1] [] [])
    (z : FVec Ideal ⟨2, ![A, K]⟩ φ₁) (W : FVec Ideal ⟨2, ![K, B]⟩ φ₂) (b : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    maximumf
        (addf (matmul (Cert.Lib.plain2 wf) none z W (constant ⟨2, ![A, B]⟩ .f32 0x00000000#32))
          (broadcastTo ⟨2, ![A, B]⟩ (shapeCast ⟨2, ![1, B]⟩ b hc) hb))
        (broadcast ⟨2, ![A, B]⟩ (Ideal.ofBits .f32 0x00000000#32)) (ix2 p q)
      = hidden (fun k => z (ix2 p k)) (fun k => W (ix2 k q)) (b (ix1 q)) := by
  have e := Cert.Lib.affine_apply wf z W b hc hb p q
  show max (addf _ _ (ix2 p q)) _ = _
  rw [e]
  rfl

/-- A dense layer of the tile. -/
theorem logit_tile_apply {φ₁ φ₂ : FTy} {K : ℕ} (wf : DotDims.WF ⟨2, ![A, K]⟩ ⟨2, ![K, B]⟩ ⟨2, ![A, B]⟩ [1] [0] [0] [1] [] [])
    (h : FVec Ideal ⟨2, ![A, K]⟩ φ₁) (W : FVec Ideal ⟨2, ![K, B]⟩ φ₂) (b : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (Cert.Lib.plain2 wf) none h W (constant ⟨2, ![A, B]⟩ .f32 0x00000000#32))
        (broadcastTo ⟨2, ![A, B]⟩ (shapeCast ⟨2, ![1, B]⟩ b hc) hb) (ix2 p q)
      = logit (fun k => h (ix2 p k)) (fun k => W (ix2 k q)) (b (ix1 q)) :=
  Cert.Lib.affine_apply wf h W b hc hb p q

/-- The tile minus its row maximum (from −∞, compared with −∞ once more), kept as a column and repeated along the row. -/
theorem shifted_tile_apply (l : FVec Ideal ⟨2, ![A, B]⟩ .f32)
    (hr : (⟨2, ![A, B]⟩ : Shape).Reduces [1] ⟨1, ![A]⟩) (hφ : FKind.Formats .f32)
    (hacc : (0xFF800000#32 : BitVec FTy.f32.bits) = FKind.maximumf.neutral .f32 hφ)
    (h2 : (⟨1, ![A]⟩ : Shape).ShapeCasts ⟨2, ![A, 1]⟩) (h3 : (⟨2, ![A, 1]⟩ : Shape).Broadcasts ⟨2, ![A, B]⟩)
    (p : Fin A) (q : Fin B) :
    subf l
        (broadcastTo ⟨2, ![A, B]⟩
          (shapeCast ⟨2, ![A, 1]⟩
            (maximumf (broadcast ⟨1, ![A]⟩ (Ideal.ofBits .f32 0xFF800000#32))
              (multiReduction .maximumf [1] ⟨1, ![A]⟩ l 0xFF800000#32 hr hφ hacc)) h2) h3) (ix2 p q)
      = l (ix2 p q) - rowMax (fun k => l (ix2 p k)) := by
  show l (ix2 p q) - broadcastTo ⟨2, ![A, B]⟩ (shapeCast ⟨2, ![A, 1]⟩ _ h2) h3 (ix2 p q) = _
  rw [Cert.Lib.keepdims_apply _ h2 h3 p q]
  show l (ix2 p q) - max (Ideal.ofBits .f32 0xFF800000#32)
      (multiReduction .maximumf [1] ⟨1, ![A]⟩ l 0xFF800000#32 hr hφ hacc (ix1 p)) = _
  rw [Cert.Lib.rowMax_apply l 0xFF800000#32 hr hφ hacc p]
  rfl

/-- A shifted tile minus the logarithm of its row sum of exponentials, kept as a column and repeated along the row. -/
theorem lse_tile_apply (s : FVec Ideal ⟨2, ![A, B]⟩ .f32)
    (hr : (⟨2, ![A, B]⟩ : Shape).Reduces [1] ⟨1, ![A]⟩) (hφ : FKind.Formats .f32)
    (hacc : (0x00000000#32 : BitVec FTy.f32.bits) = FKind.add.neutral .f32 hφ)
    (h2 : (⟨1, ![A]⟩ : Shape).ShapeCasts ⟨2, ![A, 1]⟩) (h3 : (⟨2, ![A, 1]⟩ : Shape).Broadcasts ⟨2, ![A, B]⟩)
    (p : Fin A) (q : Fin B) :
    subf s
        (broadcastTo ⟨2, ![A, B]⟩
          (log (shapeCast ⟨2, ![A, 1]⟩ (multiReduction .add [1] ⟨1, ![A]⟩ (exp s) 0x00000000#32 hr hφ hacc) h2)) h3) (ix2 p q)
      = s (ix2 p q) - Ideal.log (∑ k : Fin B, Ideal.exp (s (ix2 p k))) := by
  show s (ix2 p q) - broadcastTo ⟨2, ![A, B]⟩ (log (shapeCast ⟨2, ![A, 1]⟩ _ h2)) h3 (ix2 p q) = _
  rw [Cert.Lib.broadcastTo_a1_ab_apply _ h3 p q]
  show s (ix2 p q) - Ideal.log (shapeCast ⟨2, ![A, 1]⟩ _ h2 (ix2 p (0 : Fin 1))) = _
  rw [Cert.Lib.shapeCast_a_a1_apply _ h2 p 0, Cert.Lib.rowSum_apply (exp s) 0x00000000#32 hr hφ hacc p]
  rfl

/-- The two steps together: a tile's row-wise log-softmax at (p, q) is the log-softmax of its row p. -/
theorem lsm_tile_apply (l : FVec Ideal ⟨2, ![A, B]⟩ .f32)
    (hr : (⟨2, ![A, B]⟩ : Shape).Reduces [1] ⟨1, ![A]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (h2 : (⟨1, ![A]⟩ : Shape).ShapeCasts ⟨2, ![A, 1]⟩) (h3 : (⟨2, ![A, 1]⟩ : Shape).Broadcasts ⟨2, ![A, B]⟩)
    (p : Fin A) (q : Fin B) :
    subf
        (subf l
          (broadcastTo ⟨2, ![A, B]⟩
            (shapeCast ⟨2, ![A, 1]⟩
              (maximumf (broadcast ⟨1, ![A]⟩ (Ideal.ofBits .f32 0xFF800000#32))
                (multiReduction .maximumf [1] ⟨1, ![A]⟩ l 0xFF800000#32 hr hφ hmax)) h2) h3))
        (broadcastTo ⟨2, ![A, B]⟩
          (log
            (shapeCast ⟨2, ![A, 1]⟩
              (multiReduction .add [1] ⟨1, ![A]⟩
                (exp
                  (subf l
                    (broadcastTo ⟨2, ![A, B]⟩
                      (shapeCast ⟨2, ![A, 1]⟩
                        (maximumf (broadcast ⟨1, ![A]⟩ (Ideal.ofBits .f32 0xFF800000#32))
                          (multiReduction .maximumf [1] ⟨1, ![A]⟩ l 0xFF800000#32 hr hφ hmax)) h2) h3)))
                0x00000000#32 hr hφ hadd) h2)) h3) (ix2 p q)
      = lsm (fun k => l (ix2 p k)) q := by
  refine (lse_tile_apply _ hr hφ hadd h2 h3 p q).trans ?_
  simp only [shifted_tile_apply l hr hφ hmax h2 h3 p]
  rfl

end Cert.Head

end
-- ==== Proof.KernelTiles.lean ====
/-
  The four kernel bodies' arithmetic, read at an index of the block they store.

  Each of the three layer kernels loads a block of 5000 feature rows, the matching block of aggregated neighbour rows, four
  whole weight matrices and four whole bias vectors, and stores one value: at row p and column q of its block that value is
  the gated layer's entry (`Cert.Gated.entry`) of row p of the two blocks, column q of the weights and entry q of the biases.
  The head kernel loads the pooled features whole with the normalisation's vectors and the two dense layers' parameters,
  and stores the log-softmax of the logits: at (p, q) the head's entry of row p (`Cert.Head`).
-/
import proofs.«136228_j64991445123425_1_alg».proof.Proof.Gen.KernelIdeal.Skeleton
import proofs.«136228_j64991445123425_1_alg».proof.Proof.LibGatedLayer
import proofs.«136228_j64991445123425_1_alg».proof.Proof.LibHeadLayer

noncomputable section

open scoped BigOperators

namespace Cert.KernelIdeal.Tiles

open Cert.KernelIdeal Cert.KernelIdeal.Gen Idealize.ShloMosaic Idealize.ShloMosaic.ValueIdx

/-- Region 0's body at row p and column q of its tile: the layer's entry from row p of the feature block and of the
    aggregated block (the casts to bf16, and a cast of a block to its own shape, change nothing at the extended reals). -/
theorem tile0_apply (v0 v2 : Vec Ideal S5000x3 .f32) (v5 v7 v9 v11 : Vec Ideal S3x64 .f32) (v14 v19 v24 v29 : Vec Ideal S64 .f32)
    (p : Fin 5000) (q : Fin 64) :
    k0_pay1 (F := Ideal) v0 v2 v5 v7 v9 v11 v14 v19 v24 v29 (ix2 p q)
      = Cert.Gated.entry (fun k => v0 (ix2 p k)) (fun k => v2 (ix2 p k)) (fun k => v5 (ix2 k q)) (fun k => v7 (ix2 k q))
          (fun k => v9 (ix2 k q)) (fun k => v11 (ix2 k q)) (v14 (ix1 q)) (v19 (ix1 q)) (v24 (ix1 q)) (v29 (ix1 q)) := by
  unfold k0_pay1
  refine (Cert.Gated.tile_apply (A := 5000) (K := 3) (B := 64) dot_S5000x3_S3x64_S5000x64_1_0_0_1_n_n_wf
    (truncf .bf16 v0 bitsLt_bf16_f32) (truncf .bf16 (shapeCast S5000x3 v2 shapeCasts_S5000x3_S5000x3) bitsLt_bf16_f32)
    (truncf .bf16 v5 bitsLt_bf16_f32) (truncf .bf16 v7 bitsLt_bf16_f32) (truncf .bf16 v9 bitsLt_bf16_f32)
    (truncf .bf16 v11 bitsLt_bf16_f32) v14 v19 v24 v29 shapeCasts_S64_S1x64 broadcasts_S1x64_S5000x64 p q).trans ?_
  rw [shapeCast_self v2 shapeCasts_S5000x3_S5000x3]
  rfl

/-- Region 1's body at row p and column q of its tile: the layer's entry from row p of the feature block and of the
    aggregated block (the casts to bf16, and a cast of a block to its own shape, change nothing at the extended reals). -/
theorem tile1_apply (v0 v3 : Vec Ideal S5000x64 .f32) (v6 v8 v10 v12 : Vec Ideal S64x64 .f32) (v15 v20 v25 v30 : Vec Ideal S64 .f32)
    (p : Fin 5000) (q : Fin 64) :
    k1_pay1 (k1_pay2 (F := Ideal) v0 v3 v6 v8 v10 v12 v15 v20 v25 v30) (k1_pay3 (F := Ideal)) (ix2 p q)
      = Cert.Gated.entry (fun k => v0 (ix2 p k)) (fun k => v3 (ix2 p k)) (fun k => v6 (ix2 k q)) (fun k => v8 (ix2 k q))
          (fun k => v10 (ix2 k q)) (fun k => v12 (ix2 k q)) (v15 (ix1 q)) (v20 (ix1 q)) (v25 (ix1 q)) (v30 (ix1 q)) := by
  unfold k1_pay1 k1_pay2 k1_pay3
  refine (Cert.Gated.tile_apply (A := 5000) (K := 64) (B := 64) dot_S5000x64_S64x64_S5000x64_1_0_0_1_n_n_wf
    (truncf .bf16 (shapeCast S5000x64 v0 shapeCasts_S5000x64_S5000x64) bitsLt_bf16_f32) (truncf .bf16 (shapeCast S5000x64 v3 shapeCasts_S5000x64_S5000x64) bitsLt_bf16_f32)
    (truncf .bf16 v6 bitsLt_bf16_f32) (truncf .bf16 v8 bitsLt_bf16_f32) (truncf .bf16 v10 bitsLt_bf16_f32)
    (truncf .bf16 v12 bitsLt_bf16_f32) v15 v20 v25 v30 shapeCasts_S64_S1x64 broadcasts_S1x64_S5000x64 p q).trans ?_
  rw [shapeCast_self v3 shapeCasts_S5000x64_S5000x64, shapeCast_self v0 shapeCasts_S5000x64_S5000x64]
  rfl

/-- Region 2's body at row p and column q of its tile: the layer's entry from row p of the feature block and of the
    aggregated block (the casts to bf16, and a cast of a block to its own shape, change nothing at the extended reals). -/
theorem tile2_apply (v0 v3 : Vec Ideal S5000x64 .f32) (v6 v8 v10 v12 : Vec Ideal S64x64 .f32) (v15 v20 v25 v30 : Vec Ideal S64 .f32)
    (p : Fin 5000) (q : Fin 64) :
    k2_pay1 (k2_pay2 (F := Ideal) v0 v3 v6 v8 v10 v12 v15 v20 v25 v30) (k2_pay3 (F := Ideal)) (ix2 p q)
      = Cert.Gated.entry (fun k => v0 (ix2 p k)) (fun k => v3 (ix2 p k)) (fun k => v6 (ix2 k q)) (fun k => v8 (ix2 k q))
          (fun k => v10 (ix2 k q)) (fun k => v12 (ix2 k q)) (v15 (ix1 q)) (v20 (ix1 q)) (v25 (ix1 q)) (v30 (ix1 q)) := by
  unfold k2_pay1 k2_pay2 k2_pay3
  refine (Cert.Gated.tile_apply (A := 5000) (K := 64) (B := 64) dot_S5000x64_S64x64_S5000x64_1_0_0_1_n_n_wf
    (truncf .bf16 (shapeCast S5000x64 v0 shapeCasts_S5000x64_S5000x64) bitsLt_bf16_f32) (truncf .bf16 (shapeCast S5000x64 v3 shapeCasts_S5000x64_S5000x64) bitsLt_bf16_f32)
    (truncf .bf16 v6 bitsLt_bf16_f32) (truncf .bf16 v8 bitsLt_bf16_f32) (truncf .bf16 v10 bitsLt_bf16_f32)
    (truncf .bf16 v12 bitsLt_bf16_f32) v15 v20 v25 v30 shapeCasts_S64_S1x64 broadcasts_S1x64_S5000x64 p q).trans ?_
  rw [shapeCast_self v3 shapeCasts_S5000x64_S5000x64, shapeCast_self v0 shapeCasts_S5000x64_S5000x64]
  rfl

/-- The head's logits at (p, q). -/
theorem logits_apply (v0 : Vec Ideal S1334x64 .f32) (v2 v6 v13 v17 : Vec Ideal S64 .f32) (v22 : Vec Ideal S64x32 .f32) (v25 : Vec Ideal S32 .f32)
    (v32 : Vec Ideal S32x10 .f32) (v35 : Vec Ideal S10 .f32) (p : Fin 1334) (q : Fin 10) :
    k3_pay2 (F := Ideal) v0 v2 v6 v13 v17 v22 v25 v32 v35 (ix2 p q) = Cert.Head.logitsRow v0 v2 v6 v13 v17 v22 v25 v32 v35 p q := by
  unfold k3_pay2 Cert.Head.logitsRow
  refine (Cert.Head.logit_tile_apply (A := 1334) (K := 32) (B := 10) dot_S1334x32_S32x10_S1334x10_1_0_0_1_n_n_wf
    _ _ v35 shapeCasts_S10_S1x10 broadcasts_S1x10_S1334x10 p q).trans ?_
  refine congrArg (fun f => Cert.Head.logit f (fun j => v32 (ix2 j q)) (v35 (ix1 q))) (funext fun j => ?_)
  refine (Cert.Head.hidden_tile_apply (A := 1334) (K := 64) (B := 32) dot_S1334x64_S64x32_S1334x32_1_0_0_1_n_n_wf
    _ _ v25 shapeCasts_S32_S1x32 broadcasts_S1x32_S1334x32 p j).trans ?_
  refine congrArg (fun f => Cert.Head.hidden f (fun k => v22 (ix2 k j)) (v25 (ix1 j))) (funext fun k => ?_)
  refine (Cert.Head.norm_tile_apply (A := 1334) (K₁ := 64) (shapeCast S1334x64 v0 shapeCasts_S1334x64_S1334x64) v2 v6 v13 v17
    shapeCasts_S64_S1x64 broadcasts_S1x64_S1334x64 p k).trans ?_
  rw [shapeCast_self v0 shapeCasts_S1334x64_S1334x64]

/-- The head kernel's stored value at (p, q): the log-softmax of row p's logits. -/
theorem head_apply (v0 : Vec Ideal S1334x64 .f32) (v2 v6 v13 v17 : Vec Ideal S64 .f32) (v22 : Vec Ideal S64x32 .f32) (v25 : Vec Ideal S32 .f32)
    (v32 : Vec Ideal S32x10 .f32) (v35 : Vec Ideal S10 .f32) (p : Fin 1334) (q : Fin 10) :
    k3_pay1 (k3_pay2 (F := Ideal) v0 v2 v6 v13 v17 v22 v25 v32 v35) (k3_pay3 (F := Ideal) v0 v2 v6 v13 v17 v22 v25 v32 v35) (k3_pay4 (F := Ideal)) (ix2 p q)
      = Cert.Head.lsm (Cert.Head.logitsRow v0 v2 v6 v13 v17 v22 v25 v32 v35 p) q := by
  unfold k3_pay1 k3_pay3 k3_pay4
  generalize hl : k3_pay2 (F := Ideal) v0 v2 v6 v13 v17 v22 v25 v32 v35 = l
  have hrow : (fun q' : Fin 10 => l (ix2 p q')) = Cert.Head.logitsRow v0 v2 v6 v13 v17 v22 v25 v32 v35 p := funext fun q' => by
    rw [← hl]; exact logits_apply v0 v2 v6 v13 v17 v22 v25 v32 v35 p q'
  refine (Cert.Head.lsm_tile_apply (A := 1334) (B := 10) l reduces_S1334x10_S1334 (.inl rfl) rfl rfl
    shapeCasts_S1334_S1334x1 broadcasts_S1334x1_S1334x10 p q).trans ?_
  rw [hrow]

end Cert.KernelIdeal.Tiles

end
-- ==== Proof.KernelBlocks0.lean ====
/-
  From blocks to arrays, region 0.

  A layer region runs its body at 20 grid points. At point t the body sees rows 5000 t … 5000 t + 4999 of the features and
  of the aggregated neighbours and the weights and biases whole, and writes back block row t of the output. Each written
  block is that block of ONE function of the whole arrays — the gated layer, row by row — and the 20 blocks cover the
  output, so after the region the output array IS that function of the arrays the region found. All of it is stated for
  an arbitrary valuation V of the buffers at the region's entry: which arrays those are is the run's business.
-/
import proofs.«136228_j64991445123425_1_alg».proof.Proof.PatchedFrameKernelIdeal
import proofs.«136228_j64991445123425_1_alg».proof.Proof.KernelTiles
import Idealize.ShloMosaic.Lib.Pipeline.Value

set_option maxRecDepth 16384

noncomputable section

namespace Cert.KernelIdeal.Blocks

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: one gated layer over 20 blocks of 5000 rows -/

/-- The index maps of region 0's windows, decided over its 20 grid points: the feature, aggregate and output windows
    take block row t at point t, the weights and biases are fetched whole. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_4.index t (0 : Fin 2) = 0
    ∧ win0_4.index t (1 : Fin 2) = 0
    ∧ win0_6.index t (0 : Fin 2) = 0
    ∧ win0_6.index t (1 : Fin 2) = 0
    ∧ win0_8.index t (0 : Fin 2) = 0
    ∧ win0_8.index t (1 : Fin 2) = 0
    ∧ win0_3.index t (0 : Fin 1) = 0
    ∧ win0_5.index t (0 : Fin 1) = 0
    ∧ win0_7.index t (0 : Fin 1) = 0
    ∧ win0_9.index t (0 : Fin 1) = 0
    ∧ win0_10.index t (0 : Fin 2) = t.val
    ∧ win0_10.index t (1 : Fin 2) = 0 :=
  (by decide +kernel : ∀ t : Fin grid0.N, _)

-- the windows' blocks are read one by one, each compared with the output block coordinate by coordinate at full extents
set_option maxHeartbeats 2000000 in
/-- What point t writes back is block t of the layer of the arrays the region found. -/
theorem flushed0 (c : Dev nD) (t : Fin cfg0.N) :
    (dat0 V c).flushed 10 t = ((cfg0.win 10).blk t).view.read (Elt Ideal)
      (Cert.Gated.layer (N := 100000) (K := 3) (B := 64) (V c main_arg0) (V c main_v13) (V c main_arg3) (V c main_arg5) (V c main_arg7) (V c main_arg9)
        (V c main_arg4) (V c main_arg6) (V c main_arg8) (V c main_arg10)) := by
  show (cfg0.win 10).cut (grid0.coords t) ((dat0 V c).after 10 t) = _
  rw [after0_10]
  unfold out0_10
  rw [View.canon_unit_zero hz2]
  simp only [View.ld_unit_zero (S := S5000x3) hz2, View.ld_unit_zero (S := S3x64) hz2, View.ld_unit_zero (S := S64) hz1]
  obtain ⟨x0, x1, a0, a1, c0, c1, d0, d1, f0, f1, g0, g1, b3, b5, b7, b9, o0, o1⟩ := idx0 t
  funext j
  obtain ⟨p, q, rfl⟩ : ∃ (p : Fin 5000) (q : Fin 64), j = ix2 p q := ⟨j 0, j 1, eq_ix2 j⟩
  refine (Cert.KernelIdeal.Tiles.tile0_apply (iblk0 V c 0 t) (iblk0 V c 1 t) (iblk0 V c 2 t) (iblk0 V c 4 t) (iblk0 V c 6 t) (iblk0 V c 8 t) (iblk0 V c 3 t) (iblk0 V c 5 t) (iblk0 V c 7 t) (iblk0 V c 9 t) p q).trans ?_
  have hX : ∀ k : Fin 3, iblk0 V c 0 t (ix2 p k) = V c main_arg0 (ix2 ((((cfg0.win 10).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_10.index t (0 : Fin 2) * 5000 + 1 * p.val; omega
    | ⟨1, _⟩ => show win0_0.index t (1 : Fin 2) * 3 + 1 * k.val = k.val; omega
  have hA : ∀ k : Fin 3, iblk0 V c 1 t (ix2 p k) = V c main_v13 (ix2 ((((cfg0.win 10).blk t).view.emb (ix2 p q)) 0) k) := fun k => by
    show V c main_v13 (((cfg0.win 1).blk t).view.emb (ix2 p k)) = _
    refine congrArg (V c main_v13) (funext fun a => Fin.ext ?_)
    match a with
    | ⟨0, _⟩ => show win0_1.index t (0 : Fin 2) * 5000 + 1 * p.val = win0_10.index t (0 : Fin 2) * 5000 + 1 * p.val; omega
    | ⟨1, _⟩ => show win0_1.index t (1 : Fin 2) * 3 + 1 * k.val = k.val; omega
  have hWc : ∀ k : Fin 3, iblk0 V c 2 t (ix2 k q) = V c main_arg3 (ix2 k ((((cfg0.win 10).blk t).view.emb (ix2 p q)) 1)) := fun k => by
    show V c main_arg3 (((cfg0.win 2).blk t).view.emb (ix2 k q)) = _
    refine congrArg (V c main_arg3) (funext fun a => Fin.ext ?_)
    match a with
    | ⟨0, _⟩ => show win0_2.index t (0 : Fin 2) * 3 + 1 * k.val = k.val; omega
    | ⟨1, _⟩ => show win0_2.index t (1 : Fin 2) * 64 + 1 * q.val = win0_10.index t (1 : Fin 2) * 64 + 1 * q.val; omega
  have hWa : ∀ k : Fin 3, iblk0 V c 4 t (ix2 k q) = V c main_arg5 (ix2 k ((((cfg0.win 10).blk t).view.emb (ix2 p q)) 1)) := fun k => by
    show V c main_arg5 (((cfg0.win 4).blk t).view.emb (ix2 k q)) = _
    refine congrArg (V c main_arg5) (funext fun a => Fin.ext ?_)
    match a with
    | ⟨0, _⟩ => show win0_4.index t (0 : Fin 2) * 3 + 1 * k.val = k.val; omega
    | ⟨1, _⟩ => show win0_4.index t (1 : Fin 2) * 64 + 1 * q.val = win0_10.index t (1 : Fin 2) * 64 + 1 * q.val; omega
  have hW1 : ∀ k : Fin 3, iblk0 V c 6 t (ix2 k q) = V c main_arg7 (ix2 k ((((cfg0.win 10).blk t).view.emb (ix2 p q)) 1)) := fun k => by
    show V c main_arg7 (((cfg0.win 6).blk t).view.emb (ix2 k q)) = _
    refine congrArg (V c main_arg7) (funext fun a => Fin.ext ?_)
    match a with
    | ⟨0, _⟩ => show win0_6.index t (0 : Fin 2) * 3 + 1 * k.val = k.val; omega
    | ⟨1, _⟩ => show win0_6.index t (1 : Fin 2) * 64 + 1 * q.val = win0_10.index t (1 : Fin 2) * 64 + 1 * q.val; omega
  have hW2 : ∀ k : Fin 3, iblk0 V c 8 t (ix2 k q) = V c main_arg9 (ix2 k ((((cfg0.win 10).blk t).view.emb (ix2 p q)) 1)) := fun k => by
    show V c main_arg9 (((cfg0.win 8).blk t).view.emb (ix2 k q)) = _
    refine congrArg (V c main_arg9) (funext fun a => Fin.ext ?_)
    match a with
    | ⟨0, _⟩ => show win0_8.index t (0 : Fin 2) * 3 + 1 * k.val = k.val; omega
    | ⟨1, _⟩ => show win0_8.index t (1 : Fin 2) * 64 + 1 * q.val = win0_10.index t (1 : Fin 2) * 64 + 1 * q.val; omega
  have hbc : iblk0 V c 3 t (ix1 q) = V c main_arg4 (ix1 ((((cfg0.win 10).blk t).view.emb (ix2 p q)) 1)) := by
    show V c main_arg4 (((cfg0.win 3).blk t).view.emb (ix1 q)) = _
    refine congrArg (V c main_arg4) (funext fun a => Fin.ext ?_)
    match a with
    | ⟨0, _⟩ => show win0_3.index t (0 : Fin 1) * 64 + 1 * q.val = win0_10.index t (1 : Fin 2) * 64 + 1 * q.val; omega
  have hba : iblk0 V c 5 t (ix1 q) = V c main_arg6 (ix1 ((((cfg0.win 10).blk t).view.emb (ix2 p q)) 1)) := by
    show V c main_arg6 (((cfg0.win 5).blk t).view.emb (ix1 q)) = _
    refine congrArg (V c main_arg6) (funext fun a => Fin.ext ?_)
    match a with
    | ⟨0, _⟩ => show win0_5.index t (0 : Fin 1) * 64 + 1 * q.val = win0_10.index t (1 : Fin 2) * 64 + 1 * q.val; omega
  have hb1 : iblk0 V c 7 t (ix1 q) = V c main_arg8 (ix1 ((((cfg0.win 10).blk t).view.emb (ix2 p q)) 1)) := by
    show V c main_arg8 (((cfg0.win 7).blk t).view.emb (ix1 q)) = _
    refine congrArg (V c main_arg8) (funext fun a => Fin.ext ?_)
    match a with
    | ⟨0, _⟩ => show win0_7.index t (0 : Fin 1) * 64 + 1 * q.val = win0_10.index t (1 : Fin 2) * 64 + 1 * q.val; omega
  have hb2 : iblk0 V c 9 t (ix1 q) = V c main_arg10 (ix1 ((((cfg0.win 10).blk t).view.emb (ix2 p q)) 1)) := by
    show V c main_arg10 (((cfg0.win 9).blk t).view.emb (ix1 q)) = _
    refine congrArg (V c main_arg10) (funext fun a => Fin.ext ?_)
    match a with
    | ⟨0, _⟩ => show win0_9.index t (0 : Fin 1) * 64 + 1 * q.val = win0_10.index t (1 : Fin 2) * 64 + 1 * q.val; omega
  simp only [hX, hA, hWc, hWa, hW1, hW2, hbc, hba, hb1, hb2]
  rfl

/-- An index of the output array is in point t's block when its row is in block row t. -/
theorem mem_blk0 (t : Fin cfg0.N) (i : S100000x64.Idx) :
    i ∈ ((cfg0.win 10).blk t).view.set ↔ ∀ a : Fin 2, win0_10.index t a * S5000x64.size a ≤ (i a).val
      ∧ (i a).val < win0_10.index t a * S5000x64.size a + S5000x64.size a := by
  show i ∈ ((View.whole main_v14).slice (win0_10.rect t)).set ↔ _
  rw [View.set_slice_whole, Rect.mem_set_unit]
  exact Iff.rfl

/-- Every index of the output array is written back by the point of its block row, row / 5000. -/
theorem cover0 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  have ht : (i 0).val / 5000 < cfg0.N := by show (i 0).val / 5000 < 20; omega
  refine ⟨⟨(i 0).val / 5000, ht⟩, flush0_10 _, ?_⟩
  rw [mem_blk0]
  obtain ⟨x0, x1, a0, a1, c0, c1, d0, d1, f0, f1, g0, g1, b3, b5, b7, b9, o0, o1⟩ := idx0 ⟨(i 0).val / 5000, ht⟩
  intro a
  match a with
  | ⟨0, _⟩ =>
    show win0_10.index ⟨(i 0).val / 5000, ht⟩ (0 : Fin 2) * 5000 ≤ (i 0).val
      ∧ (i 0).val < win0_10.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win0_10.index ⟨(i 0).val / 5000, ht⟩ (1 : Fin 2) * 64 ≤ (i 1).val
      ∧ (i 1).val < win0_10.index ⟨(i 0).val / 5000, ht⟩ (1 : Fin 2) * 64 + 64
    rw [o1]
    omega

/-- After region 0 its output array is the layer of the arrays it found, whole. -/
theorem final0 (c : Dev nD) :
    (dat0 V c).arrAt 10 cfg0.N = (Cert.Gated.layer (N := 100000) (K := 3) (B := 64) (V c main_arg0) (V c main_v13) (V c main_arg3) (V c main_arg5) (V c main_arg7) (V c main_arg9)
        (V c main_arg4) (V c main_arg6) (V c main_arg8) (V c main_arg10)) :=
  (dat0 V c).arrAt_eq_of_cover 10 _ (fun t _ => flushed0 V c t) cover0

end Cert.KernelIdeal.Blocks

end
-- ==== Proof.KernelBlocks1.lean ====
/-
  From blocks to arrays, region 1: the second gated layer, as in region 0 with features of width 64.
-/
import proofs.«136228_j64991445123425_1_alg».proof.Proof.PatchedFrameKernelIdeal
import proofs.«136228_j64991445123425_1_alg».proof.Proof.KernelTiles
import proofs.«136228_j64991445123425_1_alg».proof.Proof.KernelBlocks0
import Idealize.ShloMosaic.Lib.Pipeline.Value

set_option maxRecDepth 16384

noncomputable section

namespace Cert.KernelIdeal.Blocks

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 1: one gated layer over 20 blocks of 5000 rows -/

/-- The index maps of region 1's windows, decided over its 20 grid points: the feature, aggregate and output windows
    take block row t at point t, the weights and biases are fetched whole. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_4.index t (0 : Fin 2) = 0
    ∧ win1_4.index t (1 : Fin 2) = 0
    ∧ win1_6.index t (0 : Fin 2) = 0
    ∧ win1_6.index t (1 : Fin 2) = 0
    ∧ win1_8.index t (0 : Fin 2) = 0
    ∧ win1_8.index t (1 : Fin 2) = 0
    ∧ win1_3.index t (0 : Fin 1) = 0
    ∧ win1_5.index t (0 : Fin 1) = 0
    ∧ win1_7.index t (0 : Fin 1) = 0
    ∧ win1_9.index t (0 : Fin 1) = 0
    ∧ win1_10.index t (0 : Fin 2) = t.val
    ∧ win1_10.index t (1 : Fin 2) = 0 :=
  (by decide +kernel : ∀ t : Fin grid1.N, _)

-- the windows' blocks are read one by one, each compared with the output block coordinate by coordinate at full extents
set_option maxHeartbeats 2000000 in
/-- What point t writes back is block t of the layer of the arrays the region found. -/
theorem flushed1 (c : Dev nD) (t : Fin cfg1.N) :
    (dat1 V c).flushed 10 t = ((cfg1.win 10).blk t).view.read (Elt Ideal)
      (Cert.Gated.layer (N := 100000) (K := 64) (B := 64) (V c main_v14) (V c main_v24) (V c main_arg11) (V c main_arg13) (V c main_arg15) (V c main_arg17)
        (V c main_arg12) (V c main_arg14) (V c main_arg16) (V c main_arg18)) := by
  show (cfg1.win 10).cut (grid1.coords t) ((dat1 V c).after 10 t) = _
  rw [after1_10]
  unfold out1_10
  rw [View.canon_unit_zero hz2]
  simp only [View.ld_unit_zero (S := S5000x64) hz2, View.ld_unit_zero (S := S64x64) hz2, View.ld_unit_zero (S := S64) hz1]
  obtain ⟨x0, x1, a0, a1, c0, c1, d0, d1, f0, f1, g0, g1, b3, b5, b7, b9, o0, o1⟩ := idx1 t
  funext j
  obtain ⟨p, q, rfl⟩ : ∃ (p : Fin 5000) (q : Fin 64), j = ix2 p q := ⟨j 0, j 1, eq_ix2 j⟩
  refine (Cert.KernelIdeal.Tiles.tile1_apply (iblk1 V c 0 t) (iblk1 V c 1 t) (iblk1 V c 2 t) (iblk1 V c 4 t) (iblk1 V c 6 t) (iblk1 V c 8 t) (iblk1 V c 3 t) (iblk1 V c 5 t) (iblk1 V c 7 t) (iblk1 V c 9 t) p q).trans ?_
  have hX : ∀ k : Fin 64, iblk1 V c 0 t (ix2 p k) = V c main_v14 (ix2 ((((cfg1.win 10).blk t).view.emb (ix2 p q)) 0) k) := fun k => by
    show V c main_v14 (((cfg1.win 0).blk t).view.emb (ix2 p k)) = _
    refine congrArg (V c main_v14) (funext fun a => Fin.ext ?_)
    match a with
    | ⟨0, _⟩ => show win1_0.index t (0 : Fin 2) * 5000 + 1 * p.val = win1_10.index t (0 : Fin 2) * 5000 + 1 * p.val; omega
    | ⟨1, _⟩ => show win1_0.index t (1 : Fin 2) * 64 + 1 * k.val = k.val; omega
  have hA : ∀ k : Fin 64, iblk1 V c 1 t (ix2 p k) = V c main_v24 (ix2 ((((cfg1.win 10).blk t).view.emb (ix2 p q)) 0) k) := fun k => by
    show V c main_v24 (((cfg1.win 1).blk t).view.emb (ix2 p k)) = _
    refine congrArg (V c main_v24) (funext fun a => Fin.ext ?_)
    match a with
    | ⟨0, _⟩ => show win1_1.index t (0 : Fin 2) * 5000 + 1 * p.val = win1_10.index t (0 : Fin 2) * 5000 + 1 * p.val; omega
    | ⟨1, _⟩ => show win1_1.index t (1 : Fin 2) * 64 + 1 * k.val = k.val; omega
  have hWc : ∀ k : Fin 64, iblk1 V c 2 t (ix2 k q) = V c main_arg11 (ix2 k ((((cfg1.win 10).blk t).view.emb (ix2 p q)) 1)) := fun k => by
    show V c main_arg11 (((cfg1.win 2).blk t).view.emb (ix2 k q)) = _
    refine congrArg (V c main_arg11) (funext fun a => Fin.ext ?_)
    match a with
    | ⟨0, _⟩ => show win1_2.index t (0 : Fin 2) * 64 + 1 * k.val = k.val; omega
    | ⟨1, _⟩ => show win1_2.index t (1 : Fin 2) * 64 + 1 * q.val = win1_10.index t (1 : Fin 2) * 64 + 1 * q.val; omega
  have hWa : ∀ k : Fin 64, iblk1 V c 4 t (ix2 k q) = V c main_arg13 (ix2 k ((((cfg1.win 10).blk t).view.emb (ix2 p q)) 1)) := fun k => by
    show V c main_arg13 (((cfg1.win 4).blk t).view.emb (ix2 k q)) = _
    refine congrArg (V c main_arg13) (funext fun a => Fin.ext ?_)
    match a with
    | ⟨0, _⟩ => show win1_4.index t (0 : Fin 2) * 64 + 1 * k.val = k.val; omega
    | ⟨1, _⟩ => show win1_4.index t (1 : Fin 2) * 64 + 1 * q.val = win1_10.index t (1 : Fin 2) * 64 + 1 * q.val; omega
  have hW1 : ∀ k : Fin 64, iblk1 V c 6 t (ix2 k q) = V c main_arg15 (ix2 k ((((cfg1.win 10).blk t).view.emb (ix2 p q)) 1)) := fun k => by
    show V c main_arg15 (((cfg1.win 6).blk t).view.emb (ix2 k q)) = _
    refine congrArg (V c main_arg15) (funext fun a => Fin.ext ?_)
    match a with
    | ⟨0, _⟩ => show win1_6.index t (0 : Fin 2) * 64 + 1 * k.val = k.val; omega
    | ⟨1, _⟩ => show win1_6.index t (1 : Fin 2) * 64 + 1 * q.val = win1_10.index t (1 : Fin 2) * 64 + 1 * q.val; omega
  have hW2 : ∀ k : Fin 64, iblk1 V c 8 t (ix2 k q) = V c main_arg17 (ix2 k ((((cfg1.win 10).blk t).view.emb (ix2 p q)) 1)) := fun k => by
    show V c main_arg17 (((cfg1.win 8).blk t).view.emb (ix2 k q)) = _
    refine congrArg (V c main_arg17) (funext fun a => Fin.ext ?_)
    match a with
    | ⟨0, _⟩ => show win1_8.index t (0 : Fin 2) * 64 + 1 * k.val = k.val; omega
    | ⟨1, _⟩ => show win1_8.index t (1 : Fin 2) * 64 + 1 * q.val = win1_10.index t (1 : Fin 2) * 64 + 1 * q.val; omega
  have hbc : iblk1 V c 3 t (ix1 q) = V c main_arg12 (ix1 ((((cfg1.win 10).blk t).view.emb (ix2 p q)) 1)) := by
    show V c main_arg12 (((cfg1.win 3).blk t).view.emb (ix1 q)) = _
    refine congrArg (V c main_arg12) (funext fun a => Fin.ext ?_)
    match a with
    | ⟨0, _⟩ => show win1_3.index t (0 : Fin 1) * 64 + 1 * q.val = win1_10.index t (1 : Fin 2) * 64 + 1 * q.val; omega
  have hba : iblk1 V c 5 t (ix1 q) = V c main_arg14 (ix1 ((((cfg1.win 10).blk t).view.emb (ix2 p q)) 1)) := by
    show V c main_arg14 (((cfg1.win 5).blk t).view.emb (ix1 q)) = _
    refine congrArg (V c main_arg14) (funext fun a => Fin.ext ?_)
    match a with
    | ⟨0, _⟩ => show win1_5.index t (0 : Fin 1) * 64 + 1 * q.val = win1_10.index t (1 : Fin 2) * 64 + 1 * q.val; omega
  have hb1 : iblk1 V c 7 t (ix1 q) = V c main_arg16 (ix1 ((((cfg1.win 10).blk t).view.emb (ix2 p q)) 1)) := by
    show V c main_arg16 (((cfg1.win 7).blk t).view.emb (ix1 q)) = _
    refine congrArg (V c main_arg16) (funext fun a => Fin.ext ?_)
    match a with
    | ⟨0, _⟩ => show win1_7.index t (0 : Fin 1) * 64 + 1 * q.val = win1_10.index t (1 : Fin 2) * 64 + 1 * q.val; omega
  have hb2 : iblk1 V c 9 t (ix1 q) = V c main_arg18 (ix1 ((((cfg1.win 10).blk t).view.emb (ix2 p q)) 1)) := by
    show V c main_arg18 (((cfg1.win 9).blk t).view.emb (ix1 q)) = _
    refine congrArg (V c main_arg18) (funext fun a => Fin.ext ?_)
    match a with
    | ⟨0, _⟩ => show win1_9.index t (0 : Fin 1) * 64 + 1 * q.val = win1_10.index t (1 : Fin 2) * 64 + 1 * q.val; omega
  simp only [hX, hA, hWc, hWa, hW1, hW2, hbc, hba, hb1, hb2]
  rfl

/-- An index of the output array is in point t's block when its row is in block row t. -/
theorem mem_blk1 (t : Fin cfg1.N) (i : S100000x64.Idx) :
    i ∈ ((cfg1.win 10).blk t).view.set ↔ ∀ a : Fin 2, win1_10.index t a * S5000x64.size a ≤ (i a).val
      ∧ (i a).val < win1_10.index t a * S5000x64.size a + S5000x64.size a := by
  show i ∈ ((View.whole main_v25).slice (win1_10.rect t)).set ↔ _
  rw [View.set_slice_whole, Rect.mem_set_unit]
  exact Iff.rfl

/-- Every index of the output array is written back by the point of its block row, row / 5000. -/
theorem cover1 (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have ht : (i 0).val / 5000 < cfg1.N := by show (i 0).val / 5000 < 20; omega
  refine ⟨⟨(i 0).val / 5000, ht⟩, flush1_10 _, ?_⟩
  rw [mem_blk1]
  obtain ⟨x0, x1, a0, a1, c0, c1, d0, d1, f0, f1, g0, g1, b3, b5, b7, b9, o0, o1⟩ := idx1 ⟨(i 0).val / 5000, ht⟩
  intro a
  match a with
  | ⟨0, _⟩ =>
    show win1_10.index ⟨(i 0).val / 5000, ht⟩ (0 : Fin 2) * 5000 ≤ (i 0).val
      ∧ (i 0).val < win1_10.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win1_10.index ⟨(i 0).val / 5000, ht⟩ (1 : Fin 2) * 64 ≤ (i 1).val
      ∧ (i 1).val < win1_10.index ⟨(i 0).val / 5000, ht⟩ (1 : Fin 2) * 64 + 64
    rw [o1]
    omega

/-- After region 1 its output array is the layer of the arrays it found, whole. -/
theorem final1 (c : Dev nD) :
    (dat1 V c).arrAt 10 cfg1.N = (Cert.Gated.layer (N := 100000) (K := 64) (B := 64) (V c main_v14) (V c main_v24) (V c main_arg11) (V c main_arg13) (V c main_arg15) (V c main_arg17)
        (V c main_arg12) (V c main_arg14) (V c main_arg16) (V c main_arg18)) :=
  (dat1 V c).arrAt_eq_of_cover 10 _ (fun t _ => flushed1 V c t) cover1

end Cert.KernelIdeal.Blocks

end
-- ==== Proof.KernelBlocks2.lean ====
/-
  From blocks to arrays, region 2: the third gated layer, as in region 0 with features of width 64.
-/
import proofs.«136228_j64991445123425_1_alg».proof.Proof.PatchedFrameKernelIdeal
import proofs.«136228_j64991445123425_1_alg».proof.Proof.KernelTiles
import proofs.«136228_j64991445123425_1_alg».proof.Proof.KernelBlocks0
import Idealize.ShloMosaic.Lib.Pipeline.Value

set_option maxRecDepth 16384

noncomputable section

namespace Cert.KernelIdeal.Blocks

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 2: one gated layer over 20 blocks of 5000 rows -/

/-- The index maps of region 2's windows, decided over its 20 grid points: the feature, aggregate and output windows
    take block row t at point t, the weights and biases are fetched whole. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_4.index t (0 : Fin 2) = 0
    ∧ win2_4.index t (1 : Fin 2) = 0
    ∧ win2_6.index t (0 : Fin 2) = 0
    ∧ win2_6.index t (1 : Fin 2) = 0
    ∧ win2_8.index t (0 : Fin 2) = 0
    ∧ win2_8.index t (1 : Fin 2) = 0
    ∧ win2_3.index t (0 : Fin 1) = 0
    ∧ win2_5.index t (0 : Fin 1) = 0
    ∧ win2_7.index t (0 : Fin 1) = 0
    ∧ win2_9.index t (0 : Fin 1) = 0
    ∧ win2_10.index t (0 : Fin 2) = t.val
    ∧ win2_10.index t (1 : Fin 2) = 0 :=
  (by decide +kernel : ∀ t : Fin grid2.N, _)

-- the windows' blocks are read one by one, each compared with the output block coordinate by coordinate at full extents
set_option maxHeartbeats 2000000 in
/-- What point t writes back is block t of the layer of the arrays the region found. -/
theorem flushed2 (c : Dev nD) (t : Fin cfg2.N) :
    (dat2 V c).flushed 10 t = ((cfg2.win 10).blk t).view.read (Elt Ideal)
      (Cert.Gated.layer (N := 100000) (K := 64) (B := 64) (V c main_v25) (V c main_v35) (V c main_arg19) (V c main_arg21) (V c main_arg23) (V c main_arg25)
        (V c main_arg20) (V c main_arg22) (V c main_arg24) (V c main_arg26)) := by
  show (cfg2.win 10).cut (grid2.coords t) ((dat2 V c).after 10 t) = _
  rw [after2_10]
  unfold out2_10
  rw [View.canon_unit_zero hz2]
  simp only [View.ld_unit_zero (S := S5000x64) hz2, View.ld_unit_zero (S := S64x64) hz2, View.ld_unit_zero (S := S64) hz1]
  obtain ⟨x0, x1, a0, a1, c0, c1, d0, d1, f0, f1, g0, g1, b3, b5, b7, b9, o0, o1⟩ := idx2 t
  funext j
  obtain ⟨p, q, rfl⟩ : ∃ (p : Fin 5000) (q : Fin 64), j = ix2 p q := ⟨j 0, j 1, eq_ix2 j⟩
  refine (Cert.KernelIdeal.Tiles.tile2_apply (iblk2 V c 0 t) (iblk2 V c 1 t) (iblk2 V c 2 t) (iblk2 V c 4 t) (iblk2 V c 6 t) (iblk2 V c 8 t) (iblk2 V c 3 t) (iblk2 V c 5 t) (iblk2 V c 7 t) (iblk2 V c 9 t) p q).trans ?_
  have hX : ∀ k : Fin 64, iblk2 V c 0 t (ix2 p k) = V c main_v25 (ix2 ((((cfg2.win 10).blk t).view.emb (ix2 p q)) 0) k) := fun k => by
    show V c main_v25 (((cfg2.win 0).blk t).view.emb (ix2 p k)) = _
    refine congrArg (V c main_v25) (funext fun a => Fin.ext ?_)
    match a with
    | ⟨0, _⟩ => show win2_0.index t (0 : Fin 2) * 5000 + 1 * p.val = win2_10.index t (0 : Fin 2) * 5000 + 1 * p.val; omega
    | ⟨1, _⟩ => show win2_0.index t (1 : Fin 2) * 64 + 1 * k.val = k.val; omega
  have hA : ∀ k : Fin 64, iblk2 V c 1 t (ix2 p k) = V c main_v35 (ix2 ((((cfg2.win 10).blk t).view.emb (ix2 p q)) 0) k) := fun k => by
    show V c main_v35 (((cfg2.win 1).blk t).view.emb (ix2 p k)) = _
    refine congrArg (V c main_v35) (funext fun a => Fin.ext ?_)
    match a with
    | ⟨0, _⟩ => show win2_1.index t (0 : Fin 2) * 5000 + 1 * p.val = win2_10.index t (0 : Fin 2) * 5000 + 1 * p.val; omega
    | ⟨1, _⟩ => show win2_1.index t (1 : Fin 2) * 64 + 1 * k.val = k.val; omega
  have hWc : ∀ k : Fin 64, iblk2 V c 2 t (ix2 k q) = V c main_arg19 (ix2 k ((((cfg2.win 10).blk t).view.emb (ix2 p q)) 1)) := fun k => by
    show V c main_arg19 (((cfg2.win 2).blk t).view.emb (ix2 k q)) = _
    refine congrArg (V c main_arg19) (funext fun a => Fin.ext ?_)
    match a with
    | ⟨0, _⟩ => show win2_2.index t (0 : Fin 2) * 64 + 1 * k.val = k.val; omega
    | ⟨1, _⟩ => show win2_2.index t (1 : Fin 2) * 64 + 1 * q.val = win2_10.index t (1 : Fin 2) * 64 + 1 * q.val; omega
  have hWa : ∀ k : Fin 64, iblk2 V c 4 t (ix2 k q) = V c main_arg21 (ix2 k ((((cfg2.win 10).blk t).view.emb (ix2 p q)) 1)) := fun k => by
    show V c main_arg21 (((cfg2.win 4).blk t).view.emb (ix2 k q)) = _
    refine congrArg (V c main_arg21) (funext fun a => Fin.ext ?_)
    match a with
    | ⟨0, _⟩ => show win2_4.index t (0 : Fin 2) * 64 + 1 * k.val = k.val; omega
    | ⟨1, _⟩ => show win2_4.index t (1 : Fin 2) * 64 + 1 * q.val = win2_10.index t (1 : Fin 2) * 64 + 1 * q.val; omega
  have hW1 : ∀ k : Fin 64, iblk2 V c 6 t (ix2 k q) = V c main_arg23 (ix2 k ((((cfg2.win 10).blk t).view.emb (ix2 p q)) 1)) := fun k => by
    show V c main_arg23 (((cfg2.win 6).blk t).view.emb (ix2 k q)) = _
    refine congrArg (V c main_arg23) (funext fun a => Fin.ext ?_)
    match a with
    | ⟨0, _⟩ => show win2_6.index t (0 : Fin 2) * 64 + 1 * k.val = k.val; omega
    | ⟨1, _⟩ => show win2_6.index t (1 : Fin 2) * 64 + 1 * q.val = win2_10.index t (1 : Fin 2) * 64 + 1 * q.val; omega
  have hW2 : ∀ k : Fin 64, iblk2 V c 8 t (ix2 k q) = V c main_arg25 (ix2 k ((((cfg2.win 10).blk t).view.emb (ix2 p q)) 1)) := fun k => by
    show V c main_arg25 (((cfg2.win 8).blk t).view.emb (ix2 k q)) = _
    refine congrArg (V c main_arg25) (funext fun a => Fin.ext ?_)
    match a with
    | ⟨0, _⟩ => show win2_8.index t (0 : Fin 2) * 64 + 1 * k.val = k.val; omega
    | ⟨1, _⟩ => show win2_8.index t (1 : Fin 2) * 64 + 1 * q.val = win2_10.index t (1 : Fin 2) * 64 + 1 * q.val; omega
  have hbc : iblk2 V c 3 t (ix1 q) = V c main_arg20 (ix1 ((((cfg2.win 10).blk t).view.emb (ix2 p q)) 1)) := by
    show V c main_arg20 (((cfg2.win 3).blk t).view.emb (ix1 q)) = _
    refine congrArg (V c main_arg20) (funext fun a => Fin.ext ?_)
    match a with
    | ⟨0, _⟩ => show win2_3.index t (0 : Fin 1) * 64 + 1 * q.val = win2_10.index t (1 : Fin 2) * 64 + 1 * q.val; omega
  have hba : iblk2 V c 5 t (ix1 q) = V c main_arg22 (ix1 ((((cfg2.win 10).blk t).view.emb (ix2 p q)) 1)) := by
    show V c main_arg22 (((cfg2.win 5).blk t).view.emb (ix1 q)) = _
    refine congrArg (V c main_arg22) (funext fun a => Fin.ext ?_)
    match a with
    | ⟨0, _⟩ => show win2_5.index t (0 : Fin 1) * 64 + 1 * q.val = win2_10.index t (1 : Fin 2) * 64 + 1 * q.val; omega
  have hb1 : iblk2 V c 7 t (ix1 q) = V c main_arg24 (ix1 ((((cfg2.win 10).blk t).view.emb (ix2 p q)) 1)) := by
    show V c main_arg24 (((cfg2.win 7).blk t).view.emb (ix1 q)) = _
    refine congrArg (V c main_arg24) (funext fun a => Fin.ext ?_)
    match a with
    | ⟨0, _⟩ => show win2_7.index t (0 : Fin 1) * 64 + 1 * q.val = win2_10.index t (1 : Fin 2) * 64 + 1 * q.val; omega
  have hb2 : iblk2 V c 9 t (ix1 q) = V c main_arg26 (ix1 ((((cfg2.win 10).blk t).view.emb (ix2 p q)) 1)) := by
    show V c main_arg26 (((cfg2.win 9).blk t).view.emb (ix1 q)) = _
    refine congrArg (V c main_arg26) (funext fun a => Fin.ext ?_)
    match a with
    | ⟨0, _⟩ => show win2_9.index t (0 : Fin 1) * 64 + 1 * q.val = win2_10.index t (1 : Fin 2) * 64 + 1 * q.val; omega
  simp only [hX, hA, hWc, hWa, hW1, hW2, hbc, hba, hb1, hb2]
  rfl

/-- An index of the output array is in point t's block when its row is in block row t. -/
theorem mem_blk2 (t : Fin cfg2.N) (i : S100000x64.Idx) :
    i ∈ ((cfg2.win 10).blk t).view.set ↔ ∀ a : Fin 2, win2_10.index t a * S5000x64.size a ≤ (i a).val
      ∧ (i a).val < win2_10.index t a * S5000x64.size a + S5000x64.size a := by
  show i ∈ ((View.whole main_v36).slice (win2_10.rect t)).set ↔ _
  rw [View.set_slice_whole, Rect.mem_set_unit]
  exact Iff.rfl

/-- Every index of the output array is written back by the point of its block row, row / 5000. -/
theorem cover2 (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  have ht : (i 0).val / 5000 < cfg2.N := by show (i 0).val / 5000 < 20; omega
  refine ⟨⟨(i 0).val / 5000, ht⟩, flush2_10 _, ?_⟩
  rw [mem_blk2]
  obtain ⟨x0, x1, a0, a1, c0, c1, d0, d1, f0, f1, g0, g1, b3, b5, b7, b9, o0, o1⟩ := idx2 ⟨(i 0).val / 5000, ht⟩
  intro a
  match a with
  | ⟨0, _⟩ =>
    show win2_10.index ⟨(i 0).val / 5000, ht⟩ (0 : Fin 2) * 5000 ≤ (i 0).val
      ∧ (i 0).val < win2_10.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win2_10.index ⟨(i 0).val / 5000, ht⟩ (1 : Fin 2) * 64 ≤ (i 1).val
      ∧ (i 1).val < win2_10.index ⟨(i 0).val / 5000, ht⟩ (1 : Fin 2) * 64 + 64
    rw [o1]
    omega

/-- After region 2 its output array is the layer of the arrays it found, whole. -/
theorem final2 (c : Dev nD) :
    (dat2 V c).arrAt 10 cfg2.N = (Cert.Gated.layer (N := 100000) (K := 64) (B := 64) (V c main_v25) (V c main_v35) (V c main_arg19) (V c main_arg21) (V c main_arg23) (V c main_arg25)
        (V c main_arg20) (V c main_arg22) (V c main_arg24) (V c main_arg26)) :=
  (dat2 V c).arrAt_eq_of_cover 10 _ (fun t _ => flushed2 V c t) cover2

end Cert.KernelIdeal.Blocks

end
-- ==== Proof.KernelBlocks3.lean ====
/-
  From blocks to arrays, region 3: the head runs at one grid point whose blocks are the whole arrays, so what the point writes
  back is the whole result: the head of the pooled features and the head's parameters as the region found them.
-/
import proofs.«136228_j64991445123425_1_alg».proof.Proof.PatchedFrameKernelIdeal
import proofs.«136228_j64991445123425_1_alg».proof.Proof.KernelTiles
import proofs.«136228_j64991445123425_1_alg».proof.Proof.KernelBlocks0
import Idealize.ShloMosaic.Lib.Pipeline.Value

set_option maxRecDepth 16384

noncomputable section

namespace Cert.KernelIdeal.Blocks

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 3: the head, one grid point, every window its whole array -/

/-- The index maps of region 3's windows at its one grid point: every block is the block at the origin. -/
theorem idx3 : ∀ t : Fin cfg3.N, win3_0.index t (0 : Fin 2) = 0
    ∧ win3_0.index t (1 : Fin 2) = 0
    ∧ win3_1.index t (0 : Fin 1) = 0
    ∧ win3_2.index t (0 : Fin 1) = 0
    ∧ win3_3.index t (0 : Fin 1) = 0
    ∧ win3_4.index t (0 : Fin 1) = 0
    ∧ win3_5.index t (0 : Fin 2) = 0
    ∧ win3_5.index t (1 : Fin 2) = 0
    ∧ win3_6.index t (0 : Fin 1) = 0
    ∧ win3_7.index t (0 : Fin 2) = 0
    ∧ win3_7.index t (1 : Fin 2) = 0
    ∧ win3_8.index t (0 : Fin 1) = 0
    ∧ win3_9.index t (0 : Fin 2) = 0
    ∧ win3_9.index t (1 : Fin 2) = 0 :=
  (by decide +kernel : ∀ t : Fin grid3.N, _)

-- the windows' blocks are read one by one, each compared with the output block coordinate by coordinate at full extents
set_option maxHeartbeats 2000000 in
/-- What the point writes back is the head of the arrays the region found. -/
theorem flushed3 (c : Dev nD) (t : Fin cfg3.N) :
    (dat3 V c).flushed 9 t = ((cfg3.win 9).blk t).view.read (Elt Ideal)
      (Cert.Head.out (A := 1334) (K₁ := 64) (K₂ := 32) (B := 10) (V c main_v48) (V c main_arg29) (V c main_arg30) (V c main_arg27) (V c main_arg28)
        (V c main_arg31) (V c main_arg32) (V c main_arg33) (V c main_arg34)) := by
  show (cfg3.win 9).cut (grid3.coords t) ((dat3 V c).after 9 t) = _
  rw [after3_9]
  unfold out3_9
  rw [View.canon_unit_zero hz2]
  simp only [View.ld_unit_zero (S := S1334x64) hz2, View.ld_unit_zero (S := S64) hz1, View.ld_unit_zero (S := S64x32) hz2,
    View.ld_unit_zero (S := S32) hz1, View.ld_unit_zero (S := S32x10) hz2, View.ld_unit_zero (S := S10) hz1]
  obtain ⟨e0, e1, e2, e3, e4, e5, e6, e7, e8, e9, e10, e11, e12, e13⟩ := idx3 t
  funext j
  obtain ⟨p, q, rfl⟩ : ∃ (p : Fin 1334) (q : Fin 10), j = ix2 p q := ⟨j 0, j 1, eq_ix2 j⟩
  refine (Cert.KernelIdeal.Tiles.head_apply (iblk3 V c 0 t) (iblk3 V c 3 t) (iblk3 V c 4 t) (iblk3 V c 1 t) (iblk3 V c 2 t)
    (iblk3 V c 5 t) (iblk3 V c 6 t) (iblk3 V c 7 t) (iblk3 V c 8 t) p q).trans ?_
  have hw0 : iblk3 V c 0 t = V c main_v48 := funext fun y => by
    show V c main_v48 (((cfg3.win 0).blk t).view.emb y) = V c main_v48 y
    refine congrArg (V c main_v48) (funext fun a => Fin.ext ?_)
    match a with
    | ⟨0, _⟩ => show win3_0.index t (0 : Fin 2) * 1334 + 1 * (y 0).val = (y 0).val; omega
    | ⟨1, _⟩ => show win3_0.index t (1 : Fin 2) * 64 + 1 * (y 1).val = (y 1).val; omega
  have hw1 : iblk3 V c 1 t = V c main_arg27 := funext fun y => by
    show V c main_arg27 (((cfg3.win 1).blk t).view.emb y) = V c main_arg27 y
    refine congrArg (V c main_arg27) (funext fun a => Fin.ext ?_)
    match a with
    | ⟨0, _⟩ => show win3_1.index t (0 : Fin 1) * 64 + 1 * (y 0).val = (y 0).val; omega
  have hw2 : iblk3 V c 2 t = V c main_arg28 := funext fun y => by
    show V c main_arg28 (((cfg3.win 2).blk t).view.emb y) = V c main_arg28 y
    refine congrArg (V c main_arg28) (funext fun a => Fin.ext ?_)
    match a with
    | ⟨0, _⟩ => show win3_2.index t (0 : Fin 1) * 64 + 1 * (y 0).val = (y 0).val; omega
  have hw3 : iblk3 V c 3 t = V c main_arg29 := funext fun y => by
    show V c main_arg29 (((cfg3.win 3).blk t).view.emb y) = V c main_arg29 y
    refine congrArg (V c main_arg29) (funext fun a => Fin.ext ?_)
    match a with
    | ⟨0, _⟩ => show win3_3.index t (0 : Fin 1) * 64 + 1 * (y 0).val = (y 0).val; omega
  have hw4 : iblk3 V c 4 t = V c main_arg30 := funext fun y => by
    show V c main_arg30 (((cfg3.win 4).blk t).view.emb y) = V c main_arg30 y
    refine congrArg (V c main_arg30) (funext fun a => Fin.ext ?_)
    match a with
    | ⟨0, _⟩ => show win3_4.index t (0 : Fin 1) * 64 + 1 * (y 0).val = (y 0).val; omega
  have hw5 : iblk3 V c 5 t = V c main_arg31 := funext fun y => by
    show V c main_arg31 (((cfg3.win 5).blk t).view.emb y) = V c main_arg31 y
    refine congrArg (V c main_arg31) (funext fun a => Fin.ext ?_)
    match a with
    | ⟨0, _⟩ => show win3_5.index t (0 : Fin 2) * 64 + 1 * (y 0).val = (y 0).val; omega
    | ⟨1, _⟩ => show win3_5.index t (1 : Fin 2) * 32 + 1 * (y 1).val = (y 1).val; omega
  have hw6 : iblk3 V c 6 t = V c main_arg32 := funext fun y => by
    show V c main_arg32 (((cfg3.win 6).blk t).view.emb y) = V c main_arg32 y
    refine congrArg (V c main_arg32) (funext fun a => Fin.ext ?_)
    match a with
    | ⟨0, _⟩ => show win3_6.index t (0 : Fin 1) * 32 + 1 * (y 0).val = (y 0).val; omega
  have hw7 : iblk3 V c 7 t = V c main_arg33 := funext fun y => by
    show V c main_arg33 (((cfg3.win 7).blk t).view.emb y) = V c main_arg33 y
    refine congrArg (V c main_arg33) (funext fun a => Fin.ext ?_)
    match a with
    | ⟨0, _⟩ => show win3_7.index t (0 : Fin 2) * 32 + 1 * (y 0).val = (y 0).val; omega
    | ⟨1, _⟩ => show win3_7.index t (1 : Fin 2) * 10 + 1 * (y 1).val = (y 1).val; omega
  have hw8 : iblk3 V c 8 t = V c main_arg34 := funext fun y => by
    show V c main_arg34 (((cfg3.win 8).blk t).view.emb y) = V c main_arg34 y
    refine congrArg (V c main_arg34) (funext fun a => Fin.ext ?_)
    match a with
    | ⟨0, _⟩ => show win3_8.index t (0 : Fin 1) * 10 + 1 * (y 0).val = (y 0).val; omega
  have hout : ((cfg3.win 9).blk t).view.emb (ix2 p q) = (ix2 p q : S1334x10.Idx) := funext fun a => Fin.ext (by
    match a with
    | ⟨0, _⟩ => show win3_9.index t (0 : Fin 2) * 1334 + 1 * p.val = p.val; omega
    | ⟨1, _⟩ => show win3_9.index t (1 : Fin 2) * 10 + 1 * q.val = q.val; omega)
  rw [hw0, hw1, hw2, hw3, hw4, hw5, hw6, hw7, hw8]
  show _ = (Cert.Head.out (A := 1334) (K₁ := 64) (K₂ := 32) (B := 10) (V c main_v48) (V c main_arg29) (V c main_arg30) (V c main_arg27) (V c main_arg28)
        (V c main_arg31) (V c main_arg32) (V c main_arg33) (V c main_arg34)) (((cfg3.win 9).blk t).view.emb (ix2 p q))
  rw [hout, Cert.Head.out_apply]

/-- An index of the result array is in the point's block when each coordinate is within the block at the origin. -/
theorem mem_blk3 (t : Fin cfg3.N) (i : S1334x10.Idx) :
    i ∈ ((cfg3.win 9).blk t).view.set ↔ ∀ a : Fin 2, win3_9.index t a * S1334x10.size a ≤ (i a).val
      ∧ (i a).val < win3_9.index t a * S1334x10.size a + S1334x10.size a := by
  show i ∈ ((View.whole main_v49).slice (win3_9.rect t)).set ↔ _
  rw [View.set_slice_whole, Rect.mem_set_unit]
  exact Iff.rfl

/-- The one point's block is the whole result array. -/
theorem cover3 (i : S1334x10.Idx) :
    ∃ t : Fin cfg3.N, (cfg3.win 9).flush t = true ∧ i ∈ ((cfg3.win 9).blk t).view.set := by
  have hi0 : (i 0).val < 1334 := (i 0).isLt
  have hi1 : (i 1).val < 10 := (i 1).isLt
  have ht : 0 < cfg3.N := by show 0 < 1; omega
  refine ⟨⟨0, ht⟩, flush3_9 _, ?_⟩
  rw [mem_blk3]
  obtain ⟨e0, e1, e2, e3, e4, e5, e6, e7, e8, e9, e10, e11, e12, e13⟩ := idx3 ⟨0, ht⟩
  intro a
  match a with
  | ⟨0, _⟩ =>
    show win3_9.index ⟨0, ht⟩ (0 : Fin 2) * 1334 ≤ (i 0).val ∧ (i 0).val < win3_9.index ⟨0, ht⟩ (0 : Fin 2) * 1334 + 1334
    rw [e12]
    omega
  | ⟨1, _⟩ =>
    show win3_9.index ⟨0, ht⟩ (1 : Fin 2) * 10 ≤ (i 1).val ∧ (i 1).val < win3_9.index ⟨0, ht⟩ (1 : Fin 2) * 10 + 10
    rw [e13]
    omega

/-- After region 3 the result array is the head of the arrays it found, whole. -/
theorem final3 (c : Dev nD) :
    (dat3 V c).arrAt 9 cfg3.N = (Cert.Head.out (A := 1334) (K₁ := 64) (K₂ := 32) (B := 10) (V c main_v48) (V c main_arg29) (V c main_arg30) (V c main_arg27) (V c main_arg28)
        (V c main_arg31) (V c main_arg32) (V c main_arg33) (V c main_arg34)) :=
  (dat3 V c).arrAt_eq_of_cover 9 _ (fun t _ => flushed3 V c t) cover3

end Cert.KernelIdeal.Blocks

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«136228_j64991445123425_1_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.ReferenceStages.lean ====
/-
  The reference, stage by stage.

  The reference computes three gated layers and a classifier head with plain host operations. Read at an index, each
  layer's output is the gated layer (`Cert.Gated.layer`) of the previous features and of their aggregation over the edges,
  and the result is the head (`Cert.Head.out`) of the pooled features: a `dot_general` with one contracted axis is the sum
  over that axis, a bias vector broadcast to a row and then along the rows reads the bias at the column, a maximum-reduce
  from −∞ is a fold of `max`, and a float sum from zero is the sum. The aggregation (a gather through the source ids and a
  scatter-add into the destination ids) and the pooling (scatter-adds into the graph ids and a division) are never opened:
  they appear on both sides as the same functions of the same values.
-/
import proofs.«136228_j64991445123425_1_alg».proof.Proof.PatchedReferenceRead
import proofs.«136228_j64991445123425_1_alg».proof.Proof.LibGatedLayer
import proofs.«136228_j64991445123425_1_alg».proof.Proof.LibHeadLayer
import proofs.«136228_j64991445123425_1_alg».proof.Proof.LibHostReads

set_option maxRecDepth 16384

noncomputable section

open scoped BigOperators

namespace Cert.ReferenceIdeal.Stages

open Cert.ReferenceIdeal Cert.ReferenceIdeal.Gen Cert.ReferenceIdeal.ReadP Idealize.ShloMosaic Idealize.ShloMosaic.ValueIdx

/-! ## The three layers -/

/-- Layer 1 of the reference, as a whole array: the gated layer of the input features and of their
    aggregation over the edges (the stage the reference computes by a gather and a scatter-add, left as it is). -/
theorem layer0_eq (x0 : (⟨S100000x3, .f32⟩ : BufTy).Contents (Elt Ideal)) (x1 : (⟨S2x1200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) :
    val_main_v33 (F := Ideal) x0 x1 x3 x4 x5 x6 x7 x8 x9 x10
      = Cert.Gated.layer (N := 100000) (K := 3) (B := 64) x0 (val_main_v13 (F := Ideal) x0 x1) x3 x5 x7 x9 x4 x6 x8 x10 := by
  funext i
  obtain ⟨r, q, rfl⟩ : ∃ (r : Fin 100000) (q : Fin 64), i = ix2 r q := ⟨i 0, i 1, eq_ix2 i⟩
  rw [Cert.Gated.layer_apply]
  rw [val_main_v33_apply, val_main_v32_apply, val_main_v31_apply, val_main_v30_apply, val_main_v27_apply, val_main_v29_apply, val_main_v28_apply, val_main_v17_apply, val_main_v14_apply, val_main_v16_apply, val_main_v15_apply, val_main_v26_apply, val_main_v21_apply, val_main_v18_apply, val_main_v20_apply, val_main_v19_apply, val_main_v25_apply, val_main_v22_apply, val_main_v24_apply, val_main_v23_apply, val_main_call0_v0_apply, val_main_call0_cst_apply]
  have hl27 : ∀ k, lidx_main_v27 (ix2 r q) k = (ix2 r k : S100000x3.Idx) := fun k => funext fun a => Fin.ext (by match a with | ⟨0, _⟩ => rfl | ⟨1, _⟩ => rfl)
  have hr27 : ∀ k, ridx_main_v27 (ix2 r q) k = (ix2 k q : S3x64.Idx) := fun k => funext fun a => Fin.ext (by match a with | ⟨0, _⟩ => rfl | ⟨1, _⟩ => rfl)
  have hb27 : idx_main_v28 (idx_main_v29 (ix2 r q)) = (ix1 q : S64.Idx) := funext fun a => Fin.ext (by match a with | ⟨0, _⟩ => rfl)
  have hl14 : ∀ k, lidx_main_v14 (ix2 r q) k = (ix2 r k : S100000x3.Idx) := fun k => funext fun a => Fin.ext (by match a with | ⟨0, _⟩ => rfl | ⟨1, _⟩ => rfl)
  have hr14 : ∀ k, ridx_main_v14 (ix2 r q) k = (ix2 k q : S3x64.Idx) := fun k => funext fun a => Fin.ext (by match a with | ⟨0, _⟩ => rfl | ⟨1, _⟩ => rfl)
  have hb14 : idx_main_v15 (idx_main_v16 (ix2 r q)) = (ix1 q : S64.Idx) := funext fun a => Fin.ext (by match a with | ⟨0, _⟩ => rfl)
  have hl18 : ∀ k, lidx_main_v18 (ix2 r q) k = (ix2 r k : S100000x3.Idx) := fun k => funext fun a => Fin.ext (by match a with | ⟨0, _⟩ => rfl | ⟨1, _⟩ => rfl)
  have hr18 : ∀ k, ridx_main_v18 (ix2 r q) k = (ix2 k q : S3x64.Idx) := fun k => funext fun a => Fin.ext (by match a with | ⟨0, _⟩ => rfl | ⟨1, _⟩ => rfl)
  have hb18 : idx_main_v19 (idx_main_v20 (ix2 r q)) = (ix1 q : S64.Idx) := funext fun a => Fin.ext (by match a with | ⟨0, _⟩ => rfl)
  have hl22 : ∀ k, lidx_main_v22 (ix2 r q) k = (ix2 r k : S100000x3.Idx) := fun k => funext fun a => Fin.ext (by match a with | ⟨0, _⟩ => rfl | ⟨1, _⟩ => rfl)
  have hr22 : ∀ k, ridx_main_v22 (ix2 r q) k = (ix2 k q : S3x64.Idx) := fun k => funext fun a => Fin.ext (by match a with | ⟨0, _⟩ => rfl | ⟨1, _⟩ => rfl)
  have hb22 : idx_main_v23 (idx_main_v24 (ix2 r q)) = (ix1 q : S64.Idx) := funext fun a => Fin.ext (by match a with | ⟨0, _⟩ => rfl)
  simp only [hl27, hr27, hb27, hl14, hr14, hb14, hl18, hr18, hb18, hl22, hr22, hb22]
  rfl

/-- Layer 2 of the reference, as a whole array: the gated layer of the previous layer's output and of their
    aggregation over the edges (the stage the reference computes by a gather and a scatter-add, left as it is). -/
theorem layer1_eq (x0 : (⟨S100000x3, .f32⟩ : BufTy).Contents (Elt Ideal)) (x1 : (⟨S2x1200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) :
    val_main_v63 (F := Ideal) x0 x1 x3 x4 x5 x6 x7 x8 x9 x10 x11 x12 x13 x14 x15 x16 x17 x18
      = Cert.Gated.layer (N := 100000) (K := 64) (B := 64) (val_main_v33 (F := Ideal) x0 x1 x3 x4 x5 x6 x7 x8 x9 x10) (val_main_v43 (F := Ideal) x0 x1 x3 x4 x5 x6 x7 x8 x9 x10) x11 x13 x15 x17 x12 x14 x16 x18 := by
  funext i
  obtain ⟨r, q, rfl⟩ : ∃ (r : Fin 100000) (q : Fin 64), i = ix2 r q := ⟨i 0, i 1, eq_ix2 i⟩
  rw [Cert.Gated.layer_apply]
  rw [val_main_v63_apply, val_main_v62_apply, val_main_v61_apply, val_main_v60_apply, val_main_v57_apply, val_main_v59_apply, val_main_v58_apply, val_main_v47_apply, val_main_v44_apply, val_main_v46_apply, val_main_v45_apply, val_main_v56_apply, val_main_v51_apply, val_main_v48_apply, val_main_v50_apply, val_main_v49_apply, val_main_v55_apply, val_main_v52_apply, val_main_v54_apply, val_main_v53_apply, val_main_call1_v0_apply, val_main_call1_cst_apply]
  have hl27 : ∀ k, lidx_main_v57 (ix2 r q) k = (ix2 r k : S100000x64.Idx) := fun k => funext fun a => Fin.ext (by match a with | ⟨0, _⟩ => rfl | ⟨1, _⟩ => rfl)
  have hr27 : ∀ k, ridx_main_v57 (ix2 r q) k = (ix2 k q : S64x64.Idx) := fun k => funext fun a => Fin.ext (by match a with | ⟨0, _⟩ => rfl | ⟨1, _⟩ => rfl)
  have hb27 : idx_main_v58 (idx_main_v59 (ix2 r q)) = (ix1 q : S64.Idx) := funext fun a => Fin.ext (by match a with | ⟨0, _⟩ => rfl)
  have hl14 : ∀ k, lidx_main_v44 (ix2 r q) k = (ix2 r k : S100000x64.Idx) := fun k => funext fun a => Fin.ext (by match a with | ⟨0, _⟩ => rfl | ⟨1, _⟩ => rfl)
  have hr14 : ∀ k, ridx_main_v44 (ix2 r q) k = (ix2 k q : S64x64.Idx) := fun k => funext fun a => Fin.ext (by match a with | ⟨0, _⟩ => rfl | ⟨1, _⟩ => rfl)
  have hb14 : idx_main_v45 (idx_main_v46 (ix2 r q)) = (ix1 q : S64.Idx) := funext fun a => Fin.ext (by match a with | ⟨0, _⟩ => rfl)
  have hl18 : ∀ k, lidx_main_v48 (ix2 r q) k = (ix2 r k : S100000x64.Idx) := fun k => funext fun a => Fin.ext (by match a with | ⟨0, _⟩ => rfl | ⟨1, _⟩ => rfl)
  have hr18 : ∀ k, ridx_main_v48 (ix2 r q) k = (ix2 k q : S64x64.Idx) := fun k => funext fun a => Fin.ext (by match a with | ⟨0, _⟩ => rfl | ⟨1, _⟩ => rfl)
  have hb18 : idx_main_v49 (idx_main_v50 (ix2 r q)) = (ix1 q : S64.Idx) := funext fun a => Fin.ext (by match a with | ⟨0, _⟩ => rfl)
  have hl22 : ∀ k, lidx_main_v52 (ix2 r q) k = (ix2 r k : S100000x64.Idx) := fun k => funext fun a => Fin.ext (by match a with | ⟨0, _⟩ => rfl | ⟨1, _⟩ => rfl)
  have hr22 : ∀ k, ridx_main_v52 (ix2 r q) k = (ix2 k q : S64x64.Idx) := fun k => funext fun a => Fin.ext (by match a with | ⟨0, _⟩ => rfl | ⟨1, _⟩ => rfl)
  have hb22 : idx_main_v53 (idx_main_v54 (ix2 r q)) = (ix1 q : S64.Idx) := funext fun a => Fin.ext (by match a with | ⟨0, _⟩ => rfl)
  simp only [hl27, hr27, hb27, hl14, hr14, hb14, hl18, hr18, hb18, hl22, hr22, hb22]
  rfl

/-- Layer 3 of the reference, as a whole array: the gated layer of the previous layer's output and of their
    aggregation over the edges (the stage the reference computes by a gather and a scatter-add, left as it is). -/
theorem layer2_eq (x0 : (⟨S100000x3, .f32⟩ : BufTy).Contents (Elt Ideal)) (x1 : (⟨S2x1200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) :
    val_main_v93 (F := Ideal) x0 x1 x3 x4 x5 x6 x7 x8 x9 x10 x11 x12 x13 x14 x15 x16 x17 x18 x19 x20 x21 x22 x23 x24 x25 x26
      = Cert.Gated.layer (N := 100000) (K := 64) (B := 64) (val_main_v63 (F := Ideal) x0 x1 x3 x4 x5 x6 x7 x8 x9 x10 x11 x12 x13 x14 x15 x16 x17 x18) (val_main_v73 (F := Ideal) x0 x1 x3 x4 x5 x6 x7 x8 x9 x10 x11 x12 x13 x14 x15 x16 x17 x18) x19 x21 x23 x25 x20 x22 x24 x26 := by
  funext i
  obtain ⟨r, q, rfl⟩ : ∃ (r : Fin 100000) (q : Fin 64), i = ix2 r q := ⟨i 0, i 1, eq_ix2 i⟩
  rw [Cert.Gated.layer_apply]
  rw [val_main_v93_apply, val_main_v92_apply, val_main_v91_apply, val_main_v90_apply, val_main_v87_apply, val_main_v89_apply, val_main_v88_apply, val_main_v77_apply, val_main_v74_apply, val_main_v76_apply, val_main_v75_apply, val_main_v86_apply, val_main_v81_apply, val_main_v78_apply, val_main_v80_apply, val_main_v79_apply, val_main_v85_apply, val_main_v82_apply, val_main_v84_apply, val_main_v83_apply, val_main_call2_v0_apply, val_main_call2_cst_apply]
  have hl27 : ∀ k, lidx_main_v87 (ix2 r q) k = (ix2 r k : S100000x64.Idx) := fun k => funext fun a => Fin.ext (by match a with | ⟨0, _⟩ => rfl | ⟨1, _⟩ => rfl)
  have hr27 : ∀ k, ridx_main_v87 (ix2 r q) k = (ix2 k q : S64x64.Idx) := fun k => funext fun a => Fin.ext (by match a with | ⟨0, _⟩ => rfl | ⟨1, _⟩ => rfl)
  have hb27 : idx_main_v88 (idx_main_v89 (ix2 r q)) = (ix1 q : S64.Idx) := funext fun a => Fin.ext (by match a with | ⟨0, _⟩ => rfl)
  have hl14 : ∀ k, lidx_main_v74 (ix2 r q) k = (ix2 r k : S100000x64.Idx) := fun k => funext fun a => Fin.ext (by match a with | ⟨0, _⟩ => rfl | ⟨1, _⟩ => rfl)
  have hr14 : ∀ k, ridx_main_v74 (ix2 r q) k = (ix2 k q : S64x64.Idx) := fun k => funext fun a => Fin.ext (by match a with | ⟨0, _⟩ => rfl | ⟨1, _⟩ => rfl)
  have hb14 : idx_main_v75 (idx_main_v76 (ix2 r q)) = (ix1 q : S64.Idx) := funext fun a => Fin.ext (by match a with | ⟨0, _⟩ => rfl)
  have hl18 : ∀ k, lidx_main_v78 (ix2 r q) k = (ix2 r k : S100000x64.Idx) := fun k => funext fun a => Fin.ext (by match a with | ⟨0, _⟩ => rfl | ⟨1, _⟩ => rfl)
  have hr18 : ∀ k, ridx_main_v78 (ix2 r q) k = (ix2 k q : S64x64.Idx) := fun k => funext fun a => Fin.ext (by match a with | ⟨0, _⟩ => rfl | ⟨1, _⟩ => rfl)
  have hb18 : idx_main_v79 (idx_main_v80 (ix2 r q)) = (ix1 q : S64.Idx) := funext fun a => Fin.ext (by match a with | ⟨0, _⟩ => rfl)
  have hl22 : ∀ k, lidx_main_v82 (ix2 r q) k = (ix2 r k : S100000x64.Idx) := fun k => funext fun a => Fin.ext (by match a with | ⟨0, _⟩ => rfl | ⟨1, _⟩ => rfl)
  have hr22 : ∀ k, ridx_main_v82 (ix2 r q) k = (ix2 k q : S64x64.Idx) := fun k => funext fun a => Fin.ext (by match a with | ⟨0, _⟩ => rfl | ⟨1, _⟩ => rfl)
  have hb22 : idx_main_v83 (idx_main_v84 (ix2 r q)) = (ix1 q : S64.Idx) := funext fun a => Fin.ext (by match a with | ⟨0, _⟩ => rfl)
  simp only [hl27, hr27, hb27, hl14, hr14, hb14, hl18, hr18, hb18, hl22, hr22, hb22]
  rfl

/-! ## The aggregation and the pooling, as functions of the features -/

/-- The aggregation of a feature array of width 64 over the edges, from the vectors of source and destination ids: each
    edge's source row (a negative id counted from the end), gathered, is added into its destination row. -/
def agg64 (h : FVec Ideal S100000x64 .f32) (src dst : (⟨S1200000, .i32⟩ : BufTy).Contents (Elt Ideal)) : FVec Ideal S100000x64 .f32 :=
  Host.scatterAdd (F := Ideal) (φ := .f32) scatter_S100000x64_S1200000x1_S1200000x64_1_0_0_1 (val_main_v41 (F := Ideal))
    (broadcastInDim S1200000x1 ![0] bcast_S1200000_S1200000x1_0 dst)
    (Host.gather gather_S100000x64_S1200000x1_S1200000x64_1_0_n_n_0_1_164 h
      (broadcastInDim S1200000x1 ![0] bcast_S1200000_S1200000x1_0
        (select (cmpi .slt src (val_main_v34 (F := Ideal))) (addi src (val_main_v36 (F := Ideal))) src)))

/-- The second layer's aggregate is the aggregation of the first layer's output along the edge list's two rows. -/
theorem v43_eq (x0 : (⟨S100000x3, .f32⟩ : BufTy).Contents (Elt Ideal)) (x1 : (⟨S2x1200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) :
    val_main_v43 (F := Ideal) x0 x1 x3 x4 x5 x6 x7 x8 x9 x10 = agg64 (val_main_v33 (F := Ideal) x0 x1 x3 x4 x5 x6 x7 x8 x9 x10) (val_main_v1 (F := Ideal) x1) (val_main_v3 (F := Ideal) x1) := rfl

/-- The third layer's aggregate is the aggregation of the second layer's output along the same two rows. -/
theorem v73_eq (x0 : (⟨S100000x3, .f32⟩ : BufTy).Contents (Elt Ideal)) (x1 : (⟨S2x1200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) :
    val_main_v73 (F := Ideal) x0 x1 x3 x4 x5 x6 x7 x8 x9 x10 x11 x12 x13 x14 x15 x16 x17 x18 = agg64 (val_main_v63 (F := Ideal) x0 x1 x3 x4 x5 x6 x7 x8 x9 x10 x11 x12 x13 x14 x15 x16 x17 x18) (val_main_v1 (F := Ideal) x1) (val_main_v3 (F := Ideal) x1) := rfl

/-- The mean pool of a feature array over the graphs: rows added into their graph's row, divided by the graph's
    node count (at least one). -/
def pool (h : FVec Ideal S100000x64 .f32) (x2 : (⟨S100000, .i32⟩ : BufTy).Contents (Elt Ideal)) : FVec Ideal S1334x64 .f32 :=
  Host.divf (F := Ideal) (φ := .f32)
    (Host.scatterAdd (F := Ideal) (φ := .f32) scatter_S1334x64_S100000x1_S100000x64_1_0_0_1 (val_main_v94 (F := Ideal)) (val_main_v95 (F := Ideal) x2) h)
    (val_main_v104 (F := Ideal) x2)

/-- The pooled features are the pool of the third layer's output. -/
theorem v105_eq (x0 : (⟨S100000x3, .f32⟩ : BufTy).Contents (Elt Ideal)) (x1 : (⟨S2x1200000, .i32⟩ : BufTy).Contents (Elt Ideal)) (x2 : (⟨S100000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) :
    val_main_v105 (F := Ideal) x0 x1 x2 x3 x4 x5 x6 x7 x8 x9 x10 x11 x12 x13 x14 x15 x16 x17 x18 x19 x20 x21 x22 x23 x24 x25 x26 = pool (val_main_v93 (F := Ideal) x0 x1 x3 x4 x5 x6 x7 x8 x9 x10 x11 x12 x13 x14 x15 x16 x17 x18 x19 x20 x21 x22 x23 x24 x25 x26) x2 := rfl

/-! ## The head -/

/-- The normalised pooled feature at (p, k). -/
theorem norm_eq (x0 : (⟨S100000x3, .f32⟩ : BufTy).Contents (Elt Ideal)) (x1 : (⟨S2x1200000, .i32⟩ : BufTy).Contents (Elt Ideal)) (x2 : (⟨S100000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64, .f32⟩ : BufTy).Contents (Elt Ideal)) (x28 : (⟨S64, .f32⟩ : BufTy).Contents (Elt Ideal)) (x29 : (⟨S64, .f32⟩ : BufTy).Contents (Elt Ideal)) (x30 : (⟨S64, .f32⟩ : BufTy).Contents (Elt Ideal)) (p : Fin 1334) (k : Fin 64) :
    val_main_v120 (F := Ideal) x0 x1 x2 x3 x4 x5 x6 x7 x8 x9 x10 x11 x12 x13 x14 x15 x16 x17 x18 x19 x20 x21 x22 x23 x24 x25 x26 x27 x28 x29 x30 (ix2 p k)
      = Cert.Head.norm (val_main_v105 (F := Ideal) x0 x1 x2 x3 x4 x5 x6 x7 x8 x9 x10 x11 x12 x13 x14 x15 x16 x17 x18 x19 x20 x21 x22 x23 x24 x25 x26 (ix2 p k)) (x29 (ix1 k)) (x30 (ix1 k)) (x27 (ix1 k)) (x28 (ix1 k)) := by
  rw [val_main_v120_apply, val_main_v117_apply, val_main_v114_apply, val_main_v108_apply, val_main_v107_apply, val_main_v106_apply,
    val_main_v113_apply, val_main_v112_apply, val_main_v111_apply, val_main_v110_apply, val_main_v109_apply, val_main_cst_11_apply,
    val_main_v116_apply, val_main_v115_apply, val_main_v119_apply, val_main_v118_apply]
  have h107 : idx_main_v106 (idx_main_v107 (ix2 p k)) = (ix1 k : S64.Idx) := funext fun a => Fin.ext (by match a with | ⟨0, _⟩ => rfl)
  have h113 : idx_main_v112 (idx_main_v113 (ix2 p k)) = (ix1 k : S64.Idx) := funext fun a => Fin.ext (by match a with | ⟨0, _⟩ => rfl)
  have h116 : idx_main_v115 (idx_main_v116 (ix2 p k)) = (ix1 k : S64.Idx) := funext fun a => Fin.ext (by match a with | ⟨0, _⟩ => rfl)
  have h119 : idx_main_v118 (idx_main_v119 (ix2 p k)) = (ix1 k : S64.Idx) := funext fun a => Fin.ext (by match a with | ⟨0, _⟩ => rfl)
  simp only [h107, h113, h116, h119]
  rfl

/-- The hidden unit at (p, j). -/
theorem hidden_eq (x0 : (⟨S100000x3, .f32⟩ : BufTy).Contents (Elt Ideal)) (x1 : (⟨S2x1200000, .i32⟩ : BufTy).Contents (Elt Ideal)) (x2 : (⟨S100000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64, .f32⟩ : BufTy).Contents (Elt Ideal)) (x28 : (⟨S64, .f32⟩ : BufTy).Contents (Elt Ideal)) (x29 : (⟨S64, .f32⟩ : BufTy).Contents (Elt Ideal)) (x30 : (⟨S64, .f32⟩ : BufTy).Contents (Elt Ideal)) (x31 : (⟨S64x32, .f32⟩ : BufTy).Contents (Elt Ideal)) (x32 : (⟨S32, .f32⟩ : BufTy).Contents (Elt Ideal)) (p : Fin 1334) (j : Fin 32) :
    val_main_v125 (F := Ideal) x0 x1 x2 x3 x4 x5 x6 x7 x8 x9 x10 x11 x12 x13 x14 x15 x16 x17 x18 x19 x20 x21 x22 x23 x24 x25 x26 x27 x28 x29 x30 x31 x32 (ix2 p j)
      = Cert.Head.hidden (fun k : Fin 64 => Cert.Head.norm (val_main_v105 (F := Ideal) x0 x1 x2 x3 x4 x5 x6 x7 x8 x9 x10 x11 x12 x13 x14 x15 x16 x17 x18 x19 x20 x21 x22 x23 x24 x25 x26 (ix2 p k)) (x29 (ix1 k)) (x30 (ix1 k)) (x27 (ix1 k)) (x28 (ix1 k)))
          (fun k => x31 (ix2 k j)) (x32 (ix1 j)) := by
  rw [val_main_v125_apply, val_main_v124_apply, val_main_v121_apply, val_main_v123_apply, val_main_v122_apply,
    val_main_call3_v0_apply, val_main_call3_cst_apply]
  have hl : ∀ k, lidx_main_v121 (ix2 p j) k = (ix2 p k : S1334x64.Idx) := fun k => funext fun a => Fin.ext (by match a with | ⟨0, _⟩ => rfl | ⟨1, _⟩ => rfl)
  have hr : ∀ k, ridx_main_v121 (ix2 p j) k = (ix2 k j : S64x32.Idx) := fun k => funext fun a => Fin.ext (by match a with | ⟨0, _⟩ => rfl | ⟨1, _⟩ => rfl)
  have hb : idx_main_v122 (idx_main_v123 (ix2 p j)) = (ix1 j : S32.Idx) := funext fun a => Fin.ext (by match a with | ⟨0, _⟩ => rfl)
  simp only [hl, hr, hb, norm_eq]
  rfl

/-- The logit at (p, q). -/
theorem logits_eq (x0 : (⟨S100000x3, .f32⟩ : BufTy).Contents (Elt Ideal)) (x1 : (⟨S2x1200000, .i32⟩ : BufTy).Contents (Elt Ideal)) (x2 : (⟨S100000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64, .f32⟩ : BufTy).Contents (Elt Ideal)) (x28 : (⟨S64, .f32⟩ : BufTy).Contents (Elt Ideal)) (x29 : (⟨S64, .f32⟩ : BufTy).Contents (Elt Ideal)) (x30 : (⟨S64, .f32⟩ : BufTy).Contents (Elt Ideal)) (x31 : (⟨S64x32, .f32⟩ : BufTy).Contents (Elt Ideal)) (x32 : (⟨S32, .f32⟩ : BufTy).Contents (Elt Ideal)) (x33 : (⟨S32x10, .f32⟩ : BufTy).Contents (Elt Ideal)) (x34 : (⟨S10, .f32⟩ : BufTy).Contents (Elt Ideal)) (p : Fin 1334) (q : Fin 10) :
    val_main_v129 (F := Ideal) x0 x1 x2 x3 x4 x5 x6 x7 x8 x9 x10 x11 x12 x13 x14 x15 x16 x17 x18 x19 x20 x21 x22 x23 x24 x25 x26 x27 x28 x29 x30 x31 x32 x33 x34 (ix2 p q) = Cert.Head.logitsRow (A := 1334) (K₁ := 64) (K₂ := 32) (B := 10) (val_main_v105 (F := Ideal) x0 x1 x2 x3 x4 x5 x6 x7 x8 x9 x10 x11 x12 x13 x14 x15 x16 x17 x18 x19 x20 x21 x22 x23 x24 x25 x26) x29 x30 x27 x28 x31 x32 x33 x34 p q := by
  rw [val_main_v129_apply, val_main_v126_apply, val_main_v128_apply, val_main_v127_apply]
  have hl : ∀ k, lidx_main_v126 (ix2 p q) k = (ix2 p k : S1334x32.Idx) := fun k => funext fun a => Fin.ext (by match a with | ⟨0, _⟩ => rfl | ⟨1, _⟩ => rfl)
  have hr : ∀ k, ridx_main_v126 (ix2 p q) k = (ix2 k q : S32x10.Idx) := fun k => funext fun a => Fin.ext (by match a with | ⟨0, _⟩ => rfl | ⟨1, _⟩ => rfl)
  have hb : idx_main_v127 (idx_main_v128 (ix2 p q)) = (ix1 q : S10.Idx) := funext fun a => Fin.ext (by match a with | ⟨0, _⟩ => rfl)
  simp only [hl, hr, hb, hidden_eq]
  rfl

/-- The logits minus their row maximum, at (p, q). -/
theorem shifted_eq (x0 : (⟨S100000x3, .f32⟩ : BufTy).Contents (Elt Ideal)) (x1 : (⟨S2x1200000, .i32⟩ : BufTy).Contents (Elt Ideal)) (x2 : (⟨S100000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64, .f32⟩ : BufTy).Contents (Elt Ideal)) (x28 : (⟨S64, .f32⟩ : BufTy).Contents (Elt Ideal)) (x29 : (⟨S64, .f32⟩ : BufTy).Contents (Elt Ideal)) (x30 : (⟨S64, .f32⟩ : BufTy).Contents (Elt Ideal)) (x31 : (⟨S64x32, .f32⟩ : BufTy).Contents (Elt Ideal)) (x32 : (⟨S32, .f32⟩ : BufTy).Contents (Elt Ideal)) (x33 : (⟨S32x10, .f32⟩ : BufTy).Contents (Elt Ideal)) (x34 : (⟨S10, .f32⟩ : BufTy).Contents (Elt Ideal)) (p : Fin 1334) (q : Fin 10) :
    val_main_call4_v5 (F := Ideal) x0 x1 x2 x3 x4 x5 x6 x7 x8 x9 x10 x11 x12 x13 x14 x15 x16 x17 x18 x19 x20 x21 x22 x23 x24 x25 x26 x27 x28 x29 x30 x31 x32 x33 x34 (ix2 p q)
      = Cert.Head.logitsRow (A := 1334) (K₁ := 64) (K₂ := 32) (B := 10) (val_main_v105 (F := Ideal) x0 x1 x2 x3 x4 x5 x6 x7 x8 x9 x10 x11 x12 x13 x14 x15 x16 x17 x18 x19 x20 x21 x22 x23 x24 x25 x26) x29 x30 x27 x28 x31 x32 x33 x34 p q
        - Cert.Head.rowMax (Cert.Head.logitsRow (A := 1334) (K₁ := 64) (K₂ := 32) (B := 10) (val_main_v105 (F := Ideal) x0 x1 x2 x3 x4 x5 x6 x7 x8 x9 x10 x11 x12 x13 x14 x15 x16 x17 x18 x19 x20 x21 x22 x23 x24 x25 x26) x29 x30 x27 x28 x31 x32 x33 x34 p) := by
  rw [val_main_call4_v5_apply, val_main_call4_v4_apply, val_main_call4_v3_apply, val_main_call4_v2_apply, val_main_call4_v1_apply,
    val_main_call4_cst_0_apply, logits_eq]
  have hp : idx_main_call4_v3 (idx_main_call4_v4 (ix2 p q)) = (ix1 p : S1334.Idx) := funext fun a => Fin.ext (by match a with | ⟨0, _⟩ => rfl)
  rw [hp]
  unfold val_main_call4_v0 val_main_call4_cst
  rw [Cert.Lib.host_rowMax_apply (A := 1334) (n := 10) (by decide) _ 0xFF800000#32 _ _ p]
  simp only [logits_eq]
  rfl

/-- The reference's result, as a whole array: the head of the pooled features (the stage the reference computes by
    scatter-adds over the graph ids and a division, left as it is). -/
theorem head_eq (x0 : (⟨S100000x3, .f32⟩ : BufTy).Contents (Elt Ideal)) (x1 : (⟨S2x1200000, .i32⟩ : BufTy).Contents (Elt Ideal)) (x2 : (⟨S100000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64, .f32⟩ : BufTy).Contents (Elt Ideal)) (x28 : (⟨S64, .f32⟩ : BufTy).Contents (Elt Ideal)) (x29 : (⟨S64, .f32⟩ : BufTy).Contents (Elt Ideal)) (x30 : (⟨S64, .f32⟩ : BufTy).Contents (Elt Ideal)) (x31 : (⟨S64x32, .f32⟩ : BufTy).Contents (Elt Ideal)) (x32 : (⟨S32, .f32⟩ : BufTy).Contents (Elt Ideal)) (x33 : (⟨S32x10, .f32⟩ : BufTy).Contents (Elt Ideal)) (x34 : (⟨S10, .f32⟩ : BufTy).Contents (Elt Ideal)) :
    val_main_v130 (F := Ideal) x0 x1 x2 x3 x4 x5 x6 x7 x8 x9 x10 x11 x12 x13 x14 x15 x16 x17 x18 x19 x20 x21 x22 x23 x24 x25 x26 x27 x28 x29 x30 x31 x32 x33 x34 = Cert.Head.out (A := 1334) (K₁ := 64) (K₂ := 32) (B := 10) (val_main_v105 (F := Ideal) x0 x1 x2 x3 x4 x5 x6 x7 x8 x9 x10 x11 x12 x13 x14 x15 x16 x17 x18 x19 x20 x21 x22 x23 x24 x25 x26) x29 x30 x27 x28 x31 x32 x33 x34 := by
  funext i
  obtain ⟨p, q, rfl⟩ : ∃ (p : Fin 1334) (q : Fin 10), i = ix2 p q := ⟨i 0, i 1, eq_ix2 i⟩
  rw [Cert.Head.out_apply]
  unfold Cert.Head.lsm
  rw [val_main_v130_apply, val_main_call4_v10_apply, val_main_call4_v9_apply, val_main_call4_v8_apply, val_main_call4_v7_apply,
    val_main_call4_cst_1_apply, shifted_eq]
  have hp : idx_main_call4_v8 (idx_main_call4_v10 (ix2 p q)) = (ix1 p : S1334.Idx) := funext fun a => Fin.ext (by match a with | ⟨0, _⟩ => rfl)
  have hk : ∀ k, idx_main_call4_v7 (ix1 p) k = (ix2 p k : S1334x10.Idx) := fun k => funext fun a => Fin.ext (by match a with | ⟨0, _⟩ => rfl | ⟨1, _⟩ => rfl)
  simp only [hp, hk, val_main_call4_v6_apply, shifted_eq]
  simp only [Ideal.ofBits_def, Ideal.ofBits_zero_f32, zero_add]
  generalize (Cert.Head.logitsRow (A := 1334) (K₁ := 64) (K₂ := 32) (B := 10) _ x29 x30 x27 x28 x31 x32 x33 x34 p) = row
  rfl

end Cert.ReferenceIdeal.Stages

end
-- ==== Proof.KernelChain.lean ====
/-
  The idealized kernel's value: the fold of @main, read at the result.

  The kernel program alternates stretches of host operations with kernel regions. Its buffers' contents at the eight
  boundaries are `W0` (the launch memory) to `W8`. Reading the fold:

    * an argument is written by nothing, so it holds its launch contents at every boundary;
    * stretch r leaves in the aggregate buffer the gather / scatter-add of the features it found — as a term, the
      reference's own aggregation stage applied to the same features and the same edge list;
    * region r leaves in its output array the gated layer of the arrays it found (from its blocks: `Blocks.final`), and
      the reference's layer stage is the same gated layer of the same arrays (`Stages.layer_eq`);
    * the last stretch leaves the pooled features, again as the reference's own pooling stage, and the last region
      leaves the head of them.

  So by induction along the program the result buffer ends at the reference's result, as a function of the launch
  arguments. The aggregation and the pooling are compared as terms and never opened.
-/
import proofs.«136228_j64991445123425_1_alg».proof.Proof.PatchedFrameKernelIdeal
import proofs.«136228_j64991445123425_1_alg».proof.Proof.KernelBlocks0
import proofs.«136228_j64991445123425_1_alg».proof.Proof.KernelBlocks1
import proofs.«136228_j64991445123425_1_alg».proof.Proof.KernelBlocks2
import proofs.«136228_j64991445123425_1_alg».proof.Proof.KernelBlocks3
import proofs.«136228_j64991445123425_1_alg».proof.Proof.ReferenceStages

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.ValueIdx Idealize.SL.Sem Idealize.ShloMosaic.StableHlo

section Kept

variable {F : FTy → Type} [FloatOps F]

/-! ## What a stretch of host operations does not write -/

/-- A buffer none of stretch 0's operations writes holds after the stretch what it held before. -/
theorem keep0 (W : Valuation τ sig (Elt F)) (b : Ref sig .tc)
    (hb : b ≠ main_v0 ∧ b ≠ main_v1 ∧ b ≠ main_v2 ∧ b ≠ main_v3 ∧ b ≠ main_c ∧ b ≠ main_v4 ∧ b ≠ main_v5 ∧ b ≠ main_c_0 ∧ b ≠ main_v6 ∧ b ≠ main_v7 ∧ b ≠ main_v8 ∧ b ≠ main_v9 ∧ b ≠ main_v10 ∧ b ≠ main_cst ∧ b ≠ main_v11 ∧ b ≠ main_v12 ∧ b ≠ main_v13) :
    StableHlo.after hostOps0 W (Proc.devRef .tc b) = W (Proc.devRef .tc b) := by
  obtain ⟨h0, h1, h2, h3, h4, h5, h6, h7, h8, h9, h10, h11, h12, h13, h14, h15, h16⟩ := hb
  refine StableHlo.after_of_forall_not_mem (b := Proc.devRef .tc b) hostOps0 W fun op hop => ?_
  simp only [List.mem_cons, List.mem_nil_iff, or_false] at hop
  rcases hop with rfl | rfl | rfl | rfl | rfl | rfl | rfl | rfl | rfl | rfl | rfl | rfl | rfl | rfl | rfl | rfl | rfl <;>
    simp only [StableHlo.unary_writes, StableHlo.binary_writes, StableHlo.ternary_writes, StableHlo.nullary_writes,
      StableHlo.reshape_writes, Finset.mem_singleton] <;>
    exact StableHlo.devRef_ne_of_ne ‹_›

/-- A buffer none of stretch 1's operations writes holds after the stretch what it held before. -/
theorem keep1 (W : Valuation τ sig (Elt F)) (b : Ref sig .tc)
    (hb : b ≠ main_c_1 ∧ b ≠ main_v15 ∧ b ≠ main_v16 ∧ b ≠ main_c_2 ∧ b ≠ main_v17 ∧ b ≠ main_v18 ∧ b ≠ main_v19 ∧ b ≠ main_v20 ∧ b ≠ main_v21 ∧ b ≠ main_cst_3 ∧ b ≠ main_v22 ∧ b ≠ main_v23 ∧ b ≠ main_v24) :
    StableHlo.after hostOps1 W (Proc.devRef .tc b) = W (Proc.devRef .tc b) := by
  obtain ⟨h0, h1, h2, h3, h4, h5, h6, h7, h8, h9, h10, h11, h12⟩ := hb
  refine StableHlo.after_of_forall_not_mem (b := Proc.devRef .tc b) hostOps1 W fun op hop => ?_
  simp only [List.mem_cons, List.mem_nil_iff, or_false] at hop
  rcases hop with rfl | rfl | rfl | rfl | rfl | rfl | rfl | rfl | rfl | rfl | rfl | rfl | rfl <;>
    simp only [StableHlo.unary_writes, StableHlo.binary_writes, StableHlo.ternary_writes, StableHlo.nullary_writes,
      StableHlo.reshape_writes, Finset.mem_singleton] <;>
    exact StableHlo.devRef_ne_of_ne ‹_›

/-- A buffer none of stretch 2's operations writes holds after the stretch what it held before. -/
theorem keep2 (W : Valuation τ sig (Elt F)) (b : Ref sig .tc)
    (hb : b ≠ main_c_4 ∧ b ≠ main_v26 ∧ b ≠ main_v27 ∧ b ≠ main_c_5 ∧ b ≠ main_v28 ∧ b ≠ main_v29 ∧ b ≠ main_v30 ∧ b ≠ main_v31 ∧ b ≠ main_v32 ∧ b ≠ main_cst_6 ∧ b ≠ main_v33 ∧ b ≠ main_v34 ∧ b ≠ main_v35) :
    StableHlo.after hostOps2 W (Proc.devRef .tc b) = W (Proc.devRef .tc b) := by
  obtain ⟨h0, h1, h2, h3, h4, h5, h6, h7, h8, h9, h10, h11, h12⟩ := hb
  refine StableHlo.after_of_forall_not_mem (b := Proc.devRef .tc b) hostOps2 W fun op hop => ?_
  simp only [List.mem_cons, List.mem_nil_iff, or_false] at hop
  rcases hop with rfl | rfl | rfl | rfl | rfl | rfl | rfl | rfl | rfl | rfl | rfl | rfl | rfl <;>
    simp only [StableHlo.unary_writes, StableHlo.binary_writes, StableHlo.ternary_writes, StableHlo.nullary_writes,
      StableHlo.reshape_writes, Finset.mem_singleton] <;>
    exact StableHlo.devRef_ne_of_ne ‹_›

/-- A buffer none of stretch 3's operations writes holds after the stretch what it held before. -/
theorem keep3 (W : Valuation τ sig (Elt F)) (b : Ref sig .tc)
    (hb : b ≠ main_cst_7 ∧ b ≠ main_v37 ∧ b ≠ main_v38 ∧ b ≠ main_v39 ∧ b ≠ main_cst_8 ∧ b ≠ main_v40 ∧ b ≠ main_cst_9 ∧ b ≠ main_v41 ∧ b ≠ main_v42 ∧ b ≠ main_v43 ∧ b ≠ main_cst_10 ∧ b ≠ main_v44 ∧ b ≠ main_v45 ∧ b ≠ main_v46 ∧ b ≠ main_v47 ∧ b ≠ main_v48) :
    StableHlo.after hostOps3 W (Proc.devRef .tc b) = W (Proc.devRef .tc b) := by
  obtain ⟨h0, h1, h2, h3, h4, h5, h6, h7, h8, h9, h10, h11, h12, h13, h14, h15⟩ := hb
  refine StableHlo.after_of_forall_not_mem (b := Proc.devRef .tc b) hostOps3 W fun op hop => ?_
  simp only [List.mem_cons, List.mem_nil_iff, or_false] at hop
  rcases hop with rfl | rfl | rfl | rfl | rfl | rfl | rfl | rfl | rfl | rfl | rfl | rfl | rfl | rfl | rfl | rfl <;>
    simp only [StableHlo.unary_writes, StableHlo.binary_writes, StableHlo.ternary_writes, StableHlo.nullary_writes,
      StableHlo.reshape_writes, Finset.mem_singleton] <;>
    exact StableHlo.devRef_ne_of_ne ‹_›

variable (m : (ℓ : Loc nD τ sig) → Buf (Elt F) ℓ) (ρ : Dev nD → PrngReg)

/-! ## The arguments at the boundaries where they are read -/

theorem W1_arg0 (c : Dev nD) : W1 m ρ c (Proc.devRef .tc main_arg0) = m ((c : Thread nD τ).loc main_arg0) :=
  (keep0 (W0 m ρ c) main_arg0 (by decide)).trans rfl
theorem W1_arg1 (c : Dev nD) : W1 m ρ c (Proc.devRef .tc main_arg1) = m ((c : Thread nD τ).loc main_arg1) :=
  (keep0 (W0 m ρ c) main_arg1 (by decide)).trans rfl
theorem W1_arg2 (c : Dev nD) : W1 m ρ c (Proc.devRef .tc main_arg2) = m ((c : Thread nD τ).loc main_arg2) :=
  (keep0 (W0 m ρ c) main_arg2 (by decide)).trans rfl
theorem W1_arg3 (c : Dev nD) : W1 m ρ c (Proc.devRef .tc main_arg3) = m ((c : Thread nD τ).loc main_arg3) :=
  (keep0 (W0 m ρ c) main_arg3 (by decide)).trans rfl
theorem W1_arg4 (c : Dev nD) : W1 m ρ c (Proc.devRef .tc main_arg4) = m ((c : Thread nD τ).loc main_arg4) :=
  (keep0 (W0 m ρ c) main_arg4 (by decide)).trans rfl
theorem W1_arg5 (c : Dev nD) : W1 m ρ c (Proc.devRef .tc main_arg5) = m ((c : Thread nD τ).loc main_arg5) :=
  (keep0 (W0 m ρ c) main_arg5 (by decide)).trans rfl
theorem W1_arg6 (c : Dev nD) : W1 m ρ c (Proc.devRef .tc main_arg6) = m ((c : Thread nD τ).loc main_arg6) :=
  (keep0 (W0 m ρ c) main_arg6 (by decide)).trans rfl
theorem W1_arg7 (c : Dev nD) : W1 m ρ c (Proc.devRef .tc main_arg7) = m ((c : Thread nD τ).loc main_arg7) :=
  (keep0 (W0 m ρ c) main_arg7 (by decide)).trans rfl
theorem W1_arg8 (c : Dev nD) : W1 m ρ c (Proc.devRef .tc main_arg8) = m ((c : Thread nD τ).loc main_arg8) :=
  (keep0 (W0 m ρ c) main_arg8 (by decide)).trans rfl
theorem W1_arg9 (c : Dev nD) : W1 m ρ c (Proc.devRef .tc main_arg9) = m ((c : Thread nD τ).loc main_arg9) :=
  (keep0 (W0 m ρ c) main_arg9 (by decide)).trans rfl
theorem W1_arg10 (c : Dev nD) : W1 m ρ c (Proc.devRef .tc main_arg10) = m ((c : Thread nD τ).loc main_arg10) :=
  (keep0 (W0 m ρ c) main_arg10 (by decide)).trans rfl
theorem W1_arg11 (c : Dev nD) : W1 m ρ c (Proc.devRef .tc main_arg11) = m ((c : Thread nD τ).loc main_arg11) :=
  (keep0 (W0 m ρ c) main_arg11 (by decide)).trans rfl
theorem W1_arg12 (c : Dev nD) : W1 m ρ c (Proc.devRef .tc main_arg12) = m ((c : Thread nD τ).loc main_arg12) :=
  (keep0 (W0 m ρ c) main_arg12 (by decide)).trans rfl
theorem W1_arg13 (c : Dev nD) : W1 m ρ c (Proc.devRef .tc main_arg13) = m ((c : Thread nD τ).loc main_arg13) :=
  (keep0 (W0 m ρ c) main_arg13 (by decide)).trans rfl
theorem W1_arg14 (c : Dev nD) : W1 m ρ c (Proc.devRef .tc main_arg14) = m ((c : Thread nD τ).loc main_arg14) :=
  (keep0 (W0 m ρ c) main_arg14 (by decide)).trans rfl
theorem W1_arg15 (c : Dev nD) : W1 m ρ c (Proc.devRef .tc main_arg15) = m ((c : Thread nD τ).loc main_arg15) :=
  (keep0 (W0 m ρ c) main_arg15 (by decide)).trans rfl
theorem W1_arg16 (c : Dev nD) : W1 m ρ c (Proc.devRef .tc main_arg16) = m ((c : Thread nD τ).loc main_arg16) :=
  (keep0 (W0 m ρ c) main_arg16 (by decide)).trans rfl
theorem W1_arg17 (c : Dev nD) : W1 m ρ c (Proc.devRef .tc main_arg17) = m ((c : Thread nD τ).loc main_arg17) :=
  (keep0 (W0 m ρ c) main_arg17 (by decide)).trans rfl
theorem W1_arg18 (c : Dev nD) : W1 m ρ c (Proc.devRef .tc main_arg18) = m ((c : Thread nD τ).loc main_arg18) :=
  (keep0 (W0 m ρ c) main_arg18 (by decide)).trans rfl
theorem W1_arg19 (c : Dev nD) : W1 m ρ c (Proc.devRef .tc main_arg19) = m ((c : Thread nD τ).loc main_arg19) :=
  (keep0 (W0 m ρ c) main_arg19 (by decide)).trans rfl
theorem W1_arg20 (c : Dev nD) : W1 m ρ c (Proc.devRef .tc main_arg20) = m ((c : Thread nD τ).loc main_arg20) :=
  (keep0 (W0 m ρ c) main_arg20 (by decide)).trans rfl
theorem W1_arg21 (c : Dev nD) : W1 m ρ c (Proc.devRef .tc main_arg21) = m ((c : Thread nD τ).loc main_arg21) :=
  (keep0 (W0 m ρ c) main_arg21 (by decide)).trans rfl
theorem W1_arg22 (c : Dev nD) : W1 m ρ c (Proc.devRef .tc main_arg22) = m ((c : Thread nD τ).loc main_arg22) :=
  (keep0 (W0 m ρ c) main_arg22 (by decide)).trans rfl
theorem W1_arg23 (c : Dev nD) : W1 m ρ c (Proc.devRef .tc main_arg23) = m ((c : Thread nD τ).loc main_arg23) :=
  (keep0 (W0 m ρ c) main_arg23 (by decide)).trans rfl
theorem W1_arg24 (c : Dev nD) : W1 m ρ c (Proc.devRef .tc main_arg24) = m ((c : Thread nD τ).loc main_arg24) :=
  (keep0 (W0 m ρ c) main_arg24 (by decide)).trans rfl
theorem W1_arg25 (c : Dev nD) : W1 m ρ c (Proc.devRef .tc main_arg25) = m ((c : Thread nD τ).loc main_arg25) :=
  (keep0 (W0 m ρ c) main_arg25 (by decide)).trans rfl
theorem W1_arg26 (c : Dev nD) : W1 m ρ c (Proc.devRef .tc main_arg26) = m ((c : Thread nD τ).loc main_arg26) :=
  (keep0 (W0 m ρ c) main_arg26 (by decide)).trans rfl
theorem W1_arg27 (c : Dev nD) : W1 m ρ c (Proc.devRef .tc main_arg27) = m ((c : Thread nD τ).loc main_arg27) :=
  (keep0 (W0 m ρ c) main_arg27 (by decide)).trans rfl
theorem W1_arg28 (c : Dev nD) : W1 m ρ c (Proc.devRef .tc main_arg28) = m ((c : Thread nD τ).loc main_arg28) :=
  (keep0 (W0 m ρ c) main_arg28 (by decide)).trans rfl
theorem W1_arg29 (c : Dev nD) : W1 m ρ c (Proc.devRef .tc main_arg29) = m ((c : Thread nD τ).loc main_arg29) :=
  (keep0 (W0 m ρ c) main_arg29 (by decide)).trans rfl
theorem W1_arg30 (c : Dev nD) : W1 m ρ c (Proc.devRef .tc main_arg30) = m ((c : Thread nD τ).loc main_arg30) :=
  (keep0 (W0 m ρ c) main_arg30 (by decide)).trans rfl
theorem W1_arg31 (c : Dev nD) : W1 m ρ c (Proc.devRef .tc main_arg31) = m ((c : Thread nD τ).loc main_arg31) :=
  (keep0 (W0 m ρ c) main_arg31 (by decide)).trans rfl
theorem W1_arg32 (c : Dev nD) : W1 m ρ c (Proc.devRef .tc main_arg32) = m ((c : Thread nD τ).loc main_arg32) :=
  (keep0 (W0 m ρ c) main_arg32 (by decide)).trans rfl
theorem W1_arg33 (c : Dev nD) : W1 m ρ c (Proc.devRef .tc main_arg33) = m ((c : Thread nD τ).loc main_arg33) :=
  (keep0 (W0 m ρ c) main_arg33 (by decide)).trans rfl
theorem W1_arg34 (c : Dev nD) : W1 m ρ c (Proc.devRef .tc main_arg34) = m ((c : Thread nD τ).loc main_arg34) :=
  (keep0 (W0 m ρ c) main_arg34 (by decide)).trans rfl
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W2_arg19 (c : Dev nD) : W2 m ρ c (Proc.devRef .tc main_arg19) = m ((c : Thread nD τ).loc main_arg19) :=
  (W2_of_ne m ρ c main_arg19 (by decide)).trans (W1_arg19 m ρ c)
theorem W2_arg20 (c : Dev nD) : W2 m ρ c (Proc.devRef .tc main_arg20) = m ((c : Thread nD τ).loc main_arg20) :=
  (W2_of_ne m ρ c main_arg20 (by decide)).trans (W1_arg20 m ρ c)
theorem W2_arg21 (c : Dev nD) : W2 m ρ c (Proc.devRef .tc main_arg21) = m ((c : Thread nD τ).loc main_arg21) :=
  (W2_of_ne m ρ c main_arg21 (by decide)).trans (W1_arg21 m ρ c)
theorem W2_arg22 (c : Dev nD) : W2 m ρ c (Proc.devRef .tc main_arg22) = m ((c : Thread nD τ).loc main_arg22) :=
  (W2_of_ne m ρ c main_arg22 (by decide)).trans (W1_arg22 m ρ c)
theorem W2_arg23 (c : Dev nD) : W2 m ρ c (Proc.devRef .tc main_arg23) = m ((c : Thread nD τ).loc main_arg23) :=
  (W2_of_ne m ρ c main_arg23 (by decide)).trans (W1_arg23 m ρ c)
theorem W2_arg24 (c : Dev nD) : W2 m ρ c (Proc.devRef .tc main_arg24) = m ((c : Thread nD τ).loc main_arg24) :=
  (W2_of_ne m ρ c main_arg24 (by decide)).trans (W1_arg24 m ρ c)
theorem W2_arg25 (c : Dev nD) : W2 m ρ c (Proc.devRef .tc main_arg25) = m ((c : Thread nD τ).loc main_arg25) :=
  (W2_of_ne m ρ c main_arg25 (by decide)).trans (W1_arg25 m ρ c)
theorem W2_arg26 (c : Dev nD) : W2 m ρ c (Proc.devRef .tc main_arg26) = m ((c : Thread nD τ).loc main_arg26) :=
  (W2_of_ne m ρ c main_arg26 (by decide)).trans (W1_arg26 m ρ c)
theorem W2_arg27 (c : Dev nD) : W2 m ρ c (Proc.devRef .tc main_arg27) = m ((c : Thread nD τ).loc main_arg27) :=
  (W2_of_ne m ρ c main_arg27 (by decide)).trans (W1_arg27 m ρ c)
theorem W2_arg28 (c : Dev nD) : W2 m ρ c (Proc.devRef .tc main_arg28) = m ((c : Thread nD τ).loc main_arg28) :=
  (W2_of_ne m ρ c main_arg28 (by decide)).trans (W1_arg28 m ρ c)
theorem W2_arg29 (c : Dev nD) : W2 m ρ c (Proc.devRef .tc main_arg29) = m ((c : Thread nD τ).loc main_arg29) :=
  (W2_of_ne m ρ c main_arg29 (by decide)).trans (W1_arg29 m ρ c)
theorem W2_arg30 (c : Dev nD) : W2 m ρ c (Proc.devRef .tc main_arg30) = m ((c : Thread nD τ).loc main_arg30) :=
  (W2_of_ne m ρ c main_arg30 (by decide)).trans (W1_arg30 m ρ c)
theorem W2_arg31 (c : Dev nD) : W2 m ρ c (Proc.devRef .tc main_arg31) = m ((c : Thread nD τ).loc main_arg31) :=
  (W2_of_ne m ρ c main_arg31 (by decide)).trans (W1_arg31 m ρ c)
theorem W2_arg32 (c : Dev nD) : W2 m ρ c (Proc.devRef .tc main_arg32) = m ((c : Thread nD τ).loc main_arg32) :=
  (W2_of_ne m ρ c main_arg32 (by decide)).trans (W1_arg32 m ρ c)
theorem W2_arg33 (c : Dev nD) : W2 m ρ c (Proc.devRef .tc main_arg33) = m ((c : Thread nD τ).loc main_arg33) :=
  (W2_of_ne m ρ c main_arg33 (by decide)).trans (W1_arg33 m ρ c)
theorem W2_arg34 (c : Dev nD) : W2 m ρ c (Proc.devRef .tc main_arg34) = m ((c : Thread nD τ).loc main_arg34) :=
  (W2_of_ne m ρ c main_arg34 (by decide)).trans (W1_arg34 m ρ c)
theorem W3_arg1 (c : Dev nD) : W3 m ρ c (Proc.devRef .tc main_arg1) = m ((c : Thread nD τ).loc main_arg1) :=
  (keep1 (W2 m ρ c) main_arg1 (by decide)).trans (W2_arg1 m ρ c)
theorem W3_arg2 (c : Dev nD) : W3 m ρ c (Proc.devRef .tc main_arg2) = m ((c : Thread nD τ).loc main_arg2) :=
  (keep1 (W2 m ρ c) main_arg2 (by decide)).trans (W2_arg2 m ρ c)
theorem W3_arg11 (c : Dev nD) : W3 m ρ c (Proc.devRef .tc main_arg11) = m ((c : Thread nD τ).loc main_arg11) :=
  (keep1 (W2 m ρ c) main_arg11 (by decide)).trans (W2_arg11 m ρ c)
theorem W3_arg12 (c : Dev nD) : W3 m ρ c (Proc.devRef .tc main_arg12) = m ((c : Thread nD τ).loc main_arg12) :=
  (keep1 (W2 m ρ c) main_arg12 (by decide)).trans (W2_arg12 m ρ c)
theorem W3_arg13 (c : Dev nD) : W3 m ρ c (Proc.devRef .tc main_arg13) = m ((c : Thread nD τ).loc main_arg13) :=
  (keep1 (W2 m ρ c) main_arg13 (by decide)).trans (W2_arg13 m ρ c)
theorem W3_arg14 (c : Dev nD) : W3 m ρ c (Proc.devRef .tc main_arg14) = m ((c : Thread nD τ).loc main_arg14) :=
  (keep1 (W2 m ρ c) main_arg14 (by decide)).trans (W2_arg14 m ρ c)
theorem W3_arg15 (c : Dev nD) : W3 m ρ c (Proc.devRef .tc main_arg15) = m ((c : Thread nD τ).loc main_arg15) :=
  (keep1 (W2 m ρ c) main_arg15 (by decide)).trans (W2_arg15 m ρ c)
theorem W3_arg16 (c : Dev nD) : W3 m ρ c (Proc.devRef .tc main_arg16) = m ((c : Thread nD τ).loc main_arg16) :=
  (keep1 (W2 m ρ c) main_arg16 (by decide)).trans (W2_arg16 m ρ c)
theorem W3_arg17 (c : Dev nD) : W3 m ρ c (Proc.devRef .tc main_arg17) = m ((c : Thread nD τ).loc main_arg17) :=
  (keep1 (W2 m ρ c) main_arg17 (by decide)).trans (W2_arg17 m ρ c)
theorem W3_arg18 (c : Dev nD) : W3 m ρ c (Proc.devRef .tc main_arg18) = m ((c : Thread nD τ).loc main_arg18) :=
  (keep1 (W2 m ρ c) main_arg18 (by decide)).trans (W2_arg18 m ρ c)
theorem W3_arg19 (c : Dev nD) : W3 m ρ c (Proc.devRef .tc main_arg19) = m ((c : Thread nD τ).loc main_arg19) :=
  (keep1 (W2 m ρ c) main_arg19 (by decide)).trans (W2_arg19 m ρ c)
theorem W3_arg20 (c : Dev nD) : W3 m ρ c (Proc.devRef .tc main_arg20) = m ((c : Thread nD τ).loc main_arg20) :=
  (keep1 (W2 m ρ c) main_arg20 (by decide)).trans (W2_arg20 m ρ c)
theorem W3_arg21 (c : Dev nD) : W3 m ρ c (Proc.devRef .tc main_arg21) = m ((c : Thread nD τ).loc main_arg21) :=
  (keep1 (W2 m ρ c) main_arg21 (by decide)).trans (W2_arg21 m ρ c)
theorem W3_arg22 (c : Dev nD) : W3 m ρ c (Proc.devRef .tc main_arg22) = m ((c : Thread nD τ).loc main_arg22) :=
  (keep1 (W2 m ρ c) main_arg22 (by decide)).trans (W2_arg22 m ρ c)
theorem W3_arg23 (c : Dev nD) : W3 m ρ c (Proc.devRef .tc main_arg23) = m ((c : Thread nD τ).loc main_arg23) :=
  (keep1 (W2 m ρ c) main_arg23 (by decide)).trans (W2_arg23 m ρ c)
theorem W3_arg24 (c : Dev nD) : W3 m ρ c (Proc.devRef .tc main_arg24) = m ((c : Thread nD τ).loc main_arg24) :=
  (keep1 (W2 m ρ c) main_arg24 (by decide)).trans (W2_arg24 m ρ c)
theorem W3_arg25 (c : Dev nD) : W3 m ρ c (Proc.devRef .tc main_arg25) = m ((c : Thread nD τ).loc main_arg25) :=
  (keep1 (W2 m ρ c) main_arg25 (by decide)).trans (W2_arg25 m ρ c)
theorem W3_arg26 (c : Dev nD) : W3 m ρ c (Proc.devRef .tc main_arg26) = m ((c : Thread nD τ).loc main_arg26) :=
  (keep1 (W2 m ρ c) main_arg26 (by decide)).trans (W2_arg26 m ρ c)
theorem W3_arg27 (c : Dev nD) : W3 m ρ c (Proc.devRef .tc main_arg27) = m ((c : Thread nD τ).loc main_arg27) :=
  (keep1 (W2 m ρ c) main_arg27 (by decide)).trans (W2_arg27 m ρ c)
theorem W3_arg28 (c : Dev nD) : W3 m ρ c (Proc.devRef .tc main_arg28) = m ((c : Thread nD τ).loc main_arg28) :=
  (keep1 (W2 m ρ c) main_arg28 (by decide)).trans (W2_arg28 m ρ c)
theorem W3_arg29 (c : Dev nD) : W3 m ρ c (Proc.devRef .tc main_arg29) = m ((c : Thread nD τ).loc main_arg29) :=
  (keep1 (W2 m ρ c) main_arg29 (by decide)).trans (W2_arg29 m ρ c)
theorem W3_arg30 (c : Dev nD) : W3 m ρ c (Proc.devRef .tc main_arg30) = m ((c : Thread nD τ).loc main_arg30) :=
  (keep1 (W2 m ρ c) main_arg30 (by decide)).trans (W2_arg30 m ρ c)
theorem W3_arg31 (c : Dev nD) : W3 m ρ c (Proc.devRef .tc main_arg31) = m ((c : Thread nD τ).loc main_arg31) :=
  (keep1 (W2 m ρ c) main_arg31 (by decide)).trans (W2_arg31 m ρ c)
theorem W3_arg32 (c : Dev nD) : W3 m ρ c (Proc.devRef .tc main_arg32) = m ((c : Thread nD τ).loc main_arg32) :=
  (keep1 (W2 m ρ c) main_arg32 (by decide)).trans (W2_arg32 m ρ c)
theorem W3_arg33 (c : Dev nD) : W3 m ρ c (Proc.devRef .tc main_arg33) = m ((c : Thread nD τ).loc main_arg33) :=
  (keep1 (W2 m ρ c) main_arg33 (by decide)).trans (W2_arg33 m ρ c)
theorem W3_arg34 (c : Dev nD) : W3 m ρ c (Proc.devRef .tc main_arg34) = m ((c : Thread nD τ).loc main_arg34) :=
  (keep1 (W2 m ρ c) main_arg34 (by decide)).trans (W2_arg34 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg19 (c : Dev nD) : W4 m ρ c (Proc.devRef .tc main_arg19) = m ((c : Thread nD τ).loc main_arg19) :=
  (W4_of_ne m ρ c main_arg19 (by decide)).trans (W3_arg19 m ρ c)
theorem W4_arg20 (c : Dev nD) : W4 m ρ c (Proc.devRef .tc main_arg20) = m ((c : Thread nD τ).loc main_arg20) :=
  (W4_of_ne m ρ c main_arg20 (by decide)).trans (W3_arg20 m ρ c)
theorem W4_arg21 (c : Dev nD) : W4 m ρ c (Proc.devRef .tc main_arg21) = m ((c : Thread nD τ).loc main_arg21) :=
  (W4_of_ne m ρ c main_arg21 (by decide)).trans (W3_arg21 m ρ c)
theorem W4_arg22 (c : Dev nD) : W4 m ρ c (Proc.devRef .tc main_arg22) = m ((c : Thread nD τ).loc main_arg22) :=
  (W4_of_ne m ρ c main_arg22 (by decide)).trans (W3_arg22 m ρ c)
theorem W4_arg23 (c : Dev nD) : W4 m ρ c (Proc.devRef .tc main_arg23) = m ((c : Thread nD τ).loc main_arg23) :=
  (W4_of_ne m ρ c main_arg23 (by decide)).trans (W3_arg23 m ρ c)
theorem W4_arg24 (c : Dev nD) : W4 m ρ c (Proc.devRef .tc main_arg24) = m ((c : Thread nD τ).loc main_arg24) :=
  (W4_of_ne m ρ c main_arg24 (by decide)).trans (W3_arg24 m ρ c)
theorem W4_arg25 (c : Dev nD) : W4 m ρ c (Proc.devRef .tc main_arg25) = m ((c : Thread nD τ).loc main_arg25) :=
  (W4_of_ne m ρ c main_arg25 (by decide)).trans (W3_arg25 m ρ c)
theorem W4_arg26 (c : Dev nD) : W4 m ρ c (Proc.devRef .tc main_arg26) = m ((c : Thread nD τ).loc main_arg26) :=
  (W4_of_ne m ρ c main_arg26 (by decide)).trans (W3_arg26 m ρ c)
theorem W4_arg27 (c : Dev nD) : W4 m ρ c (Proc.devRef .tc main_arg27) = m ((c : Thread nD τ).loc main_arg27) :=
  (W4_of_ne m ρ c main_arg27 (by decide)).trans (W3_arg27 m ρ c)
theorem W4_arg28 (c : Dev nD) : W4 m ρ c (Proc.devRef .tc main_arg28) = m ((c : Thread nD τ).loc main_arg28) :=
  (W4_of_ne m ρ c main_arg28 (by decide)).trans (W3_arg28 m ρ c)
theorem W4_arg29 (c : Dev nD) : W4 m ρ c (Proc.devRef .tc main_arg29) = m ((c : Thread nD τ).loc main_arg29) :=
  (W4_of_ne m ρ c main_arg29 (by decide)).trans (W3_arg29 m ρ c)
theorem W4_arg30 (c : Dev nD) : W4 m ρ c (Proc.devRef .tc main_arg30) = m ((c : Thread nD τ).loc main_arg30) :=
  (W4_of_ne m ρ c main_arg30 (by decide)).trans (W3_arg30 m ρ c)
theorem W4_arg31 (c : Dev nD) : W4 m ρ c (Proc.devRef .tc main_arg31) = m ((c : Thread nD τ).loc main_arg31) :=
  (W4_of_ne m ρ c main_arg31 (by decide)).trans (W3_arg31 m ρ c)
theorem W4_arg32 (c : Dev nD) : W4 m ρ c (Proc.devRef .tc main_arg32) = m ((c : Thread nD τ).loc main_arg32) :=
  (W4_of_ne m ρ c main_arg32 (by decide)).trans (W3_arg32 m ρ c)
theorem W4_arg33 (c : Dev nD) : W4 m ρ c (Proc.devRef .tc main_arg33) = m ((c : Thread nD τ).loc main_arg33) :=
  (W4_of_ne m ρ c main_arg33 (by decide)).trans (W3_arg33 m ρ c)
theorem W4_arg34 (c : Dev nD) : W4 m ρ c (Proc.devRef .tc main_arg34) = m ((c : Thread nD τ).loc main_arg34) :=
  (W4_of_ne m ρ c main_arg34 (by decide)).trans (W3_arg34 m ρ c)
theorem W5_arg2 (c : Dev nD) : W5 m ρ c (Proc.devRef .tc main_arg2) = m ((c : Thread nD τ).loc main_arg2) :=
  (keep2 (W4 m ρ c) main_arg2 (by decide)).trans (W4_arg2 m ρ c)
theorem W5_arg19 (c : Dev nD) : W5 m ρ c (Proc.devRef .tc main_arg19) = m ((c : Thread nD τ).loc main_arg19) :=
  (keep2 (W4 m ρ c) main_arg19 (by decide)).trans (W4_arg19 m ρ c)
theorem W5_arg20 (c : Dev nD) : W5 m ρ c (Proc.devRef .tc main_arg20) = m ((c : Thread nD τ).loc main_arg20) :=
  (keep2 (W4 m ρ c) main_arg20 (by decide)).trans (W4_arg20 m ρ c)
theorem W5_arg21 (c : Dev nD) : W5 m ρ c (Proc.devRef .tc main_arg21) = m ((c : Thread nD τ).loc main_arg21) :=
  (keep2 (W4 m ρ c) main_arg21 (by decide)).trans (W4_arg21 m ρ c)
theorem W5_arg22 (c : Dev nD) : W5 m ρ c (Proc.devRef .tc main_arg22) = m ((c : Thread nD τ).loc main_arg22) :=
  (keep2 (W4 m ρ c) main_arg22 (by decide)).trans (W4_arg22 m ρ c)
theorem W5_arg23 (c : Dev nD) : W5 m ρ c (Proc.devRef .tc main_arg23) = m ((c : Thread nD τ).loc main_arg23) :=
  (keep2 (W4 m ρ c) main_arg23 (by decide)).trans (W4_arg23 m ρ c)
theorem W5_arg24 (c : Dev nD) : W5 m ρ c (Proc.devRef .tc main_arg24) = m ((c : Thread nD τ).loc main_arg24) :=
  (keep2 (W4 m ρ c) main_arg24 (by decide)).trans (W4_arg24 m ρ c)
theorem W5_arg25 (c : Dev nD) : W5 m ρ c (Proc.devRef .tc main_arg25) = m ((c : Thread nD τ).loc main_arg25) :=
  (keep2 (W4 m ρ c) main_arg25 (by decide)).trans (W4_arg25 m ρ c)
theorem W5_arg26 (c : Dev nD) : W5 m ρ c (Proc.devRef .tc main_arg26) = m ((c : Thread nD τ).loc main_arg26) :=
  (keep2 (W4 m ρ c) main_arg26 (by decide)).trans (W4_arg26 m ρ c)
theorem W5_arg27 (c : Dev nD) : W5 m ρ c (Proc.devRef .tc main_arg27) = m ((c : Thread nD τ).loc main_arg27) :=
  (keep2 (W4 m ρ c) main_arg27 (by decide)).trans (W4_arg27 m ρ c)
theorem W5_arg28 (c : Dev nD) : W5 m ρ c (Proc.devRef .tc main_arg28) = m ((c : Thread nD τ).loc main_arg28) :=
  (keep2 (W4 m ρ c) main_arg28 (by decide)).trans (W4_arg28 m ρ c)
theorem W5_arg29 (c : Dev nD) : W5 m ρ c (Proc.devRef .tc main_arg29) = m ((c : Thread nD τ).loc main_arg29) :=
  (keep2 (W4 m ρ c) main_arg29 (by decide)).trans (W4_arg29 m ρ c)
theorem W5_arg30 (c : Dev nD) : W5 m ρ c (Proc.devRef .tc main_arg30) = m ((c : Thread nD τ).loc main_arg30) :=
  (keep2 (W4 m ρ c) main_arg30 (by decide)).trans (W4_arg30 m ρ c)
theorem W5_arg31 (c : Dev nD) : W5 m ρ c (Proc.devRef .tc main_arg31) = m ((c : Thread nD τ).loc main_arg31) :=
  (keep2 (W4 m ρ c) main_arg31 (by decide)).trans (W4_arg31 m ρ c)
theorem W5_arg32 (c : Dev nD) : W5 m ρ c (Proc.devRef .tc main_arg32) = m ((c : Thread nD τ).loc main_arg32) :=
  (keep2 (W4 m ρ c) main_arg32 (by decide)).trans (W4_arg32 m ρ c)
theorem W5_arg33 (c : Dev nD) : W5 m ρ c (Proc.devRef .tc main_arg33) = m ((c : Thread nD τ).loc main_arg33) :=
  (keep2 (W4 m ρ c) main_arg33 (by decide)).trans (W4_arg33 m ρ c)
theorem W5_arg34 (c : Dev nD) : W5 m ρ c (Proc.devRef .tc main_arg34) = m ((c : Thread nD τ).loc main_arg34) :=
  (keep2 (W4 m ρ c) main_arg34 (by decide)).trans (W4_arg34 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg27 (c : Dev nD) : W6 m ρ c (Proc.devRef .tc main_arg27) = m ((c : Thread nD τ).loc main_arg27) :=
  (W6_of_ne m ρ c main_arg27 (by decide)).trans (W5_arg27 m ρ c)
theorem W6_arg28 (c : Dev nD) : W6 m ρ c (Proc.devRef .tc main_arg28) = m ((c : Thread nD τ).loc main_arg28) :=
  (W6_of_ne m ρ c main_arg28 (by decide)).trans (W5_arg28 m ρ c)
theorem W6_arg29 (c : Dev nD) : W6 m ρ c (Proc.devRef .tc main_arg29) = m ((c : Thread nD τ).loc main_arg29) :=
  (W6_of_ne m ρ c main_arg29 (by decide)).trans (W5_arg29 m ρ c)
theorem W6_arg30 (c : Dev nD) : W6 m ρ c (Proc.devRef .tc main_arg30) = m ((c : Thread nD τ).loc main_arg30) :=
  (W6_of_ne m ρ c main_arg30 (by decide)).trans (W5_arg30 m ρ c)
theorem W6_arg31 (c : Dev nD) : W6 m ρ c (Proc.devRef .tc main_arg31) = m ((c : Thread nD τ).loc main_arg31) :=
  (W6_of_ne m ρ c main_arg31 (by decide)).trans (W5_arg31 m ρ c)
theorem W6_arg32 (c : Dev nD) : W6 m ρ c (Proc.devRef .tc main_arg32) = m ((c : Thread nD τ).loc main_arg32) :=
  (W6_of_ne m ρ c main_arg32 (by decide)).trans (W5_arg32 m ρ c)
theorem W6_arg33 (c : Dev nD) : W6 m ρ c (Proc.devRef .tc main_arg33) = m ((c : Thread nD τ).loc main_arg33) :=
  (W6_of_ne m ρ c main_arg33 (by decide)).trans (W5_arg33 m ρ c)
theorem W6_arg34 (c : Dev nD) : W6 m ρ c (Proc.devRef .tc main_arg34) = m ((c : Thread nD τ).loc main_arg34) :=
  (W6_of_ne m ρ c main_arg34 (by decide)).trans (W5_arg34 m ρ c)
theorem W7_arg27 (c : Dev nD) : W7 m ρ c (Proc.devRef .tc main_arg27) = m ((c : Thread nD τ).loc main_arg27) :=
  (keep3 (W6 m ρ c) main_arg27 (by decide)).trans (W6_arg27 m ρ c)
theorem W7_arg28 (c : Dev nD) : W7 m ρ c (Proc.devRef .tc main_arg28) = m ((c : Thread nD τ).loc main_arg28) :=
  (keep3 (W6 m ρ c) main_arg28 (by decide)).trans (W6_arg28 m ρ c)
theorem W7_arg29 (c : Dev nD) : W7 m ρ c (Proc.devRef .tc main_arg29) = m ((c : Thread nD τ).loc main_arg29) :=
  (keep3 (W6 m ρ c) main_arg29 (by decide)).trans (W6_arg29 m ρ c)
theorem W7_arg30 (c : Dev nD) : W7 m ρ c (Proc.devRef .tc main_arg30) = m ((c : Thread nD τ).loc main_arg30) :=
  (keep3 (W6 m ρ c) main_arg30 (by decide)).trans (W6_arg30 m ρ c)
theorem W7_arg31 (c : Dev nD) : W7 m ρ c (Proc.devRef .tc main_arg31) = m ((c : Thread nD τ).loc main_arg31) :=
  (keep3 (W6 m ρ c) main_arg31 (by decide)).trans (W6_arg31 m ρ c)
theorem W7_arg32 (c : Dev nD) : W7 m ρ c (Proc.devRef .tc main_arg32) = m ((c : Thread nD τ).loc main_arg32) :=
  (keep3 (W6 m ρ c) main_arg32 (by decide)).trans (W6_arg32 m ρ c)
theorem W7_arg33 (c : Dev nD) : W7 m ρ c (Proc.devRef .tc main_arg33) = m ((c : Thread nD τ).loc main_arg33) :=
  (keep3 (W6 m ρ c) main_arg33 (by decide)).trans (W6_arg33 m ρ c)
theorem W7_arg34 (c : Dev nD) : W7 m ρ c (Proc.devRef .tc main_arg34) = m ((c : Thread nD τ).loc main_arg34) :=
  (keep3 (W6 m ρ c) main_arg34 (by decide)).trans (W6_arg34 m ρ c)

end Kept

/-! ## A stretch of host operations, read at an arbitrary valuation of the buffers it starts from -/

/-- Stretch 1 leaves in its aggregate buffer the aggregation of the features it found along the two id vectors that
    stretch 0 cut out of the edge list (it does not cut them again). -/
theorem stretch1 (W : Valuation τ sig (Elt Ideal)) :
    StableHlo.after hostOps1 W (Proc.devRef .tc main_v24)
      = Cert.ReferenceIdeal.Stages.agg64 (W (Proc.devRef .tc main_v14)) (W (Proc.devRef .tc main_v1)) (W (Proc.devRef .tc main_v3)) := by
  dsimp only [hostOps1]
  after_results_simp
  rfl

/-- So does stretch 2. -/
theorem stretch2 (W : Valuation τ sig (Elt Ideal)) :
    StableHlo.after hostOps2 W (Proc.devRef .tc main_v35)
      = Cert.ReferenceIdeal.Stages.agg64 (W (Proc.devRef .tc main_v25)) (W (Proc.devRef .tc main_v1)) (W (Proc.devRef .tc main_v3)) := by
  dsimp only [hostOps2]
  after_results_simp
  rfl

/-- Stretch 3 leaves in the pooled buffer the mean pool of the features and the graph ids it found. -/
theorem stretch3 (W : Valuation τ sig (Elt Ideal)) :
    StableHlo.after hostOps3 W (Proc.devRef .tc main_v48)
      = Cert.ReferenceIdeal.Stages.pool (W (Proc.devRef .tc main_v36)) (W (Proc.devRef .tc main_arg2)) := by
  dsimp only [hostOps3]
  after_results_simp
  rfl

/-! ## The values, at the extended reals -/

variable (m : (ℓ : Loc nD τ sig) → Buf (Elt Ideal) ℓ) (ρ : Dev nD → PrngReg)

/-- The vector of src ids, cut out of the edge list by stretch 0, at the boundaries where it is read. -/
theorem src1 (c : Dev nD) : W1 m ρ c (Proc.devRef .tc main_v1) = Cert.ReferenceIdeal.ReadP.val_main_v1 (F := Ideal) (m ((c : Thread nD τ).loc main_arg1)) := by
  show StableHlo.after hostOps0 (W0 m ρ c) (Proc.devRef .tc main_v1) = _
  dsimp only [hostOps0]
  after_results_simp
  rfl
theorem src2 (c : Dev nD) : W2 m ρ c (Proc.devRef .tc main_v1) = Cert.ReferenceIdeal.ReadP.val_main_v1 (F := Ideal) (m ((c : Thread nD τ).loc main_arg1)) :=
  (W2_of_ne m ρ c main_v1 (by decide)).trans (src1 m ρ c)
theorem src3 (c : Dev nD) : W3 m ρ c (Proc.devRef .tc main_v1) = Cert.ReferenceIdeal.ReadP.val_main_v1 (F := Ideal) (m ((c : Thread nD τ).loc main_arg1)) :=
  (keep1 (W2 m ρ c) main_v1 (by decide)).trans (src2 m ρ c)
theorem src4 (c : Dev nD) : W4 m ρ c (Proc.devRef .tc main_v1) = Cert.ReferenceIdeal.ReadP.val_main_v1 (F := Ideal) (m ((c : Thread nD τ).loc main_arg1)) :=
  (W4_of_ne m ρ c main_v1 (by decide)).trans (src3 m ρ c)

/-- The vector of dst ids, cut out of the edge list by stretch 0, at the boundaries where it is read. -/
theorem dst1 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  dsimp only [hostOps0]
  after_results_simp
  rfl
theorem dst2 (c : Dev nD) : W2 m ρ c (Proc.devRef .tc main_v3) = Cert.ReferenceIdeal.ReadP.val_main_v3 (F := Ideal) (m ((c : Thread nD τ).loc main_arg1)) :=
  (W2_of_ne m ρ c main_v3 (by decide)).trans (dst1 m ρ c)
theorem dst3 (c : Dev nD) : W3 m ρ c (Proc.devRef .tc main_v3) = Cert.ReferenceIdeal.ReadP.val_main_v3 (F := Ideal) (m ((c : Thread nD τ).loc main_arg1)) :=
  (keep1 (W2 m ρ c) main_v3 (by decide)).trans (dst2 m ρ c)
theorem dst4 (c : Dev nD) : W4 m ρ c (Proc.devRef .tc main_v3) = Cert.ReferenceIdeal.ReadP.val_main_v3 (F := Ideal) (m ((c : Thread nD τ).loc main_arg1)) :=
  (W4_of_ne m ρ c main_v3 (by decide)).trans (dst3 m ρ c)

/-- The aggregation of layer 1's input over the edges, as stretch 0 leaves it: the reference's own stage function. -/
theorem agg0 (c : Dev nD) : W1 m ρ c (Proc.devRef .tc main_v13) = Cert.ReferenceIdeal.ReadP.val_main_v13 (F := Ideal) (m ((c : Thread nD τ).loc main_arg0)) (m ((c : Thread nD τ).loc main_arg1)) := by
  show StableHlo.after hostOps0 (W0 m ρ c) (Proc.devRef .tc main_v13) = _
  dsimp only [hostOps0]
  after_results
  rfl

/-- After region 0: layer 1's output is the reference's stage function of the launch arguments. -/
theorem out0 (c : Dev nD) : W2 m ρ c (Proc.devRef .tc main_v14) = Cert.ReferenceIdeal.ReadP.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.ReferenceIdeal.Stages.layer0_eq]
  refine (W2_arr m ρ c 10).trans ?_
  refine (Cert.KernelIdeal.Blocks.final0 (V1 m ρ) c).trans ?_
  show Cert.Gated.layer (N := 100000) (K := 3) (B := 64) (W1 m ρ c (Proc.devRef .tc main_arg0)) (W1 m ρ c (Proc.devRef .tc main_v13)) (W1 m ρ c (Proc.devRef .tc main_arg3)) (W1 m ρ c (Proc.devRef .tc main_arg5)) (W1 m ρ c (Proc.devRef .tc main_arg7)) (W1 m ρ c (Proc.devRef .tc main_arg9))
      (W1 m ρ c (Proc.devRef .tc main_arg4)) (W1 m ρ c (Proc.devRef .tc main_arg6)) (W1 m ρ c (Proc.devRef .tc main_arg8)) (W1 m ρ c (Proc.devRef .tc main_arg10)) = _
  rw [W1_arg0 m ρ c, agg0 m ρ c, W1_arg3 m ρ c, W1_arg4 m ρ c, W1_arg5 m ρ c, W1_arg6 m ρ c, W1_arg7 m ρ c, W1_arg8 m ρ c, W1_arg9 m ρ c, W1_arg10 m ρ c]

/-- Stretch 1 does not write the previous layer's output. -/
theorem feat1 (c : Dev nD) : W3 m ρ c (Proc.devRef .tc main_v14) = Cert.ReferenceIdeal.ReadP.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (keep1 (W2 m ρ c) main_v14 (by decide)).trans (out0 m ρ c)

/-- The aggregation of layer 2's input over the edges, as stretch 1 leaves it: the reference's own stage function. -/
theorem agg1 (c : Dev nD) : W3 m ρ c (Proc.devRef .tc main_v24) = Cert.ReferenceIdeal.ReadP.val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.ReferenceIdeal.Stages.v43_eq]
  refine (stretch1 (W2 m ρ c)).trans ?_
  rw [out0 m ρ c, src2 m ρ c, dst2 m ρ c]

/-- After region 1: layer 2's output is the reference's stage function of the launch arguments. -/
theorem out1 (c : Dev nD) : W4 m ρ c (Proc.devRef .tc main_v25) = Cert.ReferenceIdeal.ReadP.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [Cert.ReferenceIdeal.Stages.layer1_eq]
  refine (W4_arr m ρ c 10).trans ?_
  refine (Cert.KernelIdeal.Blocks.final1 (V3 m ρ) c).trans ?_
  show Cert.Gated.layer (N := 100000) (K := 64) (B := 64) (W3 m ρ c (Proc.devRef .tc main_v14)) (W3 m ρ c (Proc.devRef .tc main_v24)) (W3 m ρ c (Proc.devRef .tc main_arg11)) (W3 m ρ c (Proc.devRef .tc main_arg13)) (W3 m ρ c (Proc.devRef .tc main_arg15)) (W3 m ρ c (Proc.devRef .tc main_arg17))
      (W3 m ρ c (Proc.devRef .tc main_arg12)) (W3 m ρ c (Proc.devRef .tc main_arg14)) (W3 m ρ c (Proc.devRef .tc main_arg16)) (W3 m ρ c (Proc.devRef .tc main_arg18)) = _
  rw [feat1 m ρ c, agg1 m ρ c, W3_arg11 m ρ c, W3_arg12 m ρ c, W3_arg13 m ρ c, W3_arg14 m ρ c, W3_arg15 m ρ c, W3_arg16 m ρ c, W3_arg17 m ρ c, W3_arg18 m ρ c]

/-- Stretch 2 does not write the previous layer's output. -/
theorem feat2 (c : Dev nD) : W5 m ρ c (Proc.devRef .tc main_v25) = Cert.ReferenceIdeal.ReadP.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (keep2 (W4 m ρ c) main_v25 (by decide)).trans (out1 m ρ c)

/-- The aggregation of layer 3's input over the edges, as stretch 2 leaves it: the reference's own stage function. -/
theorem agg2 (c : Dev nD) : W5 m ρ c (Proc.devRef .tc main_v35) = Cert.ReferenceIdeal.ReadP.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [Cert.ReferenceIdeal.Stages.v73_eq]
  refine (stretch2 (W4 m ρ c)).trans ?_
  rw [out1 m ρ c, src4 m ρ c, dst4 m ρ c]

/-- After region 2: layer 3's output is the reference's stage function of the launch arguments. -/
theorem out2 (c : Dev nD) : W6 m ρ c (Proc.devRef .tc main_v36) = Cert.ReferenceIdeal.ReadP.val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  rw [Cert.ReferenceIdeal.Stages.layer2_eq]
  refine (W6_arr m ρ c 10).trans ?_
  refine (Cert.KernelIdeal.Blocks.final2 (V5 m ρ) c).trans ?_
  show Cert.Gated.layer (N := 100000) (K := 64) (B := 64) (W5 m ρ c (Proc.devRef .tc main_v25)) (W5 m ρ c (Proc.devRef .tc main_v35)) (W5 m ρ c (Proc.devRef .tc main_arg19)) (W5 m ρ c (Proc.devRef .tc main_arg21)) (W5 m ρ c (Proc.devRef .tc main_arg23)) (W5 m ρ c (Proc.devRef .tc main_arg25))
      (W5 m ρ c (Proc.devRef .tc main_arg20)) (W5 m ρ c (Proc.devRef .tc main_arg22)) (W5 m ρ c (Proc.devRef .tc main_arg24)) (W5 m ρ c (Proc.devRef .tc main_arg26)) = _
  rw [feat2 m ρ c, agg2 m ρ c, W5_arg19 m ρ c, W5_arg20 m ρ c, W5_arg21 m ρ c, W5_arg22 m ρ c, W5_arg23 m ρ c, W5_arg24 m ρ c, W5_arg25 m ρ c, W5_arg26 m ρ c]

/-- Stretch 3 does not write the third layer's output. -/
theorem feat3 (c : Dev nD) : W7 m ρ c (Proc.devRef .tc main_v36) = Cert.ReferenceIdeal.ReadP.val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) :=
  (keep3 (W6 m ρ c) main_v36 (by decide)).trans (out2 m ρ c)

/-- The pooled features as stretch 3 leaves them: the reference's own pooling stage. -/
theorem pooled (c : Dev nD) : W7 m ρ c (Proc.devRef .tc main_v48) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  rw [Cert.ReferenceIdeal.Stages.v105_eq]
  refine (stretch3 (W6 m ρ c)).trans ?_
  rw [out2 m ρ c, W6_arg2 m ρ c]

/-- THE VALUE: the result buffer ends at the reference's result, as a function of the launch arguments. -/
theorem value (c : Dev nD) : W8 m ρ c (Proc.devRef .tc main_v49) = Cert.ReferenceIdeal.ReadP.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) := by
  rw [Cert.ReferenceIdeal.Stages.head_eq]
  refine (W8_arr m ρ c 9).trans ?_
  refine (Cert.KernelIdeal.Blocks.final3 (V7 m ρ) c).trans ?_
  show Cert.Head.out (A := 1334) (K₁ := 64) (K₂ := 32) (B := 10) (W7 m ρ c (Proc.devRef .tc main_v48)) (W7 m ρ c (Proc.devRef .tc main_arg29)) (W7 m ρ c (Proc.devRef .tc main_arg30)) (W7 m ρ c (Proc.devRef .tc main_arg27)) (W7 m ρ c (Proc.devRef .tc main_arg28))
      (W7 m ρ c (Proc.devRef .tc main_arg31)) (W7 m ρ c (Proc.devRef .tc main_arg32)) (W7 m ρ c (Proc.devRef .tc main_arg33)) (W7 m ρ c (Proc.devRef .tc main_arg34)) = _
  rw [pooled m ρ c, W7_arg29 m ρ c, W7_arg30 m ρ c, W7_arg27 m ρ c, W7_arg28 m ρ c, W7_arg31 m ρ c, W7_arg32 m ρ c, W7_arg33 m ρ c, W7_arg34 m ρ c]

end Cert.KernelIdeal.Chain

end
-- ==== Proof.lean ====
/-
  Three gated graph-convolution layers and a classifier head: the kernel program against the plain reference.

  Both programs compute, from node features x, an edge list, graph ids and the layers' parameters,

      h₁ = L (x,  A x),   h₂ = L (h₁, A h₁),   h₃ = L (h₂, A h₂),   result = H (P h₃)

  where A aggregates a feature array over the edges (a gather through the source ids and a scatter-add into the
  destination ids), L is the gated layer  max ((x·Wa + ba) + (a·Wc + bc) + (x·W₁ + b₁) * (x·W₂ + b₂), 0)  row by row, P is the
  mean pool over the graphs and H is the head: a normalisation by given statistics, a hidden dense layer with a maximum
  against zero, an output dense layer and a row-wise log-softmax. The kernel program computes L and H in four kernel
  regions over blocks of rows, with matrix products into zero accumulators and operands cast to a shorter float format;
  the reference computes everything with host operations. At the extended reals a cast is the identity and a matrix
  product is the sum over the contracted axis, each region's blocks tile its output, and A and P are the same host
  operations on both sides, so the two results are one function of the arguments, entry by entry, with every sum grouped
  as written. No law that needs finiteness is used: the precondition is never opened.

  The frames of the two kernel programs are the generated frame certificates; the reference's frame is its run with the
  result dropped; the idealization ledger is empty.
-/
import proofs.«136228_j64991445123425_1_alg».proof.Defs
import proofs.«136228_j64991445123425_1_alg».proof.Proof.Gen.Kernel
import proofs.«136228_j64991445123425_1_alg».proof.Proof.Gen.KernelIdeal
import proofs.«136228_j64991445123425_1_alg».proof.Proof.Gen.ReferenceIdeal
import proofs.«136228_j64991445123425_1_alg».proof.Proof.Gen.Pre_finite_inputs
import proofs.«136228_j64991445123425_1_alg».proof.Proof.PatchedFrameKernel
import proofs.«136228_j64991445123425_1_alg».proof.Proof.PatchedFrameKernelIdeal
import proofs.«136228_j64991445123425_1_alg».proof.Proof.PatchedReferenceRun
import proofs.«136228_j64991445123425_1_alg».proof.Proof.PatchedReferenceRead
import proofs.«136228_j64991445123425_1_alg».proof.Proof.KernelRun
import proofs.«136228_j64991445123425_1_alg».proof.Proof.KernelChain
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.GenP.frame m ρ

/-- So does the idealized kernel. -/
theorem frame_kernelIdeal [Cert.KernelIdeal.Facts] [Cert.Pre_finite_inputs.Facts] : Cert.frame_KernelIdeal :=
  fun m ρ _ => Cert.KernelIdeal.GenP.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

open Cert.ReferenceIdeal in
/-- The reference's result depends on its arguments only: equal arguments, equal results. -/
theorem result_congr (x0 : (⟨S100000x3, .f32⟩ : BufTy).Contents (Elt Ideal)) (x1 : (⟨S2x1200000, .i32⟩ : BufTy).Contents (Elt Ideal)) (x2 : (⟨S100000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S3x64, .f32⟩ : BufTy).Contents (Elt Ideal)) (x8 : (⟨S64, .f32⟩ : BufTy).Contents (Elt Ideal)) (x9 : (⟨S3x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64, .f32⟩ : BufTy).Contents (Elt Ideal)) (x28 : (⟨S64, .f32⟩ : BufTy).Contents (Elt Ideal)) (x29 : (⟨S64, .f32⟩ : BufTy).Contents (Elt Ideal)) (x30 : (⟨S64, .f32⟩ : BufTy).Contents (Elt Ideal)) (x31 : (⟨S64x32, .f32⟩ : BufTy).Contents (Elt Ideal)) (x32 : (⟨S32, .f32⟩ : BufTy).Contents (Elt Ideal)) (x33 : (⟨S32x10, .f32⟩ : BufTy).Contents (Elt Ideal)) (x34 : (⟨S10, .f32⟩ : BufTy).Contents (Elt Ideal))
    (y0 : (⟨S100000x3, .f32⟩ : BufTy).Contents (Elt Ideal)) (y1 : (⟨S2x1200000, .i32⟩ : BufTy).Contents (Elt Ideal)) (y2 : (⟨S100000, .i32⟩ : BufTy).Contents (Elt Ideal)) (y3 : (⟨S3x64, .f32⟩ : BufTy).Contents (Elt Ideal)) (y4 : (⟨S64, .f32⟩ : BufTy).Contents (Elt Ideal)) (y5 : (⟨S3x64, .f32⟩ : BufTy).Contents (Elt Ideal)) (y6 : (⟨S64, .f32⟩ : BufTy).Contents (Elt Ideal)) (y7 : (⟨S3x64, .f32⟩ : BufTy).Contents (Elt Ideal)) (y8 : (⟨S64, .f32⟩ : BufTy).Contents (Elt Ideal)) (y9 : (⟨S3x64, .f32⟩ : BufTy).Contents (Elt Ideal)) (y10 : (⟨S64, .f32⟩ : BufTy).Contents (Elt Ideal)) (y11 : (⟨S64x64, .f32⟩ : BufTy).Contents (Elt Ideal)) (y12 : (⟨S64, .f32⟩ : BufTy).Contents (Elt Ideal)) (y13 : (⟨S64x64, .f32⟩ : BufTy).Contents (Elt Ideal)) (y14 : (⟨S64, .f32⟩ : BufTy).Contents (Elt Ideal)) (y15 : (⟨S64x64, .f32⟩ : BufTy).Contents (Elt Ideal)) (y16 : (⟨S64, .f32⟩ : BufTy).Contents (Elt Ideal)) (y17 : (⟨S64x64, .f32⟩ : BufTy).Contents (Elt Ideal)) (y18 : (⟨S64, .f32⟩ : BufTy).Contents (Elt Ideal)) (y19 : (⟨S64x64, .f32⟩ : BufTy).Contents (Elt Ideal)) (y20 : (⟨S64, .f32⟩ : BufTy).Contents (Elt Ideal)) (y21 : (⟨S64x64, .f32⟩ : BufTy).Contents (Elt Ideal)) (y22 : (⟨S64, .f32⟩ : BufTy).Contents (Elt Ideal)) (y23 : (⟨S64x64, .f32⟩ : BufTy).Contents (Elt Ideal)) (y24 : (⟨S64, .f32⟩ : BufTy).Contents (Elt Ideal)) (y25 : (⟨S64x64, .f32⟩ : BufTy).Contents (Elt Ideal)) (y26 : (⟨S64, .f32⟩ : BufTy).Contents (Elt Ideal)) (y27 : (⟨S64, .f32⟩ : BufTy).Contents (Elt Ideal)) (y28 : (⟨S64, .f32⟩ : BufTy).Contents (Elt Ideal)) (y29 : (⟨S64, .f32⟩ : BufTy).Contents (Elt Ideal)) (y30 : (⟨S64, .f32⟩ : BufTy).Contents (Elt Ideal)) (y31 : (⟨S64x32, .f32⟩ : BufTy).Contents (Elt Ideal)) (y32 : (⟨S32, .f32⟩ : BufTy).Contents (Elt Ideal)) (y33 : (⟨S32x10, .f32⟩ : BufTy).Contents (Elt Ideal)) (y34 : (⟨S10, .f32⟩ : BufTy).Contents (Elt Ideal))
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) (e20 : x20 = y20) (e21 : x21 = y21) (e22 : x22 = y22) (e23 : x23 = y23) (e24 : x24 = y24) (e25 : x25 = y25) (e26 : x26 = y26) (e27 : x27 = y27) (e28 : x28 = y28) (e29 : x29 = y29) (e30 : x30 = y30) (e31 : x31 = y31) (e32 : x32 = y32) (e33 : x33 = y33) (e34 : x34 = y34) :
    Cert.ReferenceIdeal.ReadP.val_main_v130 (F := Ideal) x0 x1 x2 x3 x4 x5 x6 x7 x8 x9 x10 x11 x12 x13 x14 x15 x16 x17 x18 x19 x20 x21 x22 x23 x24 x25 x26 x27 x28 x29 x30 x31 x32 x33 x34
      = Cert.ReferenceIdeal.ReadP.val_main_v130 (F := Ideal) y0 y1 y2 y3 y4 y5 y6 y7 y8 y9 y10 y11 y12 y13 y14 y15 y16 y17 y18 y19 y20 y21 y22 y23 y24 y25 y26 y27 y28 y29 y30 y31 y32 y33 y34 := by
  subst e0 e1 e2 e3 e4 e5 e6 e7 e8 e9 e10 e11 e12 e13 e14 e15 e16 e17 e18 e19 e20 e21 e22 e23 e24 e25 e26 e27 e28 e29 e30 e31 e32 e33 e34
  rfl

set_option maxHeartbeats 4000000 in
/-- Both programs end with the same result: the kernel's fold of @main ends at the reference's result as a function of
    the launch arguments (`Chain.value`), the reference's run ends at that function of its own arguments, and the two
    memories agree on the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.ReadP.val_main_v130 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28))
      (m ((c.tc : Thread Cert.KernelIdeal.nD Cert.KernelIdeal.τ).loc Cert.KernelIdeal.main_arg29))
      (m ((c.tc : Thread Cert.KernelIdeal.nD Cert.KernelIdeal.τ).loc Cert.KernelIdeal.main_arg30))
      (m ((c.tc : Thread Cert.KernelIdeal.nD Cert.KernelIdeal.τ).loc Cert.KernelIdeal.main_arg31))
      (m ((c.tc : Thread Cert.KernelIdeal.nD Cert.KernelIdeal.τ).loc Cert.KernelIdeal.main_arg32))
      (m ((c.tc : Thread Cert.KernelIdeal.nD Cert.KernelIdeal.τ).loc Cert.KernelIdeal.main_arg33))
      (m ((c.tc : Thread Cert.KernelIdeal.nD Cert.KernelIdeal.τ).loc Cert.KernelIdeal.main_arg34)), ?_, ?_⟩
  · exact (θ_run Cert.KernelIdeal.defs _ _).mono
      (fun r h c => ⟨(h c).1.trans (Cert.KernelIdeal.Chain.value m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33, h34⟩ := hagree c
    exact (Cert.ReferenceIdeal.ReadP.val_main_v130_eq m' c).trans (result_congr _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _
      h0 h1 h2 h3 h4 h5 h6 h7 h8 h9 h10 h11 h12 h13 h14 h15 h16 h17 h18 h19 h20 h21 h22 h23 h24 h25 h26 h27 h28 h29 h30 h31 h32 h33 h34)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
